-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v90)) (v1 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_v86) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x16 : Shape := ⟨2, ![1000000, 16]⟩
abbrev S2x16000000 : Shape := ⟨2, ![2, 16000000]⟩
abbrev S1000000 : Shape := ⟨1, ![1000000]⟩
abbrev S16x4 : Shape := ⟨2, ![16, 4]⟩
abbrev S4 : Shape := ⟨1, ![4]⟩
abbrev S4x4 : Shape := ⟨2, ![4, 4]⟩
abbrev S4x2 : Shape := ⟨2, ![4, 2]⟩
abbrev S2 : Shape := ⟨1, ![2]⟩
abbrev S2x1 : Shape := ⟨2, ![2, 1]⟩
abbrev S1 : Shape := ⟨1, ![1]⟩
abbrev S_ : Shape := ⟨0, ![]⟩

class Facts : Prop where
  bcast_S_S1000000x16 : S_.BroadcastsInDim S1000000x16 (![] : Fin 0 → Fin S1000000x16.rank)
  reducesTo_S1000000x16_S_d0_1 : S1000000x16.ReducesTo [0, 1] S_
  h_S_ : 0 < S_.numel
  bcast_S_S16x4 : S_.BroadcastsInDim S16x4 (![] : Fin 0 → Fin S16x4.rank)
  reducesTo_S16x4_S_d0_1 : S16x4.ReducesTo [0, 1] S_
  bcast_S_S4 : S_.BroadcastsInDim S4 (![] : Fin 0 → Fin S4.rank)
  reducesTo_S4_S_d0 : S4.ReducesTo [0] S_
  bcast_S_S4x4 : S_.BroadcastsInDim S4x4 (![] : Fin 0 → Fin S4x4.rank)
  reducesTo_S4x4_S_d0_1 : S4x4.ReducesTo [0, 1] S_
  bcast_S_S4x2 : S_.BroadcastsInDim S4x2 (![] : Fin 0 → Fin S4x2.rank)
  reducesTo_S4x2_S_d0_1 : S4x2.ReducesTo [0, 1] S_
  bcast_S_S2 : S_.BroadcastsInDim S2 (![] : Fin 0 → Fin S2.rank)
  reducesTo_S2_S_d0 : S2.ReducesTo [0] S_
  bcast_S_S2x1 : S_.BroadcastsInDim S2x1 (![] : Fin 0 → Fin S2x1.rank)
  reducesTo_S2x1_S_d0_1 : S2x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S2x1 .f32) (main_arg10 : FVec F S1 .f32) (main_v33 : IVec S_ 1) : IVec S_ 1 :=
  let main_v34 : FVec F S2x1 .f32 := Host.absf main_arg9
  let main_cst_12 : FVec F S_ .f32 := constant S_ .f32 0x7F800000#32
  let main_v35 : FVec F S2x1 .f32 := broadcastInDim S2x1 ![] bcast_S_S2x1 main_cst_12
  let main_v36 : IVec S2x1 1 := cmpf .olt main_v34 main_v35
  let main_c_13 : IVec S_ 1 := constantI S_ 1 1#1
  let main_v37 : IVec S_ 1 := (fun x v => Host.reduce IntOp.andi x v reducesTo_S2x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S4 .f32) (main_arg7 : FVec F S4x2 .f32) (main_arg8 : FVec F S2 .f32) (main_arg9 : FVec F S2x1 .f32) (main_arg10 : FVec F S1 .f32) (main_v13 : IVec S_ 1) (main_v16 : IVec S4x4 1) : IVec S_ 1 :=
  let main_c_5 : IVec S_ 1 := constantI S_ 1 1#1
  let main_v17 : IVec S_ 1 := (fun x v => Host.reduce IntOp.andi x v reducesTo_S4x4_S_d0_1 h_S_) main_v16 main_c_5
  let main_v18 : IVec S_ 1 := andi main_v13 main_v17
  let main_v19 : FVec F S4 .f32 := Host.absf main_arg6
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S4x2 .f32 := Host.absf main_arg7
  let main_cst_8 : FVec F S_ .f32 := constant S_ .f32 0x7F800000#32
  let main_v25 : FVec F S4x2 .f32 := broadcastInDim S4x2 ![] bcast_S_S4x2 main_cst_8
  let main_v26 : IVec S4x2 1 := cmpf .olt main_v24 main_v25
  let main_c_9 : IVec S_ 1 := constantI S_ 1 1#1
  let main_v27 : IVec S_ 1 := (fun x v => Host.reduce IntOp.andi x v reducesTo_S4x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg9 main_arg10 main_v33

def fn {F : FTy → Type} [FloatOps F] (main_arg0 : FVec F S1000000x16 .f32) (main_arg1 : IVec S2x16000000 32) (main_arg2 : IVec S1000000 32) (main_arg3 : FVec F S16x4 .f32) (main_arg4 : FVec F S4 .f32) (main_arg5 : FVec F S4x4 .f32) (main_arg6 : FVec F S4 .f32) (main_arg7 : FVec F S4x2 .f32) (main_arg8 : FVec F S2 .f32) (main_arg9 : FVec F S2x1 .f32) (main_arg10 : FVec F S1 .f32) : IVec S_ 1 :=
  let main_v0 : FVec F S1000000x16 .f32 := Host.absf main_arg0
  let main_cst : FVec F S_ .f32 := constant S_ .f32 0x7F800000#32
  let main_v1 : FVec F S1000000x16 .f32 := broadcastInDim S1000000x16 ![] bcast_S_S1000000x16 main_cst
  let main_v2 : IVec S1000000x16 1 := cmpf .olt main_v0 main_v1
  let main_c : IVec S_ 1 := constantI S_ 1 1#1
  let main_v3 : IVec S_ 1 := (fun x v => Host.reduce IntOp.andi x v reducesTo_S1000000x16_S_d0_1 h_S_) main_v2 main_c
  let main_v4 : FVec F S16x4 .f32 := Host.absf main_arg3
  let main_cst_0 : FVec F S_ .f32 := constant S_ .f32 0x7F800000#32
  let main_v5 : FVec F S16x4 .f32 := broadcastInDim S16x4 ![] bcast_S_S16x4 main_cst_0
  let main_v6 : IVec S16x4 1 := cmpf .olt main_v4 main_v5
  let main_c_1 : IVec S_ 1 := constantI S_ 1 1#1
  let main_v7 : IVec S_ 1 := (fun x v => Host.reduce IntOp.andi x v reducesTo_S16x4_S_d0_1 h_S_) main_v6 main_c_1
  let main_v8 : IVec S_ 1 := andi main_v3 main_v7
  let main_v9 : FVec F S4 .f32 := Host.absf main_arg4
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S4x4 .f32 := Host.absf main_arg5
  let main_cst_4 : FVec F S_ .f32 := constant S_ .f32 0x7F800000#32
  let main_v15 : FVec F S4x4 .f32 := broadcastInDim S4x4 ![] bcast_S_S4x4 main_cst_4
  let main_v16 : IVec S4x4 1 := cmpf .olt main_v14 main_v15
  fn_part1 (F := F) main_arg6 main_arg7 main_arg8 main_arg9 main_arg10 main_v13 main_v16
-- ==== Kernel.lean ====
abbrev S1000000x16 : Shape := ⟨2, ![1000000, 16]⟩
abbrev S2x16000000 : Shape := ⟨2, ![2, 16000000]⟩
abbrev S1000000 : Shape := ⟨1, ![1000000]⟩
abbrev S16x4 : Shape := ⟨2, ![16, 4]⟩
abbrev S4 : Shape := ⟨1, ![4]⟩
abbrev S4x4 : Shape := ⟨2, ![4, 4]⟩
abbrev S4x2 : Shape := ⟨2, ![4, 2]⟩
abbrev S2 : Shape := ⟨1, ![2]⟩
abbrev S2x1 : Shape := ⟨2, ![2, 1]⟩
abbrev S1 : Shape := ⟨1, ![1]⟩
abbrev S1x16000000 : Shape := ⟨2, ![1, 16000000]⟩
abbrev S16000000 : Shape := ⟨1, ![16000000]⟩
abbrev S17000000 : Shape := ⟨1, ![17000000]⟩
abbrev S_ : Shape := ⟨0, ![]⟩
abbrev S17000000x1 : Shape := ⟨2, ![17000000, 1]⟩
abbrev S1000000x4 : Shape := ⟨2, ![1000000, 4]⟩
abbrev S10000x16 : Shape := ⟨2, ![10000, 16]⟩
abbrev S10000x4 : Shape := ⟨2, ![10000, 4]⟩
abbrev S17000000x4 : Shape := ⟨2, ![17000000, 4]⟩
abbrev S1x4 : Shape := ⟨2, ![1, 4]⟩
abbrev S1000000x2 : Shape := ⟨2, ![1000000, 2]⟩
abbrev S10000x2 : Shape := ⟨2, ![10000, 2]⟩
abbrev S17000000x2 : Shape := ⟨2, ![17000000, 2]⟩
abbrev S1x2 : Shape := ⟨2, ![1, 2]⟩
abbrev S1024x2 : Shape := ⟨2, ![1024, 2]⟩
abbrev S1000000x1 : Shape := ⟨2, ![1000000, 1]⟩
abbrev S1024 : Shape := ⟨1, ![1024]⟩
abbrev S1024x1 : Shape := ⟨2, ![1024, 1]⟩
abbrev S1x1 : Shape := ⟨2, ![1, 1]⟩

abbrev nBuf : Space → Nat
  | .hbm => 126
  | .vmem => 22
  | .smem => 0
  | _ => 0

abbrev bufTy : (tb : Table) → Fin (tcTables nBuf tb) → BufTy
  | .hbm, ⟨0, _⟩ => ⟨S1000000x16, .f32⟩
  | .hbm, ⟨1, _⟩ => ⟨S2x16000000, .i32⟩
  | .hbm, ⟨2, _⟩ => ⟨S1000000, .i32⟩
  | .hbm, ⟨3, _⟩ => ⟨S16x4, .f32⟩
  | .hbm, ⟨4, _⟩ => ⟨S4, .f32⟩
  | .hbm, ⟨5, _⟩ => ⟨S4x4, .f32⟩
  | .hbm, ⟨6, _⟩ => ⟨S4, .f32⟩
  | .hbm, ⟨7, _⟩ => ⟨S4x2, .f32⟩
  | .hbm, ⟨8, _⟩ => ⟨S2, .f32⟩
  | .hbm, ⟨9, _⟩ => ⟨S2x1, .f32⟩
  | .hbm, ⟨10, _⟩ => ⟨S1, .f32⟩
  | .hbm, ⟨11, _⟩ => ⟨S1000000, .i32⟩
  | .hbm, ⟨12, _⟩ => ⟨S1x16000000, .i32⟩
  | .hbm, ⟨13, _⟩ => ⟨S16000000, .i32⟩
  | .hbm, ⟨14, _⟩ => ⟨S17000000, .i32⟩
  | .hbm, ⟨15, _⟩ => ⟨S1x16000000, .i32⟩
  | .hbm, ⟨16, _⟩ => ⟨S16000000, .i32⟩
  | .hbm, ⟨17, _⟩ => ⟨S17000000, .i32⟩
  | .hbm, ⟨18, _⟩ => ⟨S_, .f32⟩
  | .hbm, ⟨19, _⟩ => ⟨S17000000, .f32⟩
  | .hbm, ⟨20, _⟩ => ⟨S_, .f32⟩
  | .hbm, ⟨21, _⟩ => ⟨S1000000, .f32⟩
  | .hbm, ⟨22, _⟩ => ⟨S17000000x1, .i32⟩
  | .hbm, ⟨23, _⟩ => ⟨S1000000, .f32⟩
  | .hbm, ⟨24, _⟩ => ⟨S_, .f32⟩
  | .hbm, ⟨25, _⟩ => ⟨S1000000, .f32⟩
  | .hbm, ⟨26, _⟩ => ⟨S1000000, .i1⟩
  | .hbm, ⟨27, _⟩ => ⟨S_, .f32⟩
  | .hbm, ⟨28, _⟩ => ⟨S1000000, .f32⟩
  | .hbm, ⟨29, _⟩ => ⟨S1000000, .f32⟩
  | .hbm, ⟨30, _⟩ => ⟨S_, .f32⟩
  | .hbm, ⟨31, _⟩ => ⟨S_, .f32⟩
  | .hbm, ⟨32, _⟩ => ⟨S1000000, .f32⟩
  | .hbm, ⟨33, _⟩ => ⟨S1000000, .f32⟩
  | .hbm, ⟨34, _⟩ => ⟨S_, .i32⟩
  | .hbm, ⟨35, _⟩ => ⟨S17000000, .i32⟩
  | .hbm, ⟨36, _⟩ => ⟨S17000000, .i1⟩
  | .hbm, ⟨37, _⟩ => ⟨S_, .i32⟩
  | .hbm, ⟨38, _⟩ => ⟨S17000000, .i32⟩
  | .hbm, ⟨39, _⟩ => ⟨S17000000, .i32⟩
  | .hbm, ⟨40, _⟩ => ⟨S17000000, .i32⟩
  | .hbm, ⟨41, _⟩ => ⟨S17000000x1, .i32⟩
  | .hbm, ⟨42, _⟩ => ⟨S17000000, .f32⟩
  | .hbm, ⟨43, _⟩ => ⟨S_, .i32⟩
  | .hbm, ⟨44, _⟩ => ⟨S17000000, .i32⟩
  | .hbm, ⟨45, _⟩ => ⟨S17000000, .i1⟩
  | .hbm, ⟨46, _⟩ => ⟨S_, .i32⟩
  | .hbm, ⟨47, _⟩ => ⟨S17000000, .i32⟩
  | .hbm, ⟨48, _⟩ => ⟨S17000000, .i32⟩
  | .hbm, ⟨49, _⟩ => ⟨S17000000, .i32⟩
  | .hbm, ⟨50, _⟩ => ⟨S17000000x1, .i32⟩
  | .hbm, ⟨51, _⟩ => ⟨S17000000, .f32⟩
  | .hbm, ⟨52, _⟩ => ⟨S17000000, .f32⟩
  | .hbm, ⟨53, _⟩ => ⟨S17000000x1, .f32⟩
  | .hbm, ⟨54, _⟩ => ⟨S1000000x4, .f32⟩
  | .hbm, ⟨55, _⟩ => ⟨S_, .i32⟩
  | .hbm, ⟨56, _⟩ => ⟨S17000000, .i32⟩
  | .hbm, ⟨57, _⟩ => ⟨S17000000, .i1⟩
  | .hbm, ⟨58, _⟩ => ⟨S_, .i32⟩
  | .hbm, ⟨59, _⟩ => ⟨S17000000, .i32⟩
  | .hbm, ⟨60, _⟩ => ⟨S17000000, .i32⟩
  | .hbm, ⟨61, _⟩ => ⟨S17000000, .i32⟩
  | .hbm, ⟨62, _⟩ => ⟨S17000000x1, .i32⟩
  | .hbm, ⟨63, _⟩ => ⟨S17000000x4, .f32⟩
  | .hbm, ⟨64, _⟩ => ⟨S17000000x4, .f32⟩
  | .hbm, ⟨65, _⟩ => ⟨S17000000x4, .f32⟩
  | .hbm, ⟨66, _⟩ => ⟨S_, .f32⟩
  | .hbm, ⟨67, _⟩ => ⟨S1000000x4, .f32⟩
  | .hbm, ⟨68, _⟩ => ⟨S17000000x1, .i32⟩
  | .hbm, ⟨69, _⟩ => ⟨S1000000x4, .f32⟩
  | .hbm, ⟨70, _⟩ => ⟨S1x4, .f32⟩
  | .hbm, ⟨71, _⟩ => ⟨S1000000x4, .f32⟩
  | .hbm, ⟨72, _⟩ => ⟨S_, .i32⟩
  | .hbm, ⟨73, _⟩ => ⟨S17000000, .i32⟩
  | .hbm, ⟨74, _⟩ => ⟨S17000000, .i1⟩
  | .hbm, ⟨75, _⟩ => ⟨S_, .i32⟩
  | .hbm, ⟨76, _⟩ => ⟨S17000000, .i32⟩
  | .hbm, ⟨77, _⟩ => ⟨S17000000, .i32⟩
  | .hbm, ⟨78, _⟩ => ⟨S17000000, .i32⟩
  | .hbm, ⟨79, _⟩ => ⟨S17000000x1, .i32⟩
  | .hbm, ⟨80, _⟩ => ⟨S17000000x4, .f32⟩
  | .hbm, ⟨81, _⟩ => ⟨S17000000x4, .f32⟩
  | .hbm, ⟨82, _⟩ => ⟨S17000000x4, .f32⟩
  | .hbm, ⟨83, _⟩ => ⟨S_, .f32⟩
  | .hbm, ⟨84, _⟩ => ⟨S1000000x4, .f32⟩
  | .hbm, ⟨85, _⟩ => ⟨S17000000x1, .i32⟩
  | .hbm, ⟨86, _⟩ => ⟨S1000000x4, .f32⟩
  | .hbm, ⟨87, _⟩ => ⟨S1x4, .f32⟩
  | .hbm, ⟨88, _⟩ => ⟨S1000000x2, .f32⟩
  | .hbm, ⟨89, _⟩ => ⟨S_, .i32⟩
  | .hbm, ⟨90, _⟩ => ⟨S17000000, .i32⟩
  | .hbm, ⟨91, _⟩ => ⟨S17000000, .i1⟩
  | .hbm, ⟨92, _⟩ => ⟨S_, .i32⟩
  | .hbm, ⟨93, _⟩ => ⟨S17000000, .i32⟩
  | .hbm, ⟨94, _⟩ => ⟨S17000000, .i32⟩
  | .hbm, ⟨95, _⟩ => ⟨S17000000, .i32⟩
  | .hbm, ⟨96, _⟩ => ⟨S17000000x1, .i32⟩
  | .hbm, ⟨97, _⟩ => ⟨S17000000x2, .f32⟩
  | .hbm, ⟨98, _⟩ => ⟨S17000000x2, .f32⟩
  | .hbm, ⟨99, _⟩ => ⟨S17000000x2, .f32⟩
  | .hbm, ⟨100, _⟩ => ⟨S_, .f32⟩
  | .hbm, ⟨101, _⟩ => ⟨S1000000x2, .f32⟩
  | .hbm, ⟨102, _⟩ => ⟨S17000000x1, .i32⟩
  | .hbm, ⟨103, _⟩ => ⟨S1000000x2, .f32⟩
  | .hbm, ⟨104, _⟩ => ⟨S1x2, .f32⟩
  | .hbm, ⟨105, _⟩ => ⟨S1000000x2, .f32⟩
  | .hbm, ⟨106, _⟩ => ⟨S_, .f32⟩
  | .hbm, ⟨107, _⟩ => ⟨S1024x2, .f32⟩
  | .hbm, ⟨108, _⟩ => ⟨S1000000x1, .i32⟩
  | .hbm, ⟨109, _⟩ => ⟨S1024x2, .f32⟩
  | .hbm, ⟨110, _⟩ => ⟨S_, .f32⟩
  | .hbm, ⟨111, _⟩ => ⟨S1000000, .f32⟩
  | .hbm, ⟨112, _⟩ => ⟨S_, .f32⟩
  | .hbm, ⟨113, _⟩ => ⟨S1024, .f32⟩
  | .hbm, ⟨114, _⟩ => ⟨S1000000x1, .i32⟩
  | .hbm, ⟨115, _⟩ => ⟨S1024, .f32⟩
  | .hbm, ⟨116, _⟩ => ⟨S_, .f32⟩
  | .hbm, ⟨117, _⟩ => ⟨S1024, .f32⟩
  | .hbm, ⟨118, _⟩ => ⟨S1024, .f32⟩
  | .hbm, ⟨119, _⟩ => ⟨S1024x1, .f32⟩
  | .hbm, ⟨120, _⟩ => ⟨S1024x2, .f32⟩
  | .hbm, ⟨121, _⟩ => ⟨S1024x2, .f32⟩
  | .hbm, ⟨122, _⟩ => ⟨S1024x1, .f32⟩
  | .hbm, ⟨123, _⟩ => ⟨S1x1, .f32⟩
  | .hbm, ⟨124, _⟩ => ⟨S1024x1, .f32⟩
  | .hbm, ⟨125, _⟩ => ⟨S1024x1, .f32⟩
  | .local _ .vmem, ⟨0, _⟩ => ⟨S10000x16, .f32⟩
  | .local _ .vmem, ⟨1, _⟩ => ⟨S10000x16, .f32⟩
  | .local _ .vmem, ⟨2, _⟩ => ⟨S16x4, .f32⟩
  | .local _ .vmem, ⟨3, _⟩ => ⟨S10000x4, .f32⟩
  | .local _ .vmem, ⟨4, _⟩ => ⟨S10000x4, .f32⟩
  | .local _ .vmem, ⟨5, _⟩ => ⟨S10000x4, .f32⟩
  | .local _ .vmem, ⟨6, _⟩ => ⟨S10000x4, .f32⟩
  | .local _ .vmem, ⟨7, _⟩ => ⟨S1x4, .f32⟩
  | .local _ .vmem, ⟨8, _⟩ => ⟨S4x4, .f32⟩
  | .local _ .vmem, ⟨9, _⟩ => ⟨S10000x4, .f32⟩
  | .local _ .vmem, ⟨10, _⟩ => ⟨S10000x4, .f32⟩
  | .local _ .vmem, ⟨11, _⟩ => ⟨S10000x4, .f32⟩
  | .local _ .vmem, ⟨12, _⟩ => ⟨S10000x4, .f32⟩
  | .local _ .vmem, ⟨13, _⟩ => ⟨S1x4, .f32⟩
  | .local _ .vmem, ⟨14, _⟩ => ⟨S4x2, .f32⟩
  | .local _ .vmem, ⟨15, _⟩ => ⟨S10000x2, .f32⟩
  | .local _ .vmem, ⟨16, _⟩ => ⟨S10000x2, .f32⟩
  | .local _ .vmem, ⟨17, _⟩ => ⟨S10000x2, .f32⟩
  | .local _ .vmem, ⟨18, _⟩ => ⟨S10000x2, .f32⟩
  | .local _ .vmem, ⟨19, _⟩ => ⟨S1x2, .f32⟩
  | .local _ .vmem, ⟨20, _⟩ => ⟨S10000x2, .f32⟩
  | .local _ .vmem, ⟨21, _⟩ => ⟨S10000x2, .f32⟩
  | _, _ => ⟨S1000000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_10 : Ref sig .tc := ⟨.hbm, 72, rfl⟩
abbrev main_v47 : Ref sig .tc := ⟨.hbm, 73, rfl⟩
abbrev main_v48 : Ref sig .tc := ⟨.hbm, 74, rfl⟩
abbrev main_c_11 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_12 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_13 : Ref sig .tc := ⟨.hbm, 89, rfl⟩
abbrev main_v61 : Ref sig .tc := ⟨.hbm, 90, rfl⟩
abbrev main_v62 : Ref sig .tc := ⟨.hbm, 91, rfl⟩
abbrev main_c_14 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_15 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_16 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_17 : Ref sig .tc := ⟨.hbm, 110, rfl⟩
abbrev main_v78 : Ref sig .tc := ⟨.hbm, 111, rfl⟩
abbrev main_cst_18 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_19 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4x4 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x4 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x4 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S4x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x16000000_S1x16000000_0_0 : S2x16000000.Slices ![0, 0] S1x16000000
  shapeCasts_S1x16000000_S16000000 : S1x16000000.ShapeCasts S16000000
  concatenates_S16000000_S1000000_S17000000_d0 : Shape.Concatenates [S16000000, S1000000] S17000000 0
  slices_S2x16000000_S1x16000000_1_0 : S2x16000000.Slices ![1, 0] S1x16000000
  bcast_S_S17000000 : S_.BroadcastsInDim S17000000 (![] : Fin 0 → Fin S17000000.rank)
  bcast_S_S1000000 : S_.BroadcastsInDim S1000000 (![] : Fin 0 → Fin S1000000.rank)
  bcast_S17000000_S17000000x1_0 : S17000000.BroadcastsInDim S17000000x1 (![0] : Fin 1 → Fin S17000000x1.rank)
  inb_S10000x16_S10000x16_0_0 : ∀ a, (![0, 0] : Fin 2 → Nat) a + S10000x16.size a ≤ S10000x16.size a
  h_S10000x16 : 0 < S10000x16.numel
  bitsLt_bf16_f32 : FTy.bits .bf16 < FTy.bits .f32
  inb_S16x4_S16x4_0_0 : ∀ a, (![0, 0] : Fin 2 → Nat) a + S16x4.size a ≤ S16x4.size a
  h_S16x4 : 0 < S16x4.numel
  inb_S10000x4_S10000x4_0_0 : ∀ a, (![0, 0] : Fin 2 → Nat) a + S10000x4.size a ≤ S10000x4.size a
  h_S10000x4 : 0 < S10000x4.numel
  bcast_S17000000x1_S17000000x4_0_1 : S17000000x1.BroadcastsInDim S17000000x4 (![0, 1] : Fin 2 → Fin S17000000x4.rank)
  bcast_S_S1000000x4 : S_.BroadcastsInDim S1000000x4 (![] : Fin 0 → Fin S1000000x4.rank)
  shapeCasts_S4_S1x4 : S4.ShapeCasts S1x4
  shapeCasts_S10000x4_S10000x4 : S10000x4.ShapeCasts S10000x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S10000x4 : S1x4.Broadcasts S10000x4
  inb_S4x4_S4x4_0_0 : ∀ a, (![0, 0] : Fin 2 → Nat) a + S4x4.size a ≤ S4x4.size a
  h_S4x4 : 0 < S4x4.numel
  inb_S4x2_S4x2_0_0 : ∀ a, (![0, 0] : Fin 2 → Nat) a + S4x2.size a ≤ S4x2.size a
  h_S4x2 : 0 < S4x2.numel
  inb_S10000x2_S10000x2_0_0 : ∀ a, (![0, 0] : Fin 2 → Nat) a + S10000x2.size a ≤ S10000x2.size a
  h_S10000x2 : 0 < S10000x2.numel
  bcast_S17000000x1_S17000000x2_0_1 : S17000000x1.BroadcastsInDim S17000000x2 (![0, 1] : Fin 2 → Fin S17000000x2.rank)
  bcast_S_S1000000x2 : S_.BroadcastsInDim S1000000x2 (![] : Fin 0 → Fin S1000000x2.rank)
  shapeCasts_S2_S1x2 : S2.ShapeCasts S1x2
  shapeCasts_S10000x2_S10000x2 : S10000x2.ShapeCasts S10000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  bcast_S_S1024x2 : S_.BroadcastsInDim S1024x2 (![] : Fin 0 → Fin S1024x2.rank)
  bcast_S1000000_S1000000x1_0 : S1000000.BroadcastsInDim S1000000x1 (![0] : Fin 1 → Fin S1000000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x2_0_1 : S1024x1.BroadcastsInDim S1024x2 (![0, 1] : Fin 2 → Fin S1024x2.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  scatter_S1000000_S17000000x1_S17000000_n_0_0_1_wf : ScatterDims.WF S1000000 S17000000x1 S17000000 [] [0] [0] 1
  gather_S1000000_S17000000x1_S17000000_n_0_n_n_0_1_1_wf : GatherDims.WF S1000000 S17000000x1 S17000000 [] [0] [] [0] [] 1 ![1]
  dot_S10000x16_S16x4_S10000x4_1_0_0_1_n_n_wf : DotDims.WF S10000x16 S16x4 S10000x4 [1] [0] [0] [1] [] []
  gather_S1000000x4_S17000000x1_S17000000x4_1_0_n_n_0_1_14_wf : GatherDims.WF S1000000x4 S17000000x1 S17000000x4 [1] [0] [] [0] [] 1 ![1, 4]
  scatter_S1000000x4_S17000000x1_S17000000x4_1_0_0_1_wf : ScatterDims.WF S1000000x4 S17000000x1 S17000000x4 [1] [0] [0] 1
  dot_S10000x4_S4x4_S10000x4_1_0_0_1_n_n_wf : DotDims.WF S10000x4 S4x4 S10000x4 [1] [0] [0] [1] [] []
  dot_S10000x4_S4x2_S10000x2_1_0_0_1_n_n_wf : DotDims.WF S10000x4 S4x2 S10000x2 [1] [0] [0] [1] [] []
  gather_S1000000x2_S17000000x1_S17000000x2_1_0_n_n_0_1_12_wf : GatherDims.WF S1000000x2 S17000000x1 S17000000x2 [1] [0] [] [0] [] 1 ![1, 2]
  scatter_S1000000x2_S17000000x1_S17000000x2_1_0_0_1_wf : ScatterDims.WF S1000000x2 S17000000x1 S17000000x2 [1] [0] [0] 1
  scatter_S1024x2_S1000000x1_S1000000x2_1_0_0_1_wf : ScatterDims.WF S1024x2 S1000000x1 S1000000x2 [1] [0] [0] 1
  scatter_S1024_S1000000x1_S1000000_n_0_0_1_wf : ScatterDims.WF S1024 S1000000x1 S1000000 [] [0] [0] 1
  dot_S1024x2_S2x1_S1024x1_1_0_0_1_n_n_wf : DotDims.WF S1024x2 S2x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S1000000x16.size a
  hwx0_0 : ∀ i : grid0.Coords, EltTy.bits .f32 = 32 ∨ (Rect.block (s := S1000000x16) S10000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x4.size a ≤ S16x4.size a
  hwx0_1 : ∀ i : grid0.Coords, EltTy.bits .f32 = 32 ∨ (Rect.block (s := S16x4) S16x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x4.size a ≤ S1000000x4.size a
  hwx0_2 : ∀ i : grid0.Coords, EltTy.bits .f32 = 32 ∨ (Rect.block (s := S1000000x4) S10000x4.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x4.size a ≤ S1000000x4.size a
  hwx1_0 : ∀ i : grid1.Coords, EltTy.bits .f32 = 32 ∨ (Rect.block (s := S1000000x4) S10000x4.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4.size a ≤ S1x4.size a
  hwx1_1 : ∀ i : grid1.Coords, EltTy.bits .f32 = 32 ∨ (Rect.block (s := S1x4) S1x4.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x4.size a ≤ S4x4.size a
  hwx1_2 : ∀ i : grid1.Coords, EltTy.bits .f32 = 32 ∨ (Rect.block (s := S4x4) S4x4.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x4.size a ≤ S1000000x4.size a
  hwx1_3 : ∀ i : grid1.Coords, EltTy.bits .f32 = 32 ∨ (Rect.block (s := S1000000x4) S10000x4.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x4.size a ≤ S1000000x4.size a
  hwx2_0 : ∀ i : grid2.Coords, EltTy.bits .f32 = 32 ∨ (Rect.block (s := S1000000x4) S10000x4.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x4.size a ≤ S1x4.size a
  hwx2_1 : ∀ i : grid2.Coords, EltTy.bits .f32 = 32 ∨ (Rect.block (s := S1x4) S1x4.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4x2.size a ≤ S4x2.size a
  hwx2_2 : ∀ i : grid2.Coords, EltTy.bits .f32 = 32 ∨ (Rect.block (s := S4x2) S4x2.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x2.size a ≤ S1000000x2.size a
  hwx2_3 : ∀ i : grid2.Coords, EltTy.bits .f32 = 32 ∨ (Rect.block (s := S1000000x2) S10000x2.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x2.size a ≤ S1000000x2.size a
  hwx3_0 : ∀ i : grid3.Coords, EltTy.bits .f32 = 32 ∨ (Rect.block (s := S1000000x2) S10000x2.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x2.size a ≤ S1x2.size a
  hwx3_1 : ∀ i : grid3.Coords, EltTy.bits .f32 = 32 ∨ (Rect.block (s := S1x2) S1x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x2.size a ≤ S1000000x2.size a
  hwx3_2 : ∀ i : grid3.Coords, EltTy.bits .f32 = 32 ∨ (Rect.block (s := S1000000x2) S10000x2.size (cc3_transform_2 i) (hinb3_2 i)).WholeWords (EltTy.packing .f32)

variable [Facts₀]

def scatter_S1000000_S17000000x1_S17000000_n_0_0_1 : ScatterDims S1000000 S17000000x1 S17000000 where
  updateWindowDims := []
  insertedWindowDims := [0]
  scatterDimsToOperandDims := [0]
  indexVectorDim := 1
  wf := scatter_S1000000_S17000000x1_S17000000_n_0_0_1_wf
def gather_S1000000_S17000000x1_S17000000_n_0_n_n_0_1_1 : GatherDims S1000000 S17000000x1 S17000000 where
  offsetDims := []
  collapsedSliceDims := [0]
  operandBatchingDims := []
  startIndicesBatchingDims := []
  startIndexMap := [0]
  indexVectorDim := 1
  sliceSizes := ![1]
  wf := gather_S1000000_S17000000x1_S17000000_n_0_n_n_0_1_1_wf
def dot_S10000x16_S16x4_S10000x4_1_0_0_1_n_n : DotDims S10000x16 S16x4 S10000x4 where
  lhsContracting := [1]
  rhsContracting := [0]
  lhsNonContracting := [0]
  rhsNonContracting := [1]
  lhsBatch := []
  rhsBatch := []
  wf := dot_S10000x16_S16x4_S10000x4_1_0_0_1_n_n_wf
def gather_S1000000x4_S17000000x1_S17000000x4_1_0_n_n_0_1_14 : GatherDims S1000000x4 S17000000x1 S17000000x4 where
  offsetDims := [1]
  collapsedSliceDims := [0]
  operandBatchingDims := []
  startIndicesBatchingDims := []
  startIndexMap := [0]
  indexVectorDim := 1
  sliceSizes := ![1, 4]
  wf := gather_S1000000x4_S17000000x1_S17000000x4_1_0_n_n_0_1_14_wf
def scatter_S1000000x4_S17000000x1_S17000000x4_1_0_0_1 : ScatterDims S1000000x4 S17000000x1 S17000000x4 where
  updateWindowDims := [1]
  insertedWindowDims := [0]
  scatterDimsToOperandDims := [0]
  indexVectorDim := 1
  wf := scatter_S1000000x4_S17000000x1_S17000000x4_1_0_0_1_wf
def dot_S10000x4_S4x4_S10000x4_1_0_0_1_n_n : DotDims S10000x4 S4x4 S10000x4 where
  lhsContracting := [1]
  rhsContracting := [0]
  lhsNonContracting := [0]
  rhsNonContracting := [1]
  lhsBatch := []
  rhsBatch := []
  wf := dot_S10000x4_S4x4_S10000x4_1_0_0_1_n_n_wf
def dot_S10000x4_S4x2_S10000x2_1_0_0_1_n_n : DotDims S10000x4 S4x2 S10000x2 where
  lhsContracting := [1]
  rhsContracting := [0]
  lhsNonContracting := [0]
  rhsNonContracting := [1]
  lhsBatch := []
  rhsBatch := []
  wf := dot_S10000x4_S4x2_S10000x2_1_0_0_1_n_n_wf
def gather_S1000000x2_S17000000x1_S17000000x2_1_0_n_n_0_1_12 : GatherDims S1000000x2 S17000000x1 S17000000x2 where
  offsetDims := [1]
  collapsedSliceDims := [0]
  operandBatchingDims := []
  startIndicesBatchingDims := []
  startIndexMap := [0]
  indexVectorDim := 1
  sliceSizes := ![1, 2]
  wf := gather_S1000000x2_S17000000x1_S17000000x2_1_0_n_n_0_1_12_wf
def scatter_S1000000x2_S17000000x1_S17000000x2_1_0_0_1 : ScatterDims S1000000x2 S17000000x1 S17000000x2 where
  updateWindowDims := [1]
  insertedWindowDims := [0]
  scatterDimsToOperandDims := [0]
  indexVectorDim := 1
  wf := scatter_S1000000x2_S17000000x1_S17000000x2_1_0_0_1_wf
def scatter_S1024x2_S1000000x1_S1000000x2_1_0_0_1 : ScatterDims S1024x2 S1000000x1 S1000000x2 where
  updateWindowDims := [1]
  insertedWindowDims := [0]
  scatterDimsToOperandDims := [0]
  indexVectorDim := 1
  wf := scatter_S1024x2_S1000000x1_S1000000x2_1_0_0_1_wf
def scatter_S1024_S1000000x1_S1000000_n_0_0_1 : ScatterDims S1024 S1000000x1 S1000000 where
  updateWindowDims := []
  insertedWindowDims := [0]
  scatterDimsToOperandDims := [0]
  indexVectorDim := 1
  wf := scatter_S1024_S1000000x1_S1000000_n_0_0_1_wf
def dot_S1024x2_S2x1_S1024x1_1_0_0_1_n_n : DotDims S1024x2 S2x1 S1024x1 where
  lhsContracting := [1]
  rhsContracting := [0]
  lhsNonContracting := [0]
  rhsNonContracting := [1]
  lhsBatch := []
  rhsBatch := []
  wf := dot_S1024x2_S2x1_S1024x1_1_0_0_1_n_n_wf

abbrev win0_0 : Pipeline.Window sig grid0 :=
  Pipeline.Window.ofSpec (Memref.whole main_arg0) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x4.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S4x4.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S10000x4.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x4.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x4.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S4x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S10000x2.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v72) S10000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v73) S1x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v74) S10000x2.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S1000000x16 : Shape := ⟨2, ![1000000, 16]⟩
abbrev S2x16000000 : Shape := ⟨2, ![2, 16000000]⟩
abbrev S1000000 : Shape := ⟨1, ![1000000]⟩
abbrev S16x4 : Shape := ⟨2, ![16, 4]⟩
abbrev S4 : Shape := ⟨1, ![4]⟩
abbrev S4x4 : Shape := ⟨2, ![4, 4]⟩
abbrev S4x2 : Shape := ⟨2, ![4, 2]⟩
abbrev S2 : Shape := ⟨1, ![2]⟩
abbrev S2x1 : Shape := ⟨2, ![2, 1]⟩
abbrev S1 : Shape := ⟨1, ![1]⟩
abbrev S1x16000000 : Shape := ⟨2, ![1, 16000000]⟩
abbrev S16000000 : Shape := ⟨1, ![16000000]⟩
abbrev S17000000 : Shape := ⟨1, ![17000000]⟩
abbrev S_ : Shape := ⟨0, ![]⟩
abbrev S17000000x1 : Shape := ⟨2, ![17000000, 1]⟩
abbrev S1000000x4 : Shape := ⟨2, ![1000000, 4]⟩
abbrev S17000000x4 : Shape := ⟨2, ![17000000, 4]⟩
abbrev S1x4 : Shape := ⟨2, ![1, 4]⟩
abbrev S1000000x2 : Shape := ⟨2, ![1000000, 2]⟩
abbrev S17000000x2 : Shape := ⟨2, ![17000000, 2]⟩
abbrev S1x2 : Shape := ⟨2, ![1, 2]⟩
abbrev S1024x2 : Shape := ⟨2, ![1024, 2]⟩
abbrev S1000000x1 : Shape := ⟨2, ![1000000, 1]⟩
abbrev S1024 : Shape := ⟨1, ![1024]⟩
abbrev S1024x1 : Shape := ⟨2, ![1024, 1]⟩
abbrev S1x1 : Shape := ⟨2, ![1, 1]⟩

abbrev nBuf : Space → Nat
  | .hbm => 134
  | .vmem => 0
  | .smem => 0
  | _ => 0

abbrev hbmTy0_0 (i : Nat) : BufTy := match i % 128 with
  | 0 => ⟨S1000000x16, .f32⟩
  | 1 => ⟨S2x16000000, .i32⟩
  | 2 => ⟨S1000000, .i32⟩
  | 3 => ⟨S16x4, .f32⟩
  | 4 => ⟨S4, .f32⟩
  | 5 => ⟨S4x4, .f32⟩
  | 6 => ⟨S4, .f32⟩
  | 7 => ⟨S4x2, .f32⟩
  | 8 => ⟨S2, .f32⟩
  | 9 => ⟨S2x1, .f32⟩
  | 10 => ⟨S1, .f32⟩
  | 11 => ⟨S1000000, .i32⟩
  | 12 => ⟨S1x16000000, .i32⟩
  | 13 => ⟨S16000000, .i32⟩
  | 14 => ⟨S17000000, .i32⟩
  | 15 => ⟨S1x16000000, .i32⟩
  | 16 => ⟨S16000000, .i32⟩
  | 17 => ⟨S17000000, .i32⟩
  | 18 => ⟨S_, .f32⟩
  | 19 => ⟨S17000000, .f32⟩
  | 20 => ⟨S_, .f32⟩
  | 21 => ⟨S1000000, .f32⟩
  | 22 => ⟨S17000000x1, .i32⟩
  | 23 => ⟨S1000000, .f32⟩
  | 24 => ⟨S_, .f32⟩
  | 25 => ⟨S1000000, .f32⟩
  | 26 => ⟨S1000000, .i1⟩
  | 27 => ⟨S_, .f32⟩
  | 28 => ⟨S1000000, .f32⟩
  | 29 => ⟨S1000000, .f32⟩
  | 30 => ⟨S_, .f32⟩
  | 31 => ⟨S_, .f32⟩
  | 32 => ⟨S1000000, .f32⟩
  | 33 => ⟨S1000000, .f32⟩
  | 34 => ⟨S_, .i32⟩
  | 35 => ⟨S17000000, .i32⟩
  | 36 => ⟨S17000000, .i1⟩
  | 37 => ⟨S_, .i32⟩
  | 38 => ⟨S17000000, .i32⟩
  | 39 => ⟨S17000000, .i32⟩
  | 40 => ⟨S17000000, .i32⟩
  | 41 => ⟨S17000000x1, .i32⟩
  | 42 => ⟨S17000000, .f32⟩
  | 43 => ⟨S_, .i32⟩
  | 44 => ⟨S17000000, .i32⟩
  | 45 => ⟨S17000000, .i1⟩
  | 46 => ⟨S_, .i32⟩
  | 47 => ⟨S17000000, .i32⟩
  | 48 => ⟨S17000000, .i32⟩
  | 49 => ⟨S17000000, .i32⟩
  | 50 => ⟨S17000000x1, .i32⟩
  | 51 => ⟨S17000000, .f32⟩
  | 52 => ⟨S17000000, .f32⟩
  | 53 => ⟨S17000000x1, .f32⟩
  | 54 => ⟨S1000000x4, .f32⟩
  | 55 => ⟨S_, .i32⟩
  | 56 => ⟨S17000000, .i32⟩
  | 57 => ⟨S17000000, .i1⟩
  | 58 => ⟨S_, .i32⟩
  | 59 => ⟨S17000000, .i32⟩
  | 60 => ⟨S17000000, .i32⟩
  | 61 => ⟨S17000000, .i32⟩
  | 62 => ⟨S17000000x1, .i32⟩
  | 63 => ⟨S17000000x4, .f32⟩
  | 64 => ⟨S17000000x4, .f32⟩
  | 65 => ⟨S17000000x4, .f32⟩
  | 66 => ⟨S_, .f32⟩
  | 67 => ⟨S1000000x4, .f32⟩
  | 68 => ⟨S17000000x1, .i32⟩
  | 69 => ⟨S1000000x4, .f32⟩
  | 70 => ⟨S1x4, .f32⟩
  | 71 => ⟨S1000000x4, .f32⟩
  | 72 => ⟨S1000000x4, .f32⟩
  | 73 => ⟨S1000000x4, .f32⟩
  | 74 => ⟨S1000000x4, .f32⟩
  | 75 => ⟨S_, .i32⟩
  | 76 => ⟨S17000000, .i32⟩
  | 77 => ⟨S17000000, .i1⟩
  | 78 => ⟨S_, .i32⟩
  | 79 => ⟨S17000000, .i32⟩
  | 80 => ⟨S17000000, .i32⟩
  | 81 => ⟨S17000000, .i32⟩
  | 82 => ⟨S17000000x1, .i32⟩
  | 83 => ⟨S17000000x4, .f32⟩
  | 84 => ⟨S17000000x4, .f32⟩
  | 85 => ⟨S17000000x4, .f32⟩
  | 86 => ⟨S_, .f32⟩
  | 87 => ⟨S1000000x4, .f32⟩
  | 88 => ⟨S17000000x1, .i32⟩
  | 89 => ⟨S1000000x4, .f32⟩
  | 90 => ⟨S1x4, .f32⟩
  | 91 => ⟨S1000000x4, .f32⟩
  | 92 => ⟨S1000000x4, .f32⟩
  | 93 => ⟨S1000000x4, .f32⟩
  | 94 => ⟨S1000000x2, .f32⟩
  | 95 => ⟨S_, .i32⟩
  | 96 => ⟨S17000000, .i32⟩
  | 97 => ⟨S17000000, .i1⟩
  | 98 => ⟨S_, .i32⟩
  | 99 => ⟨S17000000, .i32⟩
  | 100 => ⟨S17000000, .i32⟩
  | 101 => ⟨S17000000, .i32⟩
  | 102 => ⟨S17000000x1, .i32⟩
  | 103 => ⟨S17000000x2, .f32⟩
  | 104 => ⟨S17000000x2, .f32⟩
  | 105 => ⟨S17000000x2, .f32⟩
  | 106 => ⟨S_, .f32⟩
  | 107 => ⟨S1000000x2, .f32⟩
  | 108 => ⟨S17000000x1, .i32⟩
  | 109 => ⟨S1000000x2, .f32⟩
  | 110 => ⟨S1x2, .f32⟩
  | 111 => ⟨S1000000x2, .f32⟩
  | 112 => ⟨S1000000x2, .f32⟩
  | 113 => ⟨S1000000x2, .f32⟩
  | 114 => ⟨S_, .f32⟩
  | 115 => ⟨S1024x2, .f32⟩
  | 116 => ⟨S1000000x1, .i32⟩
  | 117 => ⟨S1024x2, .f32⟩
  | 118 => ⟨S_, .f32⟩
  | 119 => ⟨S1000000, .f32⟩
  | 120 => ⟨S_, .f32⟩
  | 121 => ⟨S1024, .f32⟩
  | 122 => ⟨S1000000x1, .i32⟩
  | 123 => ⟨S1024, .f32⟩
  | 124 => ⟨S_, .f32⟩
  | 125 => ⟨S1024, .f32⟩
  | 126 => ⟨S1024, .f32⟩
  | 127 => ⟨S1024x1, .f32⟩
  | _ => ⟨S1000000x16, .f32⟩

abbrev hbmTy0_1 (i : Nat) : BufTy := match i % 128 with
  | 0 => ⟨S1024x2, .f32⟩
  | 1 => ⟨S1024x2, .f32⟩
  | 2 => ⟨S1024x1, .f32⟩
  | 3 => ⟨S1x1, .f32⟩
  | 4 => ⟨S1024x1, .f32⟩
  | 5 => ⟨S1024x1, .f32⟩
  | _ => ⟨S1000000x16, .f32⟩

abbrev hbmTy (i : Nat) : BufTy := match i / 128 with
  | 0 => hbmTy0_0 i
  | 1 => hbmTy0_1 i
  | _ => ⟨S1000000x16, .f32⟩

abbrev bufTy : (tb : Table) → Fin (tcTables nBuf tb) → BufTy
  | .hbm, ⟨i, _⟩ => hbmTy i
  | _, _ => ⟨S1000000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_10 : Ref sig .tc := ⟨.hbm, 75, rfl⟩
abbrev main_v50 : Ref sig .tc := ⟨.hbm, 76, rfl⟩
abbrev main_v51 : Ref sig .tc := ⟨.hbm, 77, rfl⟩
abbrev main_c_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_13 : Ref sig .tc := ⟨.hbm, 95, rfl⟩
abbrev main_v67 : Ref sig .tc := ⟨.hbm, 96, rfl⟩
abbrev main_v68 : Ref sig .tc := ⟨.hbm, 97, rfl⟩
abbrev main_c_14 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_15 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_16 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_17 : Ref sig .tc := ⟨.hbm, 118, rfl⟩
abbrev main_v86 : Ref sig .tc := ⟨.hbm, 119, rfl⟩
abbrev main_cst_18 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_19 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩

abbrev nD : Nat := 1
abbrev τ : Topo := Topo.v7x

variable {F : FTy → Type} [FloatOps F]

class Facts₀ : Prop where
  slices_S2x16000000_S1x16000000_0_0 : S2x16000000.Slices ![0, 0] S1x16000000
  shapeCasts_S1x16000000_S16000000 : S1x16000000.ShapeCasts S16000000
  concatenates_S16000000_S1000000_S17000000_d0 : Shape.Concatenates [S16000000, S1000000] S17000000 0
  slices_S2x16000000_S1x16000000_1_0 : S2x16000000.Slices ![1, 0] S1x16000000
  bcast_S_S17000000 : S_.BroadcastsInDim S17000000 (![] : Fin 0 → Fin S17000000.rank)
  bcast_S_S1000000 : S_.BroadcastsInDim S1000000 (![] : Fin 0 → Fin S1000000.rank)
  bcast_S17000000_S17000000x1_0 : S17000000.BroadcastsInDim S17000000x1 (![0] : Fin 1 → Fin S17000000x1.rank)
  bcast_S17000000x1_S17000000x4_0_1 : S17000000x1.BroadcastsInDim S17000000x4 (![0, 1] : Fin 2 → Fin S17000000x4.rank)
  bcast_S_S1000000x4 : S_.BroadcastsInDim S1000000x4 (![] : Fin 0 → Fin S1000000x4.rank)
  bcast_S4_S1x4_1 : S4.BroadcastsInDim S1x4 (![1] : Fin 1 → Fin S1x4.rank)
  bcast_S1x4_S1000000x4_0_1 : S1x4.BroadcastsInDim S1000000x4 (![0, 1] : Fin 2 → Fin S1000000x4.rank)
  bcast_S17000000x1_S17000000x2_0_1 : S17000000x1.BroadcastsInDim S17000000x2 (![0, 1] : Fin 2 → Fin S17000000x2.rank)
  bcast_S_S1000000x2 : S_.BroadcastsInDim S1000000x2 (![] : Fin 0 → Fin S1000000x2.rank)
  bcast_S2_S1x2_1 : S2.BroadcastsInDim S1x2 (![1] : Fin 1 → Fin S1x2.rank)
  bcast_S1x2_S1000000x2_0_1 : S1x2.BroadcastsInDim S1000000x2 (![0, 1] : Fin 2 → Fin S1000000x2.rank)
  bcast_S_S1024x2 : S_.BroadcastsInDim S1024x2 (![] : Fin 0 → Fin S1024x2.rank)
  bcast_S1000000_S1000000x1_0 : S1000000.BroadcastsInDim S1000000x1 (![0] : Fin 1 → Fin S1000000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x2_0_1 : S1024x1.BroadcastsInDim S1024x2 (![0, 1] : Fin 2 → Fin S1024x2.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  scatter_S1000000_S17000000x1_S17000000_n_0_0_1_wf : ScatterDims.WF S1000000 S17000000x1 S17000000 [] [0] [0] 1
  gather_S1000000_S17000000x1_S17000000_n_0_n_n_0_1_1_wf : GatherDims.WF S1000000 S17000000x1 S17000000 [] [0] [] [0] [] 1 ![1]
  dot_S1000000x16_S16x4_S1000000x4_1_0_0_1_n_n_wf : DotDims.WF S1000000x16 S16x4 S1000000x4 [1] [0] [0] [1] [] []
  gather_S1000000x4_S17000000x1_S17000000x4_1_0_n_n_0_1_14_wf : GatherDims.WF S1000000x4 S17000000x1 S17000000x4 [1] [0] [] [0] [] 1 ![1, 4]
  scatter_S1000000x4_S17000000x1_S17000000x4_1_0_0_1_wf : ScatterDims.WF S1000000x4 S17000000x1 S17000000x4 [1] [0] [0] 1
  dot_S1000000x4_S4x4_S1000000x4_1_0_0_1_n_n_wf : DotDims.WF S1000000x4 S4x4 S1000000x4 [1] [0] [0] [1] [] []
  dot_S1000000x4_S4x2_S1000000x2_1_0_0_1_n_n_wf : DotDims.WF S1000000x4 S4x2 S1000000x2 [1] [0] [0] [1] [] []
  gather_S1000000x2_S17000000x1_S17000000x2_1_0_n_n_0_1_12_wf : GatherDims.WF S1000000x2 S17000000x1 S17000000x2 [1] [0] [] [0] [] 1 ![1, 2]
  scatter_S1000000x2_S17000000x1_S17000000x2_1_0_0_1_wf : ScatterDims.WF S1000000x2 S17000000x1 S17000000x2 [1] [0] [0] 1
  scatter_S1024x2_S1000000x1_S1000000x2_1_0_0_1_wf : ScatterDims.WF S1024x2 S1000000x1 S1000000x2 [1] [0] [0] 1
  scatter_S1024_S1000000x1_S1000000_n_0_0_1_wf : ScatterDims.WF S1024 S1000000x1 S1000000 [] [0] [0] 1
  dot_S1024x2_S2x1_S1024x1_1_0_0_1_n_n_wf : DotDims.WF S1024x2 S2x1 S1024x1 [1] [0] [0] [1] [] []

variable [Facts₀]

def scatter_S1000000_S17000000x1_S17000000_n_0_0_1 : ScatterDims S1000000 S17000000x1 S17000000 where
  updateWindowDims := []
  insertedWindowDims := [0]
  scatterDimsToOperandDims := [0]
  indexVectorDim := 1
  wf := scatter_S1000000_S17000000x1_S17000000_n_0_0_1_wf
def gather_S1000000_S17000000x1_S17000000_n_0_n_n_0_1_1 : GatherDims S1000000 S17000000x1 S17000000 where
  offsetDims := []
  collapsedSliceDims := [0]
  operandBatchingDims := []
  startIndicesBatchingDims := []
  startIndexMap := [0]
  indexVectorDim := 1
  sliceSizes := ![1]
  wf := gather_S1000000_S17000000x1_S17000000_n_0_n_n_0_1_1_wf
def dot_S1000000x16_S16x4_S1000000x4_1_0_0_1_n_n : DotDims S1000000x16 S16x4 S1000000x4 where
  lhsContracting := [1]
  rhsContracting := [0]
  lhsNonContracting := [0]
  rhsNonContracting := [1]
  lhsBatch := []
  rhsBatch := []
  wf := dot_S1000000x16_S16x4_S1000000x4_1_0_0_1_n_n_wf
def gather_S1000000x4_S17000000x1_S17000000x4_1_0_n_n_0_1_14 : GatherDims S1000000x4 S17000000x1 S17000000x4 where
  offsetDims := [1]
  collapsedSliceDims := [0]
  operandBatchingDims := []
  startIndicesBatchingDims := []
  startIndexMap := [0]
  indexVectorDim := 1
  sliceSizes := ![1, 4]
  wf := gather_S1000000x4_S17000000x1_S17000000x4_1_0_n_n_0_1_14_wf
def scatter_S1000000x4_S17000000x1_S17000000x4_1_0_0_1 : ScatterDims S1000000x4 S17000000x1 S17000000x4 where
  updateWindowDims := [1]
  insertedWindowDims := [0]
  scatterDimsToOperandDims := [0]
  indexVectorDim := 1
  wf := scatter_S1000000x4_S17000000x1_S17000000x4_1_0_0_1_wf
def dot_S1000000x4_S4x4_S1000000x4_1_0_0_1_n_n : DotDims S1000000x4 S4x4 S1000000x4 where
  lhsContracting := [1]
  rhsContracting := [0]
  lhsNonContracting := [0]
  rhsNonContracting := [1]
  lhsBatch := []
  rhsBatch := []
  wf := dot_S1000000x4_S4x4_S1000000x4_1_0_0_1_n_n_wf
def dot_S1000000x4_S4x2_S1000000x2_1_0_0_1_n_n : DotDims S1000000x4 S4x2 S1000000x2 where
  lhsContracting := [1]
  rhsContracting := [0]
  lhsNonContracting := [0]
  rhsNonContracting := [1]
  lhsBatch := []
  rhsBatch := []
  wf := dot_S1000000x4_S4x2_S1000000x2_1_0_0_1_n_n_wf
def gather_S1000000x2_S17000000x1_S17000000x2_1_0_n_n_0_1_12 : GatherDims S1000000x2 S17000000x1 S17000000x2 where
  offsetDims := [1]
  collapsedSliceDims := [0]
  operandBatchingDims := []
  startIndicesBatchingDims := []
  startIndexMap := [0]
  indexVectorDim := 1
  sliceSizes := ![1, 2]
  wf := gather_S1000000x2_S17000000x1_S17000000x2_1_0_n_n_0_1_12_wf
def scatter_S1000000x2_S17000000x1_S17000000x2_1_0_0_1 : ScatterDims S1000000x2 S17000000x1 S17000000x2 where
  updateWindowDims := [1]
  insertedWindowDims := [0]
  scatterDimsToOperandDims := [0]
  indexVectorDim := 1
  wf := scatter_S1000000x2_S17000000x1_S17000000x2_1_0_0_1_wf
def scatter_S1024x2_S1000000x1_S1000000x2_1_0_0_1 : ScatterDims S1024x2 S1000000x1 S1000000x2 where
  updateWindowDims := [1]
  insertedWindowDims := [0]
  scatterDimsToOperandDims := [0]
  indexVectorDim := 1
  wf := scatter_S1024x2_S1000000x1_S1000000x2_1_0_0_1_wf
def scatter_S1024_S1000000x1_S1000000_n_0_0_1 : ScatterDims S1024 S1000000x1 S1000000 where
  updateWindowDims := []
  insertedWindowDims := [0]
  scatterDimsToOperandDims := [0]
  indexVectorDim := 1
  wf := scatter_S1024_S1000000x1_S1000000_n_0_0_1_wf
def dot_S1024x2_S2x1_S1024x1_1_0_0_1_n_n : DotDims S1024x2 S2x1 S1024x1 where
  lhsContracting := [1]
  rhsContracting := [0]
  lhsNonContracting := [0]
  rhsNonContracting := [1]
  lhsBatch := []
  rhsBatch := []
  wf := dot_S1024x2_S2x1_S1024x1_1_0_0_1_n_n_wf

class Facts : Prop extends Facts₀ where

variable [Facts]
-- ==== Proof.Keep.lean ====
/-
  What the kernel program's segments leave alone.

  A host stretch rewrites only the buffers its operations write (listed here per stretch); a region rewrites only
  its output array and hands its input arrays back as it found them.  So a buffer that a stretch does not write,
  and a buffer that is none of a region's arrays, holds after the segment what it held before.  These are the
  steps by which an argument array, or an intermediate computed early and read again later (the two edge-index
  vectors and the edge normalisation), is carried from where it was written to where it is read.
-/
import proofs.«131106_j29454885716255_2_alg».proof.Proof.Gen.KernelIdeal.Frame

noncomputable section

namespace Cert.KernelIdeal.Keep

open Cert.KernelIdeal Cert.KernelIdeal.Gen
open Idealize.ShloMosaic Idealize.ShloMosaic.TcCoe Idealize.SL.Sem Idealize.ShloMosaic.StableHlo

variable {F : FTy → Type} [FloatOps F]

/-- Each operation of a literal line writes a buffer of the list beside it. -/
macro "refine_writes" : tactic =>
  `(tactic| (simp only [List.Forall]
             repeat' apply And.intro
             all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))))

/-! ## The host stretches -/

abbrev hostOps0_W : List (Ref sig .tc) :=
  [main_v0, main_v1, main_v2, main_v3, main_v4, main_v5, main_v6, main_cst, main_v7, main_cst_0, main_v8, main_v9, main_v10,
   main_cst_1, main_v11, main_v12, main_cst_2, main_v13, main_v14, main_cst_3]
abbrev hostOps0_1_W : List (Ref sig .tc) := [main_call0_v0, main_call0_v1, main_v15]
abbrev hostOps0_2_W : List (Ref sig .tc) :=
  [main_c, main_v16, main_v17, main_c_4, main_v18, main_v19, main_v20, main_v21, main_v22, main_c_5, main_v23, main_v24, main_c_6,
   main_v25, main_v26, main_v27, main_v28, main_v29, main_v30, main_v31]
abbrev hostOps1_W : List (Ref sig .tc) :=
  [main_c_7, main_v33, main_v34, main_c_8, main_v35, main_v36, main_v37, main_v38, main_v39, main_v40, main_v41, main_cst_9,
   main_v42, main_v43, main_v44, main_v45]
abbrev hostOps2_W : List (Ref sig .tc) :=
  [main_c_10, main_v47, main_v48, main_c_11, main_v49, main_v50, main_v51, main_v52, main_v53, main_v54, main_v55, main_cst_12,
   main_v56, main_v57, main_v58, main_v59]
abbrev hostOps3_W : List (Ref sig .tc) :=
  [main_c_13, main_v61, main_v62, main_c_14, main_v63, main_v64, main_v65, main_v66, main_v67, main_v68, main_v69, main_cst_15,
   main_v70, main_v71, main_v72, main_v73]
abbrev hostOps4_W : List (Ref sig .tc) :=
  [main_cst_16, main_v75, main_v76, main_v77, main_cst_17, main_v78, main_cst_18, main_v79, main_v80, main_v81, main_cst_19,
   main_v82, main_v83, main_v84, main_v85, main_v86, main_v87, main_v88, main_v89, main_v90]

theorem hostOps0_writes : (hostOps0 : List (HloOp τ sig (Elt F))).Forall fun op => op.writes ⊆ (hostOps0_W.map (Proc.devRef (τ := τ) .tc)).toFinset := by
  refine_writes
theorem hostOps0_1_writes : (hostOps0_1 : List (HloOp τ sig (Elt F))).Forall fun op => op.writes ⊆ (hostOps0_1_W.map (Proc.devRef (τ := τ) .tc)).toFinset := by
  refine_writes
theorem hostOps0_2_writes : (hostOps0_2 : List (HloOp τ sig (Elt F))).Forall fun op => op.writes ⊆ (hostOps0_2_W.map (Proc.devRef (τ := τ) .tc)).toFinset := by
  refine_writes
theorem hostOps1_writes : (hostOps1 : List (HloOp τ sig (Elt F))).Forall fun op => op.writes ⊆ (hostOps1_W.map (Proc.devRef (τ := τ) .tc)).toFinset := by
  refine_writes
theorem hostOps2_writes : (hostOps2 : List (HloOp τ sig (Elt F))).Forall fun op => op.writes ⊆ (hostOps2_W.map (Proc.devRef (τ := τ) .tc)).toFinset := by
  refine_writes
theorem hostOps3_writes : (hostOps3 : List (HloOp τ sig (Elt F))).Forall fun op => op.writes ⊆ (hostOps3_W.map (Proc.devRef (τ := τ) .tc)).toFinset := by
  refine_writes
theorem hostOps4_writes : (hostOps4 : List (HloOp τ sig (Elt F))).Forall fun op => op.writes ⊆ (hostOps4_W.map (Proc.devRef (τ := τ) .tc)).toFinset := by
  refine_writes

variable (m : (ℓ : Loc nD τ sig) → Buf (Elt F) ℓ) (ρ : Dev nD → PrngReg)

/-- Across the three stretches before region 0. -/
theorem W3_keep (c : Dev nD) (b : Ref sig .tc) (h0 : b ∉ hostOps0_W) (h1 : b ∉ hostOps0_1_W) (h2 : b ∉ hostOps0_2_W) :
    W3 m ρ c (Proc.devRef .tc b) = m ((c : Thread nD τ).loc b) :=
  (after_of_writes_sub hostOps0_2 _ hostOps0_2_writes h2).trans
    ((after_of_writes_sub hostOps0_1 _ hostOps0_1_writes h1).trans (after_of_writes_sub hostOps0 _ hostOps0_writes h0))
/-- Across region 0. -/
theorem W4_keep (c : Dev nD) (b : Ref sig .tc) (h : ∀ w, Pipeline.arrRef spec0 w ≠ b) :
    W4 m ρ c (Proc.devRef .tc b) = W3 m ρ c (Proc.devRef .tc b) := W4_of_ne m ρ c b h
/-- Across the stretch between regions 0 and 1. -/
theorem W5_keep (c : Dev nD) (b : Ref sig .tc) (h : b ∉ hostOps1_W) :
    W5 m ρ c (Proc.devRef .tc b) = W4 m ρ c (Proc.devRef .tc b) := after_of_writes_sub hostOps1 _ hostOps1_writes h
/-- Across region 1. -/
theorem W6_keep (c : Dev nD) (b : Ref sig .tc) (h : ∀ w, Pipeline.arrRef spec1 w ≠ b) :
    W6 m ρ c (Proc.devRef .tc b) = W5 m ρ c (Proc.devRef .tc b) := W6_of_ne m ρ c b h
/-- Across the stretch between regions 1 and 2. -/
theorem W7_keep (c : Dev nD) (b : Ref sig .tc) (h : b ∉ hostOps2_W) :
    W7 m ρ c (Proc.devRef .tc b) = W6 m ρ c (Proc.devRef .tc b) := after_of_writes_sub hostOps2 _ hostOps2_writes h
/-- Across region 2. -/
theorem W8_keep (c : Dev nD) (b : Ref sig .tc) (h : ∀ w, Pipeline.arrRef spec2 w ≠ b) :
    W8 m ρ c (Proc.devRef .tc b) = W7 m ρ c (Proc.devRef .tc b) := W8_of_ne m ρ c b h
/-- Across the stretch between regions 2 and 3. -/
theorem W9_keep (c : Dev nD) (b : Ref sig .tc) (h : b ∉ hostOps3_W) :
    W9 m ρ c (Proc.devRef .tc b) = W8 m ρ c (Proc.devRef .tc b) := after_of_writes_sub hostOps3 _ hostOps3_writes h
/-- Across region 3. -/
theorem W10_keep (c : Dev nD) (b : Ref sig .tc) (h : ∀ w, Pipeline.arrRef spec3 w ≠ b) :
    W10 m ρ c (Proc.devRef .tc b) = W9 m ρ c (Proc.devRef .tc b) := W10_of_ne m ρ c b h

end Cert.KernelIdeal.Keep

end
-- ==== Proof.LibMatmulRows.lean ====
/-
  A matrix product into a zero accumulator, read at one row and one column.

  For an `M × K` matrix `l` and a `K × N` matrix `r` contracted along the one shared axis, the entry of
  `l · r` at row `p` and column `j` is `∑ k, l[p,k] · r[k,j]`.  At the exact values the product unit's result
  is the accumulator plus the sum over the contraction index of the operands' products; the accumulator is
  the zero word, and the contraction index — a one-axis multi-index — is identified with its one
  coordinate `k : Fin K`.  The dimension numbers enter only through four coordinate facts (which axis of
  each operand is the output's and which is the contracted one), so the lemma serves every plain
  row-by-column product whatever the name of its dimension record.
-/
import Idealize.ShloMosaic.PureOps.Ideal.Laws
import Idealize.ShloMosaic.Lib.ValueIdx

noncomputable section

open scoped BigOperators

namespace Cert.LibMatmulRows

open Idealize.ShloMosaic Idealize.ShloMosaic.ValueIdx

/-- `(l · r)[p, j] = ∑ k, l[p,k] · r[k,j]` for a product into the zero accumulator whose left operand index at
    output `i` and contraction position `q` is `(i 0, q)` and whose right operand index is `(q, i 1)`. -/
theorem matmul_zero_apply {M K N : ℕ} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision) (l : FVec Ideal ⟨2, ![M, K]⟩ φ₁) (r : FVec Ideal ⟨2, ![K, N]⟩ φ₂)
    (p : Fin M) (j : Fin N) :
    matmul D prec l r (constant (F := Ideal) ⟨2, ![M, N]⟩ .f32 0x00000000#32) (ix2 p j)
      = ∑ k : Fin K, l (ix2 p k) * r (ix2 k j) := by
  show FloatOps.matmul D prec l r (constant (F := Ideal) ⟨2, ![M, N]⟩ .f32 0x00000000#32) (ix2 p j) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibMatmulRows

end
-- ==== Proof.BodyValues.lean ====
/-
  What each of the four kernel bodies stores, read at one entry (row `p`, column `q` of the block), at the exact
  values.

  A change of float format is the identity on extended reals, so the two casts to the narrow format in front of
  each product disappear.  The product unit, started from the zero accumulator, leaves at `(p, q)` the plain
  sum `∑ k, l[p,k] · r[k,q]` over the shared axis.  The bias arrives as a one-row block and is spread over the
  rows, so at `(p, k)` it contributes `b[0,k]`; the re-casts of a block onto its own shape change nothing.
    * projection:            `∑ k, x[p,k] · w[k,q]`
    * bias, tanh, projection: `∑ k, tanh (x[p,k] + b[0,k]) · w[k,q]`
    * bias, tanh:             `tanh (x[p,q] + b[0,q])`
-/
import proofs.«131106_j29454885716255_2_alg».proof.Proof.Gen.KernelIdeal.Skeleton
import proofs.«131106_j29454885716255_2_alg».proof.Proof.LibMatmulRows
import Idealize.ShloMosaic.Lib.Pipeline.Value
import Idealize.ShloMosaic.Lib.ValueIdx
import Idealize.ShloMosaic.PureOps.Ideal.Laws

noncomputable section

open scoped BigOperators

namespace Cert.KernelIdeal.BodyValues

open Idealize.ShloMosaic Idealize.ShloMosaic.ValueIdx Cert.KernelIdeal Cert.KernelIdeal.Gen

/-! ## Which operand entry each product reads: the output's row with the shared index, the shared index with the
    output's column -/

theorem dotA_l0 (i : S10000x4.Idx) (q : dot_S10000x16_S16x4_S10000x4_1_0_0_1_n_n.contr.Idx) :
    (dot_S10000x16_S16x4_S10000x4_1_0_0_1_n_n.lhsIdx i q 0).val = (i 0).val := by
  unfold DotDims.lhsIdx
  rw [dif_neg (show ¬(0 : Fin S10000x16.rank) ∈ dot_S10000x16_S16x4_S10000x4_1_0_0_1_n_n.lhsBatch by decide),
    dif_pos (show (0 : Fin S10000x16.rank) ∈ dot_S10000x16_S16x4_S10000x4_1_0_0_1_n_n.lhsNonContracting by decide)]
  rfl
theorem dotA_l1 (i : S10000x4.Idx) (q : dot_S10000x16_S16x4_S10000x4_1_0_0_1_n_n.contr.Idx) :
    (dot_S10000x16_S16x4_S10000x4_1_0_0_1_n_n.lhsIdx i q 1).val = (q ⟨0, by decide⟩).val :=
  dot_S10000x16_S16x4_S10000x4_1_0_0_1_n_n.lhsIdx_val_of_single rfl i q
theorem dotA_r0 (i : S10000x4.Idx) (q : dot_S10000x16_S16x4_S10000x4_1_0_0_1_n_n.contr.Idx) :
    (dot_S10000x16_S16x4_S10000x4_1_0_0_1_n_n.rhsIdx i q 0).val = (q ⟨0, by decide⟩).val :=
  dot_S10000x16_S16x4_S10000x4_1_0_0_1_n_n.rhsIdx_val_of_single rfl i q
theorem dotA_r1 (i : S10000x4.Idx) (q : dot_S10000x16_S16x4_S10000x4_1_0_0_1_n_n.contr.Idx) :
    (dot_S10000x16_S16x4_S10000x4_1_0_0_1_n_n.rhsIdx i q 1).val = (i 1).val := by
  unfold DotDims.rhsIdx
  rw [dif_neg (show ¬(1 : Fin S16x4.rank) ∈ dot_S10000x16_S16x4_S10000x4_1_0_0_1_n_n.rhsBatch by decide),
    dif_pos (show (1 : Fin S16x4.rank) ∈ dot_S10000x16_S16x4_S10000x4_1_0_0_1_n_n.rhsNonContracting by decide)]
  rfl

theorem dotB_l0 (i : S10000x4.Idx) (q : dot_S10000x4_S4x4_S10000x4_1_0_0_1_n_n.contr.Idx) :
    (dot_S10000x4_S4x4_S10000x4_1_0_0_1_n_n.lhsIdx i q 0).val = (i 0).val := by
  unfold DotDims.lhsIdx
  rw [dif_neg (show ¬(0 : Fin S10000x4.rank) ∈ dot_S10000x4_S4x4_S10000x4_1_0_0_1_n_n.lhsBatch by decide),
    dif_pos (show (0 : Fin S10000x4.rank) ∈ dot_S10000x4_S4x4_S10000x4_1_0_0_1_n_n.lhsNonContracting by decide)]
  rfl
theorem dotB_l1 (i : S10000x4.Idx) (q : dot_S10000x4_S4x4_S10000x4_1_0_0_1_n_n.contr.Idx) :
    (dot_S10000x4_S4x4_S10000x4_1_0_0_1_n_n.lhsIdx i q 1).val = (q ⟨0, by decide⟩).val :=
  dot_S10000x4_S4x4_S10000x4_1_0_0_1_n_n.lhsIdx_val_of_single rfl i q
theorem dotB_r0 (i : S10000x4.Idx) (q : dot_S10000x4_S4x4_S10000x4_1_0_0_1_n_n.contr.Idx) :
    (dot_S10000x4_S4x4_S10000x4_1_0_0_1_n_n.rhsIdx i q 0).val = (q ⟨0, by decide⟩).val :=
  dot_S10000x4_S4x4_S10000x4_1_0_0_1_n_n.rhsIdx_val_of_single rfl i q
theorem dotB_r1 (i : S10000x4.Idx) (q : dot_S10000x4_S4x4_S10000x4_1_0_0_1_n_n.contr.Idx) :
    (dot_S10000x4_S4x4_S10000x4_1_0_0_1_n_n.rhsIdx i q 1).val = (i 1).val := by
  unfold DotDims.rhsIdx
  rw [dif_neg (show ¬(1 : Fin S4x4.rank) ∈ dot_S10000x4_S4x4_S10000x4_1_0_0_1_n_n.rhsBatch by decide),
    dif_pos (show (1 : Fin S4x4.rank) ∈ dot_S10000x4_S4x4_S10000x4_1_0_0_1_n_n.rhsNonContracting by decide)]
  rfl

theorem dotC_l0 (i : S10000x2.Idx) (q : dot_S10000x4_S4x2_S10000x2_1_0_0_1_n_n.contr.Idx) :
    (dot_S10000x4_S4x2_S10000x2_1_0_0_1_n_n.lhsIdx i q 0).val = (i 0).val := by
  unfold DotDims.lhsIdx
  rw [dif_neg (show ¬(0 : Fin S10000x4.rank) ∈ dot_S10000x4_S4x2_S10000x2_1_0_0_1_n_n.lhsBatch by decide),
    dif_pos (show (0 : Fin S10000x4.rank) ∈ dot_S10000x4_S4x2_S10000x2_1_0_0_1_n_n.lhsNonContracting by decide)]
  rfl
theorem dotC_l1 (i : S10000x2.Idx) (q : dot_S10000x4_S4x2_S10000x2_1_0_0_1_n_n.contr.Idx) :
    (dot_S10000x4_S4x2_S10000x2_1_0_0_1_n_n.lhsIdx i q 1).val = (q ⟨0, by decide⟩).val :=
  dot_S10000x4_S4x2_S10000x2_1_0_0_1_n_n.lhsIdx_val_of_single rfl i q
theorem dotC_r0 (i : S10000x2.Idx) (q : dot_S10000x4_S4x2_S10000x2_1_0_0_1_n_n.contr.Idx) :
    (dot_S10000x4_S4x2_S10000x2_1_0_0_1_n_n.rhsIdx i q 0).val = (q ⟨0, by decide⟩).val :=
  dot_S10000x4_S4x2_S10000x2_1_0_0_1_n_n.rhsIdx_val_of_single rfl i q
theorem dotC_r1 (i : S10000x2.Idx) (q : dot_S10000x4_S4x2_S10000x2_1_0_0_1_n_n.contr.Idx) :
    (dot_S10000x4_S4x2_S10000x2_1_0_0_1_n_n.rhsIdx i q 1).val = (i 1).val := by
  unfold DotDims.rhsIdx
  rw [dif_neg (show ¬(1 : Fin S4x2.rank) ∈ dot_S10000x4_S4x2_S10000x2_1_0_0_1_n_n.rhsBatch by decide),
    dif_pos (show (1 : Fin S4x2.rank) ∈ dot_S10000x4_S4x2_S10000x2_1_0_0_1_n_n.rhsNonContracting by decide)]
  rfl

/-! ## A one-row block spread over the rows -/

/-- Spreading a one-row block over `R` rows: entry `(p, k)` is the row's entry `k`. -/
theorem spreadRow_apply {R C : ℕ} (hC : C ≠ 1) (b : (⟨2, ![1, C]⟩ : Shape).Idx → EReal)
    (h : (⟨2, ![1, C]⟩ : Shape).Broadcasts ⟨2, ![R, C]⟩) (p : Fin R) (k : Fin C) :
    broadcastTo ⟨2, ![R, C]⟩ b h (ix2 p k) = b (ix2 (0 : Fin 1) k) :=
  broadcastTo_apply b h (ix2 p k) (ix2 (0 : Fin 1) k) (fun a => match a with
    | ⟨0, _⟩ => by show 0 = if (1 : Nat) = 1 then 0 else _; rw [if_pos rfl]
    | ⟨1, _⟩ => by show k.val = if C = 1 then 0 else k.val; rw [if_neg hC])

/-! ## The four stored values -/

/-- The projection body: the block's row `p` against the weight's column `q`. -/
theorem proj_apply (x : Vec Ideal S10000x16 .f32) (w : Vec Ideal S16x4 .f32) (p : Fin 10000) (q : Fin 4) :
    k0_pay1 (F := Ideal) x w (ix2 p q) = ∑ k : Fin 16, x (ix2 p k) * w (ix2 k q) := by
  unfold k0_pay1
  refine (LibMatmulRows.matmul_zero_apply dot_S10000x16_S16x4_S10000x4_1_0_0_1_n_n rfl rfl dotA_l0 dotA_l1 dotA_r0 dotA_r1
    none _ _ p q).trans ?_
  rfl

/-- Bias, tanh, then a projection onto four columns. -/
theorem biasTanhProj4_apply (x : Vec Ideal S10000x4 .f32) (b : Vec Ideal S1x4 .f32) (w : Vec Ideal S4x4 .f32)
    (p : Fin 10000) (q : Fin 4) :
    k1_pay1 (F := Ideal) x b w (ix2 p q) = ∑ k : Fin 4, Ideal.tanh (x (ix2 p k) + b (ix2 (0 : Fin 1) k)) * w (ix2 k q) := by
  unfold k1_pay1
  refine (LibMatmulRows.matmul_zero_apply dot_S10000x4_S4x4_S10000x4_1_0_0_1_n_n rfl rfl dotB_l0 dotB_l1 dotB_r0 dotB_r1
    none _ _ p q).trans ?_
  refine Finset.sum_congr rfl fun k _ => ?_
  show Ideal.tanh (shapeCast S10000x4 x shapeCasts_S10000x4_S10000x4 (ix2 p k)
      + broadcastTo S10000x4 (shapeCast S1x4 b shapeCasts_S1x4_S1x4) broadcasts_S1x4_S10000x4 (ix2 p k)) * w (ix2 k q) = _
  rw [shapeCast_self, shapeCast_self, spreadRow_apply (by decide) b broadcasts_S1x4_S10000x4 p k]

/-- Bias, tanh, then a projection onto two columns. -/
theorem biasTanhProj2_apply (x : Vec Ideal S10000x4 .f32) (b : Vec Ideal S1x4 .f32) (w : Vec Ideal S4x2 .f32)
    (p : Fin 10000) (q : Fin 2) :
    k2_pay1 (F := Ideal) x b w (ix2 p q) = ∑ k : Fin 4, Ideal.tanh (x (ix2 p k) + b (ix2 (0 : Fin 1) k)) * w (ix2 k q) := by
  unfold k2_pay1
  refine (LibMatmulRows.matmul_zero_apply dot_S10000x4_S4x2_S10000x2_1_0_0_1_n_n rfl rfl dotC_l0 dotC_l1 dotC_r0 dotC_r1
    none _ _ p q).trans ?_
  refine Finset.sum_congr rfl fun k _ => ?_
  show Ideal.tanh (shapeCast S10000x4 x shapeCasts_S10000x4_S10000x4 (ix2 p k)
      + broadcastTo S10000x4 (shapeCast S1x4 b shapeCasts_S1x4_S1x4) broadcasts_S1x4_S10000x4 (ix2 p k)) * w (ix2 k q) = _
  rw [shapeCast_self, shapeCast_self, spreadRow_apply (by decide) b broadcasts_S1x4_S10000x4 p k]

/-- Bias and tanh alone. -/
theorem biasTanh_apply (x : Vec Ideal S10000x2 .f32) (b : Vec Ideal S1x2 .f32) (p : Fin 10000) (q : Fin 2) :
    k3_pay1 (F := Ideal) x b (ix2 p q) = Ideal.tanh (x (ix2 p q) + b (ix2 (0 : Fin 1) q)) := by
  unfold k3_pay1
  show Ideal.tanh (shapeCast S10000x2 x shapeCasts_S10000x2_S10000x2 (ix2 p q)
      + broadcastTo S10000x2 (shapeCast S1x2 b shapeCasts_S1x2_S1x2) broadcasts_S1x2_S10000x2 (ix2 p q)) = _
  rw [shapeCast_self, shapeCast_self, spreadRow_apply (by decide) b broadcasts_S1x2_S10000x2 p q]

end Cert.KernelIdeal.BodyValues

end
-- ==== Proof.Region0.lean ====
/-
  Region 0 (the first projection), from any entry contents `V`: what its output array holds after the region.

  The grid has 100 points; point `t` reads rows `10000·t … 10000·t + 9999` of the node features (all 16 columns)
  and the whole 16 × 4 weight, and writes back rows `10000·t …` of the 1000000 × 4 output.  The body's stored value
  at `(p, q)` is `∑ k, x[p,k] · w[k,q]` over the block, so the written-back block is the restriction of ONE
  whole-array function: entry `(r, q)` is `∑ k, X[r,k] · W[k,q]`.  The blocks tile the output (row `r` is in
  point `r / 10000`'s block), so after the region the output array IS that function.
-/
import proofs.«131106_j29454885716255_2_alg».proof.Proof.Gen.KernelIdeal.Frame
import proofs.«131106_j29454885716255_2_alg».proof.Proof.BodyValues
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The node features and the weight as the region finds them. -/
abbrev feat (c : Dev nD) : S1000000x16.Idx → EReal := V c main_arg0
abbrev wgt (c : Dev nD) : S16x4.Idx → EReal := V c main_arg3

theorem zero2 : (![0, 0] : Fin 2 → Nat) = fun _ => 0 := funext fun a => by fin_cases a <;> rfl

/-- The index maps over the grid: point `t` takes row block `t` of the features and of the output (their one
    column block), and the weight's one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lt_N (t : Fin cfg0.N) : t.val < 100 := lt_of_lt_of_eq t.isLt N_0

/-- What point `t` writes back is block `t` of the function `G` with the product's entries. -/
theorem flushed_eq (c : Dev nD) (G : S1000000x4.Idx → Elt Ideal .f32)
    (hG : ∀ (r : Fin 1000000) (q : Fin 4), G (ix2 r q) = ∑ k : Fin 16, feat V c (ix2 r k) * wgt V c (ix2 k q))
    (t : Fin cfg0.N) :
    (dat0 V c).flushed 2 t = ((cfg0.win 2).blk t).view.read (Elt Ideal) G := by
  show (cfg0.win 2).cut (grid0.coords t) ((dat0 V c).after 2 t) = _
  rw [after0_2]
  unfold out0_2
  rw [View.canon_unit_zero zero2]
  simp only [View.ld_unit_zero (S := S10000x16) zero2, View.ld_unit_zero (S := S16x4) zero2]
  obtain ⟨e0, e1, e2, e3, e4, e5⟩ := idx_facts t
  have ht := lt_N t
  funext j
  obtain ⟨p, q, rfl⟩ : ∃ (p : Fin 10000) (q : Fin 4), j = ix2 p q := ⟨j 0, j 1, eq_ix2 j⟩
  have hp : p.val < 10000 := p.isLt
  have hrow : t.val * 10000 + p.val < 1000000 := by omega
  show k0_pay1 (iblk0 V c 0 t) (iblk0 V c 1 t) (ix2 p q) = G (((cfg0.win 2).blk t).view.emb (ix2 p q))
  have hemb : ((cfg0.win 2).blk t).view.emb (ix2 p q) = ix2 (⟨t.val * 10000 + p.val, hrow⟩ : Fin 1000000) q := by
    funext a; apply Fin.ext
    match a with
    | ⟨0, _⟩ => show win0_2.index t (0 : Fin 2) * 10000 + 1 * p.val = t.val * 10000 + p.val; omega
    | ⟨1, _⟩ => show win0_2.index t (1 : Fin 2) * 4 + 1 * q.val = q.val; omega
  rw [hemb, hG]
  refine (BodyValues.proj_apply (iblk0 V c 0 t) (iblk0 V c 1 t) p q).trans ?_
  refine Finset.sum_congr rfl fun k _ => ?_
  show feat V c (((cfg0.win 0).blk t).view.emb (ix2 p k)) * wgt V c (((cfg0.win 1).blk t).view.emb (ix2 k q)) = _
  have h0 : ((cfg0.win 0).blk t).view.emb (ix2 p k) = ix2 (⟨t.val * 10000 + p.val, hrow⟩ : Fin 1000000) k := by
    funext a; apply Fin.ext
    match a with
    | ⟨0, _⟩ => show win0_0.index t (0 : Fin 2) * 10000 + 1 * p.val = t.val * 10000 + p.val; omega
    | ⟨1, _⟩ => show win0_0.index t (1 : Fin 2) * 16 + 1 * k.val = k.val; omega
  have h1 : ((cfg0.win 1).blk t).view.emb (ix2 k q) = ix2 k q := by
    funext a; apply Fin.ext
    match a with
    | ⟨0, _⟩ => show win0_1.index t (0 : Fin 2) * 16 + 1 * k.val = k.val; omega
    | ⟨1, _⟩ => show win0_1.index t (1 : Fin 2) * 4 + 1 * q.val = q.val; omega
  rw [h0, h1]

/-- An index of the output is in point `t`'s block iff each coordinate is in the block's range on its axis. -/
theorem mem_blk (t : Fin cfg0.N) (i : S1000000x4.Idx) :
    i ∈ ((cfg0.win 2).blk t).view.set ↔ ∀ a : Fin 2, win0_2.index t a * S10000x4.size a ≤ (i a).val ∧ (i a).val < win0_2.index t a * S10000x4.size a + S10000x4.size a := by
  show i ∈ ((View.whole main_v32).slice (win0_2.rect t)).set ↔ _
  rw [View.set_slice_whole, Rect.mem_set_unit]
  exact Iff.rfl

/-- Every entry of the output is in some point's block: row `r` is in point `r / 10000`'s. -/
theorem cover (i : S1000000x4.Idx) : ∃ t : Fin cfg0.N, (cfg0.win 2).flush t = true ∧ i ∈ ((cfg0.win 2).blk t).view.set := by
  have hi0 : (i 0).val < 1000000 := (i 0).isLt
  have hi1 : (i 1).val < 4 := (i 1).isLt
  have hN : grid0.N = 100 := N_0
  let t : Fin cfg0.N := ⟨(i 0).val / 10000, by show (i 0).val / 10000 < grid0.N; omega⟩
  obtain ⟨e0, e1, e2, e3, e4, e5⟩ := idx_facts t
  have e4' : win0_2.index t (0 : Fin 2) = (i 0).val / 10000 := e4
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 4 ≤ (i 1).val ∧ (i 1).val < win0_2.index t (1 : Fin 2) * 4 + 4; omega

/-- After region 0 its output array is the function whose entry `(r, q)` is `∑ k, X[r,k] · W[k,q]`, `X` and `W` the
    features and the weight as the region finds them. -/
theorem value (c : Dev nD) (G : S1000000x4.Idx → Elt Ideal .f32)
    (hG : ∀ (r : Fin 1000000) (q : Fin 4), G (ix2 r q) = ∑ k : Fin 16, feat V c (ix2 r k) * wgt V c (ix2 k q)) :
    (dat0 V c).arrAt 2 cfg0.N = G :=
  (dat0 V c).arrAt_eq_of_cover 2 G (fun t _ => flushed_eq V c G hG t) cover

end Cert.KernelIdeal.Region0

end
-- ==== Proof.Region1.lean ====
/-
  Region 1 (bias, tanh, second projection), from any entry contents `V`: what its output array holds after the region.

  Point `t` of the 100 reads rows `10000·t …` of the aggregated features (4 columns), the 1 × 4 bias block and the
  4 × 4 weight, and writes back rows `10000·t …` of the 1000000 × 4 output.  The stored value at `(p, q)` is
  `∑ k, tanh (a[p,k] + b[0,k]) · w[k,q]`, so the written-back block is the restriction of the whole-array function
  with entry `(r, q)` equal to `∑ k, tanh (A[r,k] + B[0,k]) · W[k,q]`; the blocks tile the output.
-/
import proofs.«131106_j29454885716255_2_alg».proof.Proof.Gen.KernelIdeal.Frame
import proofs.«131106_j29454885716255_2_alg».proof.Proof.BodyValues
import Idealize.ShloMosaic.Lib.Pipeline.Value
import Idealize.ShloMosaic.Lib.ValueIdx

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The aggregated features, the bias row and the weight as the region finds them. -/
abbrev agg (c : Dev nD) : S1000000x4.Idx → EReal := V c main_v44
abbrev bias (c : Dev nD) : S1x4.Idx → EReal := V c main_v45
abbrev wgt (c : Dev nD) : S4x4.Idx → EReal := V c main_arg5

theorem zero2 : (![0, 0] : Fin 2 → Nat) = fun _ => 0 := funext fun a => by fin_cases a <;> rfl

/-- The index maps over the grid: point `t` takes row block `t` of the input and of the output; the bias and the
    weight have one block each. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem lt_N (t : Fin cfg1.N) : t.val < 100 := lt_of_lt_of_eq t.isLt N_1

/-- What point `t` writes back is block `t` of the function `G` with the stated entries. -/
theorem flushed_eq (c : Dev nD) (G : S1000000x4.Idx → Elt Ideal .f32)
    (hG : ∀ (r : Fin 1000000) (q : Fin 4), G (ix2 r q)
      = ∑ k : Fin 4, Ideal.tanh (agg V c (ix2 r k) + bias V c (ix2 (0 : Fin 1) k)) * wgt V c (ix2 k q))
    (t : Fin cfg1.N) :
    (dat1 V c).flushed 3 t = ((cfg1.win 3).blk t).view.read (Elt Ideal) G := by
  show (cfg1.win 3).cut (grid1.coords t) ((dat1 V c).after 3 t) = _
  rw [after1_3]
  unfold out1_3
  rw [View.canon_unit_zero zero2]
  simp only [View.ld_unit_zero (S := S10000x4) zero2, View.ld_unit_zero (S := S1x4) zero2, View.ld_unit_zero (S := S4x4) zero2]
  obtain ⟨e0, e1, e2, e3, e4, e5, e6, e7⟩ := idx_facts t
  have ht := lt_N t
  funext j
  obtain ⟨p, q, rfl⟩ : ∃ (p : Fin 10000) (q : Fin 4), j = ix2 p q := ⟨j 0, j 1, eq_ix2 j⟩
  have hp : p.val < 10000 := p.isLt
  have hrow : t.val * 10000 + p.val < 1000000 := by omega
  show k1_pay1 (iblk1 V c 0 t) (iblk1 V c 1 t) (iblk1 V c 2 t) (ix2 p q) = G (((cfg1.win 3).blk t).view.emb (ix2 p q))
  have hemb : ((cfg1.win 3).blk t).view.emb (ix2 p q) = ix2 (⟨t.val * 10000 + p.val, hrow⟩ : Fin 1000000) q := by
    funext a; apply Fin.ext
    match a with
    | ⟨0, _⟩ => show win1_3.index t (0 : Fin 2) * 10000 + 1 * p.val = t.val * 10000 + p.val; omega
    | ⟨1, _⟩ => show win1_3.index t (1 : Fin 2) * 4 + 1 * q.val = q.val; omega
  rw [hemb, hG]
  refine (BodyValues.biasTanhProj4_apply (iblk1 V c 0 t) (iblk1 V c 1 t) (iblk1 V c 2 t) p q).trans ?_
  refine Finset.sum_congr rfl fun k _ => ?_
  show Ideal.tanh (agg V c (((cfg1.win 0).blk t).view.emb (ix2 p k)) + bias V c (((cfg1.win 1).blk t).view.emb (ix2 (0 : Fin 1) k)))
      * wgt V c (((cfg1.win 2).blk t).view.emb (ix2 k q)) = _
  have h0 : ((cfg1.win 0).blk t).view.emb (ix2 p k) = ix2 (⟨t.val * 10000 + p.val, hrow⟩ : Fin 1000000) k := by
    funext a; apply Fin.ext
    match a with
    | ⟨0, _⟩ => show win1_0.index t (0 : Fin 2) * 10000 + 1 * p.val = t.val * 10000 + p.val; omega
    | ⟨1, _⟩ => show win1_0.index t (1 : Fin 2) * 4 + 1 * k.val = k.val; omega
  have h1 : ((cfg1.win 1).blk t).view.emb (ix2 (0 : Fin 1) k) = ix2 (0 : Fin 1) k := by
    funext a; apply Fin.ext
    match a with
    | ⟨0, _⟩ => show win1_1.index t (0 : Fin 2) * 1 + 1 * 0 = 0; omega
    | ⟨1, _⟩ => show win1_1.index t (1 : Fin 2) * 4 + 1 * k.val = k.val; omega
  have h2 : ((cfg1.win 2).blk t).view.emb (ix2 k q) = ix2 k q := by
    funext a; apply Fin.ext
    match a with
    | ⟨0, _⟩ => show win1_2.index t (0 : Fin 2) * 4 + 1 * k.val = k.val; omega
    | ⟨1, _⟩ => show win1_2.index t (1 : Fin 2) * 4 + 1 * q.val = q.val; omega
  rw [h0, h1, h2]

/-- An index of the output is in point `t`'s block iff each coordinate is in the block's range on its axis. -/
theorem mem_blk (t : Fin cfg1.N) (i : S1000000x4.Idx) :
    i ∈ ((cfg1.win 3).blk t).view.set ↔ ∀ a : Fin 2, win1_3.index t a * S10000x4.size a ≤ (i a).val ∧ (i a).val < win1_3.index t a * S10000x4.size a + S10000x4.size a := by
  show i ∈ ((View.whole main_v46).slice (win1_3.rect t)).set ↔ _
  rw [View.set_slice_whole, Rect.mem_set_unit]
  exact Iff.rfl

/-- Every entry of the output is in some point's block: row `r` is in point `r / 10000`'s. -/
theorem cover (i : S1000000x4.Idx) : ∃ t : Fin cfg1.N, (cfg1.win 3).flush t = true ∧ i ∈ ((cfg1.win 3).blk t).view.set := by
  have hi0 : (i 0).val < 1000000 := (i 0).isLt
  have hi1 : (i 1).val < 4 := (i 1).isLt
  have hN : grid1.N = 100 := N_1
  let t : Fin cfg1.N := ⟨(i 0).val / 10000, by show (i 0).val / 10000 < grid1.N; omega⟩
  obtain ⟨e0, e1, e2, e3, e4, e5, e6, e7⟩ := idx_facts t
  have e6' : win1_3.index t (0 : Fin 2) = (i 0).val / 10000 := e6
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 4 ≤ (i 1).val ∧ (i 1).val < win1_3.index t (1 : Fin 2) * 4 + 4; omega

/-- After region 1 its output array is the function whose entry `(r, q)` is `∑ k, tanh (A[r,k] + B[0,k]) · W[k,q]`. -/
theorem value (c : Dev nD) (G : S1000000x4.Idx → Elt Ideal .f32)
    (hG : ∀ (r : Fin 1000000) (q : Fin 4), G (ix2 r q)
      = ∑ k : Fin 4, Ideal.tanh (agg V c (ix2 r k) + bias V c (ix2 (0 : Fin 1) k)) * wgt V c (ix2 k q)) :
    (dat1 V c).arrAt 3 cfg1.N = G :=
  (dat1 V c).arrAt_eq_of_cover 3 G (fun t _ => flushed_eq V c G hG t) cover

end Cert.KernelIdeal.Region1

end
-- ==== Proof.Region2.lean ====
/-
  Region 2 (bias, tanh, third projection), from any entry contents `V`: what its output array holds after the region.

  Point `t` of the 100 reads rows `10000·t …` of the aggregated features (4 columns), the 1 × 4 bias block and the
  4 × 2 weight, and writes back rows `10000·t …` of the 1000000 × 2 output.  The stored value at `(p, q)` is
  `∑ k, tanh (a[p,k] + b[0,k]) · w[k,q]`, so the written-back block is the restriction of the whole-array function
  with entry `(r, q)` equal to `∑ k, tanh (A[r,k] + B[0,k]) · W[k,q]`; the blocks tile the output.
-/
import proofs.«131106_j29454885716255_2_alg».proof.Proof.Gen.KernelIdeal.Frame
import proofs.«131106_j29454885716255_2_alg».proof.Proof.BodyValues
import Idealize.ShloMosaic.Lib.Pipeline.Value
import Idealize.ShloMosaic.Lib.ValueIdx

set_option maxRecDepth 16384

noncomputable section

open scoped BigOperators

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The aggregated features, the bias row and the weight as the region finds them. -/
abbrev agg (c : Dev nD) : S1000000x4.Idx → EReal := V c main_v58
abbrev bias (c : Dev nD) : S1x4.Idx → EReal := V c main_v59
abbrev wgt (c : Dev nD) : S4x2.Idx → EReal := V c main_arg7

theorem zero2 : (![0, 0] : Fin 2 → Nat) = fun _ => 0 := funext fun a => by fin_cases a <;> rfl

/-- The index maps over the grid: point `t` takes row block `t` of the input and of the output; the bias and the
    weight have one block each. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem lt_N (t : Fin cfg2.N) : t.val < 100 := lt_of_lt_of_eq t.isLt N_2

/-- What point `t` writes back is block `t` of the function `G` with the stated entries. -/
theorem flushed_eq (c : Dev nD) (G : S1000000x2.Idx → Elt Ideal .f32)
    (hG : ∀ (r : Fin 1000000) (q : Fin 2), G (ix2 r q)
      = ∑ k : Fin 4, Ideal.tanh (agg V c (ix2 r k) + bias V c (ix2 (0 : Fin 1) k)) * wgt V c (ix2 k q))
    (t : Fin cfg2.N) :
    (dat2 V c).flushed 3 t = ((cfg2.win 3).blk t).view.read (Elt Ideal) G := by
  show (cfg2.win 3).cut (grid2.coords t) ((dat2 V c).after 3 t) = _
  rw [after2_3]
  unfold out2_3
  rw [View.canon_unit_zero zero2]
  simp only [View.ld_unit_zero (S := S10000x4) zero2, View.ld_unit_zero (S := S1x4) zero2, View.ld_unit_zero (S := S4x2) zero2]
  obtain ⟨e0, e1, e2, e3, e4, e5, e6, e7⟩ := idx_facts t
  have ht := lt_N t
  funext j
  obtain ⟨p, q, rfl⟩ : ∃ (p : Fin 10000) (q : Fin 2), j = ix2 p q := ⟨j 0, j 1, eq_ix2 j⟩
  have hp : p.val < 10000 := p.isLt
  have hrow : t.val * 10000 + p.val < 1000000 := by omega
  show k2_pay1 (iblk2 V c 0 t) (iblk2 V c 1 t) (iblk2 V c 2 t) (ix2 p q) = G (((cfg2.win 3).blk t).view.emb (ix2 p q))
  have hemb : ((cfg2.win 3).blk t).view.emb (ix2 p q) = ix2 (⟨t.val * 10000 + p.val, hrow⟩ : Fin 1000000) q := by
    funext a; apply Fin.ext
    match a with
    | ⟨0, _⟩ => show win2_3.index t (0 : Fin 2) * 10000 + 1 * p.val = t.val * 10000 + p.val; omega
    | ⟨1, _⟩ => show win2_3.index t (1 : Fin 2) * 2 + 1 * q.val = q.val; omega
  rw [hemb, hG]
  refine (BodyValues.biasTanhProj2_apply (iblk2 V c 0 t) (iblk2 V c 1 t) (iblk2 V c 2 t) p q).trans ?_
  refine Finset.sum_congr rfl fun k _ => ?_
  show Ideal.tanh (agg V c (((cfg2.win 0).blk t).view.emb (ix2 p k)) + bias V c (((cfg2.win 1).blk t).view.emb (ix2 (0 : Fin 1) k)))
      * wgt V c (((cfg2.win 2).blk t).view.emb (ix2 k q)) = _
  have h0 : ((cfg2.win 0).blk t).view.emb (ix2 p k) = ix2 (⟨t.val * 10000 + p.val, hrow⟩ : Fin 1000000) k := by
    funext a; apply Fin.ext
    match a with
    | ⟨0, _⟩ => show win2_0.index t (0 : Fin 2) * 10000 + 1 * p.val = t.val * 10000 + p.val; omega
    | ⟨1, _⟩ => show win2_0.index t (1 : Fin 2) * 4 + 1 * k.val = k.val; omega
  have h1 : ((cfg2.win 1).blk t).view.emb (ix2 (0 : Fin 1) k) = ix2 (0 : Fin 1) k := by
    funext a; apply Fin.ext
    match a with
    | ⟨0, _⟩ => show win2_1.index t (0 : Fin 2) * 1 + 1 * 0 = 0; omega
    | ⟨1, _⟩ => show win2_1.index t (1 : Fin 2) * 4 + 1 * k.val = k.val; omega
  have h2 : ((cfg2.win 2).blk t).view.emb (ix2 k q) = ix2 k q := by
    funext a; apply Fin.ext
    match a with
    | ⟨0, _⟩ => show win2_2.index t (0 : Fin 2) * 4 + 1 * k.val = k.val; omega
    | ⟨1, _⟩ => show win2_2.index t (1 : Fin 2) * 2 + 1 * q.val = q.val; omega
  rw [h0, h1, h2]

/-- An index of the output is in point `t`'s block iff each coordinate is in the block's range on its axis. -/
theorem mem_blk (t : Fin cfg2.N) (i : S1000000x2.Idx) :
    i ∈ ((cfg2.win 3).blk t).view.set ↔ ∀ a : Fin 2, win2_3.index t a * S10000x2.size a ≤ (i a).val ∧ (i a).val < win2_3.index t a * S10000x2.size a + S10000x2.size a := by
  show i ∈ ((View.whole main_v60).slice (win2_3.rect t)).set ↔ _
  rw [View.set_slice_whole, Rect.mem_set_unit]
  exact Iff.rfl

/-- Every entry of the output is in some point's block: row `r` is in point `r / 10000`'s. -/
theorem cover (i : S1000000x2.Idx) : ∃ t : Fin cfg2.N, (cfg2.win 3).flush t = true ∧ i ∈ ((cfg2.win 3).blk t).view.set := by
  have hi0 : (i 0).val < 1000000 := (i 0).isLt
  have hi1 : (i 1).val < 2 := (i 1).isLt
  have hN : grid2.N = 100 := N_2
  let t : Fin cfg2.N := ⟨(i 0).val / 10000, by show (i 0).val / 10000 < grid2.N; omega⟩
  obtain ⟨e0, e1, e2, e3, e4, e5, e6, e7⟩ := idx_facts t
  have e6' : win2_3.index t (0 : Fin 2) = (i 0).val / 10000 := e6
  refine ⟨t, flush2_3 t, ?_⟩
  rw [mem_blk]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 2 ≤ (i 1).val ∧ (i 1).val < win2_3.index t (1 : Fin 2) * 2 + 2; omega

/-- After region 2 its output array is the function whose entry `(r, q)` is `∑ k, tanh (A[r,k] + B[0,k]) · W[k,q]`. -/
theorem value (c : Dev nD) (G : S1000000x2.Idx → Elt Ideal .f32)
    (hG : ∀ (r : Fin 1000000) (q : Fin 2), G (ix2 r q)
      = ∑ k : Fin 4, Ideal.tanh (agg V c (ix2 r k) + bias V c (ix2 (0 : Fin 1) k)) * wgt V c (ix2 k q)) :
    (dat2 V c).arrAt 3 cfg2.N = G :=
  (dat2 V c).arrAt_eq_of_cover 3 G (fun t _ => flushed_eq V c G hG t) cover

end Cert.KernelIdeal.Region2

end
-- ==== Proof.Region3.lean ====
/-
  Region 3 (the last bias and tanh), from any entry contents `V`: what its output array holds after the region.

  Point `t` of the 100 reads rows `10000·t …` of the aggregated features (2 columns) and the 1 × 2 bias block, and
  writes back rows `10000·t …` of the 1000000 × 2 output.  The stored value at `(p, q)` is `tanh (a[p,q] + b[0,q])`,
  so the written-back block is the restriction of the whole-array function with entry `(r, q)` equal to
  `tanh (A[r,q] + B[0,q])`; the blocks tile the output.
-/
import proofs.«131106_j29454885716255_2_alg».proof.Proof.Gen.KernelIdeal.Frame
import proofs.«131106_j29454885716255_2_alg».proof.Proof.BodyValues
import Idealize.ShloMosaic.Lib.Pipeline.Value
import Idealize.ShloMosaic.Lib.ValueIdx

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The aggregated features and the bias row as the region finds them. -/
abbrev agg (c : Dev nD) : S1000000x2.Idx → EReal := V c main_v72
abbrev bias (c : Dev nD) : S1x2.Idx → EReal := V c main_v73

theorem zero2 : (![0, 0] : Fin 2 → Nat) = fun _ => 0 := funext fun a => by fin_cases a <;> rfl

/-- The index maps over the grid: point `t` takes row block `t` of the input and of the output; the bias has one
    block. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem lt_N (t : Fin cfg3.N) : t.val < 100 := lt_of_lt_of_eq t.isLt N_3

/-- What point `t` writes back is block `t` of the function `G` with the stated entries. -/
theorem flushed_eq (c : Dev nD) (G : S1000000x2.Idx → Elt Ideal .f32)
    (hG : ∀ (r : Fin 1000000) (q : Fin 2), G (ix2 r q) = Ideal.tanh (agg V c (ix2 r q) + bias V c (ix2 (0 : Fin 1) q)))
    (t : Fin cfg3.N) :
    (dat3 V c).flushed 2 t = ((cfg3.win 2).blk t).view.read (Elt Ideal) G := by
  show (cfg3.win 2).cut (grid3.coords t) ((dat3 V c).after 2 t) = _
  rw [after3_2]
  unfold out3_2
  rw [View.canon_unit_zero zero2]
  simp only [View.ld_unit_zero (S := S10000x2) zero2, View.ld_unit_zero (S := S1x2) zero2]
  obtain ⟨e0, e1, e2, e3, e4, e5⟩ := idx_facts t
  have ht := lt_N t
  funext j
  obtain ⟨p, q, rfl⟩ : ∃ (p : Fin 10000) (q : Fin 2), j = ix2 p q := ⟨j 0, j 1, eq_ix2 j⟩
  have hp : p.val < 10000 := p.isLt
  have hrow : t.val * 10000 + p.val < 1000000 := by omega
  show k3_pay1 (iblk3 V c 0 t) (iblk3 V c 1 t) (ix2 p q) = G (((cfg3.win 2).blk t).view.emb (ix2 p q))
  have hemb : ((cfg3.win 2).blk t).view.emb (ix2 p q) = ix2 (⟨t.val * 10000 + p.val, hrow⟩ : Fin 1000000) q := by
    funext a; apply Fin.ext
    match a with
    | ⟨0, _⟩ => show win3_2.index t (0 : Fin 2) * 10000 + 1 * p.val = t.val * 10000 + p.val; omega
    | ⟨1, _⟩ => show win3_2.index t (1 : Fin 2) * 2 + 1 * q.val = q.val; omega
  rw [hemb, hG]
  refine (BodyValues.biasTanh_apply (iblk3 V c 0 t) (iblk3 V c 1 t) p q).trans ?_
  show Ideal.tanh (agg V c (((cfg3.win 0).blk t).view.emb (ix2 p q)) + bias V c (((cfg3.win 1).blk t).view.emb (ix2 (0 : Fin 1) q))) = _
  have h0 : ((cfg3.win 0).blk t).view.emb (ix2 p q) = ix2 (⟨t.val * 10000 + p.val, hrow⟩ : Fin 1000000) q := by
    funext a; apply Fin.ext
    match a with
    | ⟨0, _⟩ => show win3_0.index t (0 : Fin 2) * 10000 + 1 * p.val = t.val * 10000 + p.val; omega
    | ⟨1, _⟩ => show win3_0.index t (1 : Fin 2) * 2 + 1 * q.val = q.val; omega
  have h1 : ((cfg3.win 1).blk t).view.emb (ix2 (0 : Fin 1) q) = ix2 (0 : Fin 1) q := by
    funext a; apply Fin.ext
    match a with
    | ⟨0, _⟩ => show win3_1.index t (0 : Fin 2) * 1 + 1 * 0 = 0; omega
    | ⟨1, _⟩ => show win3_1.index t (1 : Fin 2) * 2 + 1 * q.val = q.val; omega
  rw [h0, h1]

/-- An index of the output is in point `t`'s block iff each coordinate is in the block's range on its axis. -/
theorem mem_blk (t : Fin cfg3.N) (i : S1000000x2.Idx) :
    i ∈ ((cfg3.win 2).blk t).view.set ↔ ∀ a : Fin 2, win3_2.index t a * S10000x2.size a ≤ (i a).val ∧ (i a).val < win3_2.index t a * S10000x2.size a + S10000x2.size a := by
  show i ∈ ((View.whole main_v74).slice (win3_2.rect t)).set ↔ _
  rw [View.set_slice_whole, Rect.mem_set_unit]
  exact Iff.rfl

/-- Every entry of the output is in some point's block: row `r` is in point `r / 10000`'s. -/
theorem cover (i : S1000000x2.Idx) : ∃ t : Fin cfg3.N, (cfg3.win 2).flush t = true ∧ i ∈ ((cfg3.win 2).blk t).view.set := by
  have hi0 : (i 0).val < 1000000 := (i 0).isLt
  have hi1 : (i 1).val < 2 := (i 1).isLt
  have hN : grid3.N = 100 := N_3
  let t : Fin cfg3.N := ⟨(i 0).val / 10000, by show (i 0).val / 10000 < grid3.N; omega⟩
  obtain ⟨e0, e1, e2, e3, e4, e5⟩ := idx_facts t
  have e4' : win3_2.index t (0 : Fin 2) = (i 0).val / 10000 := e4
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 2 ≤ (i 1).val ∧ (i 1).val < win3_2.index t (1 : Fin 2) * 2 + 2; omega

/-- After region 3 its output array is the function whose entry `(r, q)` is `tanh (A[r,q] + B[0,q])`. -/
theorem value (c : Dev nD) (G : S1000000x2.Idx → Elt Ideal .f32)
    (hG : ∀ (r : Fin 1000000) (q : Fin 2), G (ix2 r q) = Ideal.tanh (agg V c (ix2 r q) + bias V c (ix2 (0 : Fin 1) q))) :
    (dat3 V c).arrAt 2 cfg3.N = G :=
  (dat3 V c).arrAt_eq_of_cover 2 G (fun t _ => flushed_eq V c G hG t) cover

end Cert.KernelIdeal.Region3

end
-- ==== Proof.RefRun.lean ====
/-
  The reference program's run, read as a fold.

  @main of the reference is a straight line of 123 host operations.  Its run ends with every buffer at the fold of
  the operations' results over the launch contents.  The line is cut here into ten stretches: the edge
  normalisation (operations 1–7: the two index vectors; 8–43: the norms), then three times "a projection of the node features; a gather along the
  edges, a scaling and a scatter-add back to the nodes; a bias and a tanh", and the pooling tail.  The
  projection and the bias-and-tanh stretches are the ones the kernel replaces by its four blocked regions; the
  others are, operation for operation, the kernel program's own host stretches.  For each of the replaced
  stretches the value it writes is stated as one term of the buffers it reads, and for every stretch: a buffer it
  does not write keeps its contents.
-/
import proofs.«131106_j29454885716255_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 123 operations, in order (the called `where`'s three operations stand in the call's place). -/
abbrev ops : List (HloOp τ sig (Elt F)) :=
  [ nullary main_v0 (iotaInDim S1000000 32 0),
    unary main_arg1 main_v1 ((extractStridedSlice S1x16000000 ![0, 0] · slices_S2x16000000_S1x16000000_0_0) : (⟨S2x16000000, .i32⟩ : BufTy).Contents (Elt F) → (⟨S1x16000000, .i32⟩ : BufTy).Contents (Elt F)),
    reshape main_v1 main_v2 rfl shapeCasts_S1x16000000_S16000000,
    binary main_v2 main_v0 main_v3 ((fun a b => concatenate S17000000 0 [⟨S16000000, a⟩, ⟨S1000000, b⟩] concatenates_S16000000_S1000000_S17000000_d0) : (⟨S16000000, .i32⟩ : BufTy).Contents (Elt F) → (⟨S1000000, .i32⟩ : BufTy).Contents (Elt F) → (⟨S17000000, .i32⟩ : BufTy).Contents (Elt F)),
    unary main_arg1 main_v4 ((extractStridedSlice S1x16000000 ![1, 0] · slices_S2x16000000_S1x16000000_1_0) : (⟨S2x16000000, .i32⟩ : BufTy).Contents (Elt F) → (⟨S1x16000000, .i32⟩ : BufTy).Contents (Elt F)),
    reshape main_v4 main_v5 rfl shapeCasts_S1x16000000_S16000000,
    binary main_v5 main_v0 main_v6 ((fun a b => concatenate S17000000 0 [⟨S16000000, a⟩, ⟨S1000000, b⟩] concatenates_S16000000_S1000000_S17000000_d0) : (⟨S16000000, .i32⟩ : BufTy).Contents (Elt F) → (⟨S1000000, .i32⟩ : BufTy).Contents (Elt F) → (⟨S17000000, .i32⟩ : BufTy).Contents (Elt F)),
    nullary main_cst (constant S_ .f32 0x3F800000#32),
    unary main_cst main_v7 (broadcastInDim S17000000 ![] bcast_S_S17000000 : (⟨S_, .f32⟩ : BufTy).Contents (Elt F) → (⟨S17000000, .f32⟩ : BufTy).Contents (Elt F)),
    nullary main_cst_0 (constant S_ .f32 0x00000000#32),
    unary main_cst_0 main_v8 (broadcastInDim S1000000 ![] bcast_S_S1000000 : (⟨S_, .f32⟩ : BufTy).Contents (Elt F) → (⟨S1000000, .f32⟩ : BufTy).Contents (Elt F)),
    unary main_v6 main_v9 (broadcastInDim S17000000x1 ![0] bcast_S17000000_S17000000x1_0 : (⟨S17000000, .i32⟩ : BufTy).Contents (Elt F) → (⟨S17000000x1, .i32⟩ : BufTy).Contents (Elt F)),
    ternary main_v8 main_v9 main_v7 main_v10 ((fun x i u => Host.scatterAdd scatter_S1000000_S17000000x1_S17000000_n_0_0_1 x i u) : (⟨S1000000, .f32⟩ : BufTy).Contents (Elt F) → (⟨S17000000x1, .i32⟩ : BufTy).Contents (Elt F) → (⟨S17000000, .f32⟩ : BufTy).Contents (Elt F) → (⟨S1000000, .f32⟩ : BufTy).Contents (Elt F)),
    nullary main_cst_1 (constant S_ .f32 0x00000000#32),
    unary main_cst_1 main_v11 (broadcastInDim S1000000 ![] bcast_S_S1000000 : (⟨S_, .f32⟩ : BufTy).Contents (Elt F) → (⟨S1000000, .f32⟩ : BufTy).Contents (Elt F)),
    binary main_v10 main_v11 main_v12 (cmpf .ogt : (⟨S1000000, .f32⟩ : BufTy).Contents (Elt F) → (⟨S1000000, .f32⟩ : BufTy).Contents (Elt F) → (⟨S1000000, .i1⟩ : BufTy).Contents (Elt F)),
    nullary main_cst_2 (constant S_ .f32 0xBF000000#32),
    unary main_cst_2 main_v13 (broadcastInDim S1000000 ![] bcast_S_S1000000 : (⟨S_, .f32⟩ : BufTy).Contents (Elt F) → (⟨S1000000, .f32⟩ : BufTy).Contents (Elt F)),
    binary main_v10 main_v13 main_v14 (Host.powf : (⟨S1000000, .f32⟩ : BufTy).Contents (Elt F) → (⟨S1000000, .f32⟩ : BufTy).Contents (Elt F) → (⟨S1000000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S1000000, .f32⟩) main_call0_v1) (broadcastInDim S1000000 ![] bcast_S_S1000000),
    TRef.ternary (TRef.of (T := ⟨S1000000, .i1⟩) main_v12) (TRef.of (T := ⟨S1000000, .f32⟩) main_v14) (TRef.of (T := ⟨S1000000, .f32⟩) main_call0_v1) (TRef.of (T := ⟨S1000000, .f32⟩) main_v15) select,
    nullary main_c (constantI S_ 32 0#32),
    unary main_c main_v16 (broadcastInDim S17000000 ![] bcast_S_S17000000 : (⟨S_, .i32⟩ : BufTy).Contents (Elt F) → (⟨S17000000, .i32⟩ : BufTy).Contents (Elt F)),
    binary main_v3 main_v16 main_v17 (cmpi .slt : (⟨S17000000, .i32⟩ : BufTy).Contents (Elt F) → (⟨S17000000, .i32⟩ : BufTy).Contents (Elt F) → (⟨S17000000, .i1⟩ : BufTy).Contents (Elt F)),
    nullary main_c_4 (constantI S_ 32 1000000#32),
    unary main_c_4 main_v18 (broadcastInDim S17000000 ![] bcast_S_S17000000 : (⟨S_, .i32⟩ : BufTy).Contents (Elt F) → (⟨S17000000, .i32⟩ : BufTy).Contents (Elt F)),
    binary main_v3 main_v18 main_v19 (addi : (⟨S17000000, .i32⟩ : BufTy).Contents (Elt F) → (⟨S17000000, .i32⟩ : BufTy).Contents (Elt F) → (⟨S17000000, .i32⟩ : BufTy).Contents (Elt F)),
    ternary main_v17 main_v19 main_v3 main_v20 (select : (⟨S17000000, .i1⟩ : BufTy).Contents (Elt F) → (⟨S17000000, .i32⟩ : BufTy).Contents (Elt F) → (⟨S17000000, .i32⟩ : BufTy).Contents (Elt F) → (⟨S17000000, .i32⟩ : BufTy).Contents (Elt F)),
    unary main_v20 main_v21 (broadcastInDim S17000000x1 ![0] bcast_S17000000_S17000000x1_0 : (⟨S17000000, .i32⟩ : BufTy).Contents (Elt F) → (⟨S17000000x1, .i32⟩ : BufTy).Contents (Elt F)),
    binary main_v15 main_v21 main_v22 ((fun x i => Host.gather gather_S1000000_S17000000x1_S17000000_n_0_n_n_0_1_1 x i) : (⟨S1000000, .f32⟩ : BufTy).Contents (Elt F) → (⟨S17000000x1, .i32⟩ : BufTy).Contents (Elt F) → (⟨S17000000, .f32⟩ : BufTy).Contents (Elt F)),
    nullary main_c_5 (constantI S_ 32 0#32),
    unary main_c_5 main_v23 (broadcastInDim S17000000 ![] bcast_S_S17000000 : (⟨S_, .i32⟩ : BufTy).Contents (Elt F) → (⟨S17000000, .i32⟩ : BufTy).Contents (Elt F)),
    binary main_v6 main_v23 main_v24 (cmpi .slt : (⟨S17000000, .i32⟩ : BufTy).Contents (Elt F) → (⟨S17000000, .i32⟩ : BufTy).Contents (Elt F) → (⟨S17000000, .i1⟩ : BufTy).Contents (Elt F)),
    nullary main_c_6 (constantI S_ 32 1000000#32),
    unary main_c_6 main_v25 (broadcastInDim S17000000 ![] bcast_S_S17000000 : (⟨S_, .i32⟩ : BufTy).Contents (Elt F) → (⟨S17000000, .i32⟩ : BufTy).Contents (Elt F)),
    binary main_v6 main_v25 main_v26 (addi : (⟨S17000000, .i32⟩ : BufTy).Contents (Elt F) → (⟨S17000000, .i32⟩ : BufTy).Contents (Elt F) → (⟨S17000000, .i32⟩ : BufTy).Contents (Elt F)),
    ternary main_v24 main_v26 main_v6 main_v27 (select : (⟨S17000000, .i1⟩ : BufTy).Contents (Elt F) → (⟨S17000000, .i32⟩ : BufTy).Contents (Elt F) → (⟨S17000000, .i32⟩ : BufTy).Contents (Elt F) → (⟨S17000000, .i32⟩ : BufTy).Contents (Elt F)),
    unary main_v27 main_v28 (broadcastInDim S17000000x1 ![0] bcast_S17000000_S17000000x1_0 : (⟨S17000000, .i32⟩ : BufTy).Contents (Elt F) → (⟨S17000000x1, .i32⟩ : BufTy).Contents (Elt F)),
    binary main_v15 main_v28 main_v29 ((fun x i => Host.gather gather_S1000000_S17000000x1_S17000000_n_0_n_n_0_1_1 x i) : (⟨S1000000, .f32⟩ : BufTy).Contents (Elt F) → (⟨S17000000x1, .i32⟩ : BufTy).Contents (Elt F) → (⟨S17000000, .f32⟩ : BufTy).Contents (Elt F)),
    binary main_v22 main_v29 main_v30 (mulf : (⟨S17000000, .f32⟩ : BufTy).Contents (Elt F) → (⟨S17000000, .f32⟩ : BufTy).Contents (Elt F) → (⟨S17000000, .f32⟩ : BufTy).Contents (Elt F)),
    unary main_v30 main_v31 (broadcastInDim S17000000x1 ![0] bcast_S17000000_S17000000x1_0 : (⟨S17000000, .f32⟩ : BufTy).Contents (Elt F) → (⟨S17000000x1, .f32⟩ : BufTy).Contents (Elt F)),
    binary main_arg0 main_arg3 main_v32 ((fun l r => Host.dotGeneral dot_S1000000x16_S16x4_S1000000x4_1_0_0_1_n_n none l r) : (⟨S1000000x16, .f32⟩ : BufTy).Contents (Elt F) → (⟨S16x4, .f32⟩ : BufTy).Contents (Elt F) → (⟨S1000000x4, .f32⟩ : BufTy).Contents (Elt F)),
    nullary main_c_7 (constantI S_ 32 0#32),
    unary main_c_7 main_v33 (broadcastInDim S17000000 ![] bcast_S_S17000000 : (⟨S_, .i32⟩ : BufTy).Contents (Elt F) → (⟨S17000000, .i32⟩ : BufTy).Contents (Elt F)),
    binary main_v3 main_v33 main_v34 (cmpi .slt : (⟨S17000000, .i32⟩ : BufTy).Contents (Elt F) → (⟨S17000000, .i32⟩ : BufTy).Contents (Elt F) → (⟨S17000000, .i1⟩ : BufTy).Contents (Elt F)),
    nullary main_c_8 (constantI S_ 32 1000000#32),
    unary main_c_8 main_v35 (broadcastInDim S17000000 ![] bcast_S_S17000000 : (⟨S_, .i32⟩ : BufTy).Contents (Elt F) → (⟨S17000000, .i32⟩ : BufTy).Contents (Elt F)),
    binary main_v3 main_v35 main_v36 (addi : (⟨S17000000, .i32⟩ : BufTy).Contents (Elt F) → (⟨S17000000, .i32⟩ : BufTy).Contents (Elt F) → (⟨S17000000, .i32⟩ : BufTy).Contents (Elt F)),
    ternary main_v34 main_v36 main_v3 main_v37 (select : (⟨S17000000, .i1⟩ : BufTy).Contents (Elt F) → (⟨S17000000, .i32⟩ : BufTy).Contents (Elt F) → (⟨S17000000, .i32⟩ : BufTy).Contents (Elt F) → (⟨S17000000, .i32⟩ : BufTy).Contents (Elt F)),
    unary main_v37 main_v38 (broadcastInDim S17000000x1 ![0] bcast_S17000000_S17000000x1_0 : (⟨S17000000, .i32⟩ : BufTy).Contents (Elt F) → (⟨S17000000x1, .i32⟩ : BufTy).Contents (Elt F)),
    binary main_v32 main_v38 main_v39 ((fun x i => Host.gather gather_S1000000x4_S17000000x1_S17000000x4_1_0_n_n_0_1_14 x i) : (⟨S1000000x4, .f32⟩ : BufTy).Contents (Elt F) → (⟨S17000000x1, .i32⟩ : BufTy).Contents (Elt F) → (⟨S17000000x4, .f32⟩ : BufTy).Contents (Elt F)),
    unary main_v31 main_v40 (broadcastInDim S17000000x4 ![0, 1] bcast_S17000000x1_S17000000x4_0_1 : (⟨S17000000x1, .f32⟩ : BufTy).Contents (Elt F) → (⟨S17000000x4, .f32⟩ : BufTy).Contents (Elt F)),
    binary main_v40 main_v39 main_v41 (mulf : (⟨S17000000x4, .f32⟩ : BufTy).Contents (Elt F) → (⟨S17000000x4, .f32⟩ : BufTy).Contents (Elt F) → (⟨S17000000x4, .f32⟩ : BufTy).Contents (Elt F)),
    nullary main_cst_9 (constant S_ .f32 0x00000000#32),
    unary main_cst_9 main_v42 (broadcastInDim S1000000x4 ![] bcast_S_S1000000x4 : (⟨S_, .f32⟩ : BufTy).Contents (Elt F) → (⟨S1000000x4, .f32⟩ : BufTy).Contents (Elt F)),
    unary main_v6 main_v43 (broadcastInDim S17000000x1 ![0] bcast_S17000000_S17000000x1_0 : (⟨S17000000, .i32⟩ : BufTy).Contents (Elt F) → (⟨S17000000x1, .i32⟩ : BufTy).Contents (Elt F)),
    ternary main_v42 main_v43 main_v41 main_v44 ((fun x i u => Host.scatterAdd scatter_S1000000x4_S17000000x1_S17000000x4_1_0_0_1 x i u) : (⟨S1000000x4, .f32⟩ : BufTy).Contents (Elt F) → (⟨S17000000x1, .i32⟩ : BufTy).Contents (Elt F) → (⟨S17000000x4, .f32⟩ : BufTy).Contents (Elt F) → (⟨S1000000x4, .f32⟩ : BufTy).Contents (Elt F)),
    unary main_arg4 main_v45 (broadcastInDim S1x4 ![1] bcast_S4_S1x4_1 : (⟨S4, .f32⟩ : BufTy).Contents (Elt F) → (⟨S1x4, .f32⟩ : BufTy).Contents (Elt F)),
    unary main_v45 main_v46 (broadcastInDim S1000000x4 ![0, 1] bcast_S1x4_S1000000x4_0_1 : (⟨S1x4, .f32⟩ : BufTy).Contents (Elt F) → (⟨S1000000x4, .f32⟩ : BufTy).Contents (Elt F)),
    binary main_v44 main_v46 main_v47 (addf : (⟨S1000000x4, .f32⟩ : BufTy).Contents (Elt F) → (⟨S1000000x4, .f32⟩ : BufTy).Contents (Elt F) → (⟨S1000000x4, .f32⟩ : BufTy).Contents (Elt F)),
    unary main_v47 main_v48 (Host.tanh : (⟨S1000000x4, .f32⟩ : BufTy).Contents (Elt F) → (⟨S1000000x4, .f32⟩ : BufTy).Contents (Elt F)),
    binary main_v48 main_arg5 main_v49 ((fun l r => Host.dotGeneral dot_S1000000x4_S4x4_S1000000x4_1_0_0_1_n_n none l r) : (⟨S1000000x4, .f32⟩ : BufTy).Contents (Elt F) → (⟨S4x4, .f32⟩ : BufTy).Contents (Elt F) → (⟨S1000000x4, .f32⟩ : BufTy).Contents (Elt F)),
    nullary main_c_10 (constantI S_ 32 0#32),
    unary main_c_10 main_v50 (broadcastInDim S17000000 ![] bcast_S_S17000000 : (⟨S_, .i32⟩ : BufTy).Contents (Elt F) → (⟨S17000000, .i32⟩ : BufTy).Contents (Elt F)),
    binary main_v3 main_v50 main_v51 (cmpi .slt : (⟨S17000000, .i32⟩ : BufTy).Contents (Elt F) → (⟨S17000000, .i32⟩ : BufTy).Contents (Elt F) → (⟨S17000000, .i1⟩ : BufTy).Contents (Elt F)),
    nullary main_c_11 (constantI S_ 32 1000000#32),
    unary main_c_11 main_v52 (broadcastInDim S17000000 ![] bcast_S_S17000000 : (⟨S_, .i32⟩ : BufTy).Contents (Elt F) → (⟨S17000000, .i32⟩ : BufTy).Contents (Elt F)),
    binary main_v3 main_v52 main_v53 (addi : (⟨S17000000, .i32⟩ : BufTy).Contents (Elt F) → (⟨S17000000, .i32⟩ : BufTy).Contents (Elt F) → (⟨S17000000, .i32⟩ : BufTy).Contents (Elt F)),
    ternary main_v51 main_v53 main_v3 main_v54 (select : (⟨S17000000, .i1⟩ : BufTy).Contents (Elt F) → (⟨S17000000, .i32⟩ : BufTy).Contents (Elt F) → (⟨S17000000, .i32⟩ : BufTy).Contents (Elt F) → (⟨S17000000, .i32⟩ : BufTy).Contents (Elt F)),
    unary main_v54 main_v55 (broadcastInDim S17000000x1 ![0] bcast_S17000000_S17000000x1_0 : (⟨S17000000, .i32⟩ : BufTy).Contents (Elt F) → (⟨S17000000x1, .i32⟩ : BufTy).Contents (Elt F)),
    binary main_v49 main_v55 main_v56 ((fun x i => Host.gather gather_S1000000x4_S17000000x1_S17000000x4_1_0_n_n_0_1_14 x i) : (⟨S1000000x4, .f32⟩ : BufTy).Contents (Elt F) → (⟨S17000000x1, .i32⟩ : BufTy).Contents (Elt F) → (⟨S17000000x4, .f32⟩ : BufTy).Contents (Elt F)),
    unary main_v31 main_v57 (broadcastInDim S17000000x4 ![0, 1] bcast_S17000000x1_S17000000x4_0_1 : (⟨S17000000x1, .f32⟩ : BufTy).Contents (Elt F) → (⟨S17000000x4, .f32⟩ : BufTy).Contents (Elt F)),
    binary main_v57 main_v56 main_v58 (mulf : (⟨S17000000x4, .f32⟩ : BufTy).Contents (Elt F) → (⟨S17000000x4, .f32⟩ : BufTy).Contents (Elt F) → (⟨S17000000x4, .f32⟩ : BufTy).Contents (Elt F)),
    nullary main_cst_12 (constant S_ .f32 0x00000000#32),
    unary main_cst_12 main_v59 (broadcastInDim S1000000x4 ![] bcast_S_S1000000x4 : (⟨S_, .f32⟩ : BufTy).Contents (Elt F) → (⟨S1000000x4, .f32⟩ : BufTy).Contents (Elt F)),
    unary main_v6 main_v60 (broadcastInDim S17000000x1 ![0] bcast_S17000000_S17000000x1_0 : (⟨S17000000, .i32⟩ : BufTy).Contents (Elt F) → (⟨S17000000x1, .i32⟩ : BufTy).Contents (Elt F)),
    ternary main_v59 main_v60 main_v58 main_v61 ((fun x i u => Host.scatterAdd scatter_S1000000x4_S17000000x1_S17000000x4_1_0_0_1 x i u) : (⟨S1000000x4, .f32⟩ : BufTy).Contents (Elt F) → (⟨S17000000x1, .i32⟩ : BufTy).Contents (Elt F) → (⟨S17000000x4, .f32⟩ : BufTy).Contents (Elt F) → (⟨S1000000x4, .f32⟩ : BufTy).Contents (Elt F)),
    unary main_arg6 main_v62 (broadcastInDim S1x4 ![1] bcast_S4_S1x4_1 : (⟨S4, .f32⟩ : BufTy).Contents (Elt F) → (⟨S1x4, .f32⟩ : BufTy).Contents (Elt F)),
    unary main_v62 main_v63 (broadcastInDim S1000000x4 ![0, 1] bcast_S1x4_S1000000x4_0_1 : (⟨S1x4, .f32⟩ : BufTy).Contents (Elt F) → (⟨S1000000x4, .f32⟩ : BufTy).Contents (Elt F)),
    binary main_v61 main_v63 main_v64 (addf : (⟨S1000000x4, .f32⟩ : BufTy).Contents (Elt F) → (⟨S1000000x4, .f32⟩ : BufTy).Contents (Elt F) → (⟨S1000000x4, .f32⟩ : BufTy).Contents (Elt F)),
    unary main_v64 main_v65 (Host.tanh : (⟨S1000000x4, .f32⟩ : BufTy).Contents (Elt F) → (⟨S1000000x4, .f32⟩ : BufTy).Contents (Elt F)),
    binary main_v65 main_arg7 main_v66 ((fun l r => Host.dotGeneral dot_S1000000x4_S4x2_S1000000x2_1_0_0_1_n_n none l r) : (⟨S1000000x4, .f32⟩ : BufTy).Contents (Elt F) → (⟨S4x2, .f32⟩ : BufTy).Contents (Elt F) → (⟨S1000000x2, .f32⟩ : BufTy).Contents (Elt F)),
    nullary main_c_13 (constantI S_ 32 0#32),
    unary main_c_13 main_v67 (broadcastInDim S17000000 ![] bcast_S_S17000000 : (⟨S_, .i32⟩ : BufTy).Contents (Elt F) → (⟨S17000000, .i32⟩ : BufTy).Contents (Elt F)),
    binary main_v3 main_v67 main_v68 (cmpi .slt : (⟨S17000000, .i32⟩ : BufTy).Contents (Elt F) → (⟨S17000000, .i32⟩ : BufTy).Contents (Elt F) → (⟨S17000000, .i1⟩ : BufTy).Contents (Elt F)),
    nullary main_c_14 (constantI S_ 32 1000000#32),
    unary main_c_14 main_v69 (broadcastInDim S17000000 ![] bcast_S_S17000000 : (⟨S_, .i32⟩ : BufTy).Contents (Elt F) → (⟨S17000000, .i32⟩ : BufTy).Contents (Elt F)),
    binary main_v3 main_v69 main_v70 (addi : (⟨S17000000, .i32⟩ : BufTy).Contents (Elt F) → (⟨S17000000, .i32⟩ : BufTy).Contents (Elt F) → (⟨S17000000, .i32⟩ : BufTy).Contents (Elt F)),
    ternary main_v68 main_v70 main_v3 main_v71 (select : (⟨S17000000, .i1⟩ : BufTy).Contents (Elt F) → (⟨S17000000, .i32⟩ : BufTy).Contents (Elt F) → (⟨S17000000, .i32⟩ : BufTy).Contents (Elt F) → (⟨S17000000, .i32⟩ : BufTy).Contents (Elt F)),
    unary main_v71 main_v72 (broadcastInDim S17000000x1 ![0] bcast_S17000000_S17000000x1_0 : (⟨S17000000, .i32⟩ : BufTy).Contents (Elt F) → (⟨S17000000x1, .i32⟩ : BufTy).Contents (Elt F)),
    binary main_v66 main_v72 main_v73 ((fun x i => Host.gather gather_S1000000x2_S17000000x1_S17000000x2_1_0_n_n_0_1_12 x i) : (⟨S1000000x2, .f32⟩ : BufTy).Contents (Elt F) → (⟨S17000000x1, .i32⟩ : BufTy).Contents (Elt F) → (⟨S17000000x2, .f32⟩ : BufTy).Contents (Elt F)),
    unary main_v31 main_v74 (broadcastInDim S17000000x2 ![0, 1] bcast_S17000000x1_S17000000x2_0_1 : (⟨S17000000x1, .f32⟩ : BufTy).Contents (Elt F) → (⟨S17000000x2, .f32⟩ : BufTy).Contents (Elt F)),
    binary main_v74 main_v73 main_v75 (mulf : (⟨S17000000x2, .f32⟩ : BufTy).Contents (Elt F) → (⟨S17000000x2, .f32⟩ : BufTy).Contents (Elt F) → (⟨S17000000x2, .f32⟩ : BufTy).Contents (Elt F)),
    nullary main_cst_15 (constant S_ .f32 0x00000000#32),
    unary main_cst_15 main_v76 (broadcastInDim S1000000x2 ![] bcast_S_S1000000x2 : (⟨S_, .f32⟩ : BufTy).Contents (Elt F) → (⟨S1000000x2, .f32⟩ : BufTy).Contents (Elt F)),
    unary main_v6 main_v77 (broadcastInDim S17000000x1 ![0] bcast_S17000000_S17000000x1_0 : (⟨S17000000, .i32⟩ : BufTy).Contents (Elt F) → (⟨S17000000x1, .i32⟩ : BufTy).Contents (Elt F)),
    ternary main_v76 main_v77 main_v75 main_v78 ((fun x i u => Host.scatterAdd scatter_S1000000x2_S17000000x1_S17000000x2_1_0_0_1 x i u) : (⟨S1000000x2, .f32⟩ : BufTy).Contents (Elt F) → (⟨S17000000x1, .i32⟩ : BufTy).Contents (Elt F) → (⟨S17000000x2, .f32⟩ : BufTy).Contents (Elt F) → (⟨S1000000x2, .f32⟩ : BufTy).Contents (Elt F)),
    unary main_arg8 main_v79 (broadcastInDim S1x2 ![1] bcast_S2_S1x2_1 : (⟨S2, .f32⟩ : BufTy).Contents (Elt F) → (⟨S1x2, .f32⟩ : BufTy).Contents (Elt F)),
    unary main_v79 main_v80 (broadcastInDim S1000000x2 ![0, 1] bcast_S1x2_S1000000x2_0_1 : (⟨S1x2, .f32⟩ : BufTy).Contents (Elt F) → (⟨S1000000x2, .f32⟩ : BufTy).Contents (Elt F)),
    binary main_v78 main_v80 main_v81 (addf : (⟨S1000000x2, .f32⟩ : BufTy).Contents (Elt F) → (⟨S1000000x2, .f32⟩ : BufTy).Contents (Elt F) → (⟨S1000000x2, .f32⟩ : BufTy).Contents (Elt F)),
    unary main_v81 main_v82 (Host.tanh : (⟨S1000000x2, .f32⟩ : BufTy).Contents (Elt F) → (⟨S1000000x2, .f32⟩ : BufTy).Contents (Elt F)),
    nullary main_cst_16 (constant S_ .f32 0x00000000#32),
    unary main_cst_16 main_v83 (broadcastInDim S1024x2 ![] bcast_S_S1024x2 : (⟨S_, .f32⟩ : BufTy).Contents (Elt F) → (⟨S1024x2, .f32⟩ : BufTy).Contents (Elt F)),
    unary main_arg2 main_v84 (broadcastInDim S1000000x1 ![0] bcast_S1000000_S1000000x1_0 : (⟨S1000000, .i32⟩ : BufTy).Contents (Elt F) → (⟨S1000000x1, .i32⟩ : BufTy).Contents (Elt F)),
    ternary main_v83 main_v84 main_v82 main_v85 ((fun x i u => Host.scatterAdd scatter_S1024x2_S1000000x1_S1000000x2_1_0_0_1 x i u) : (⟨S1024x2, .f32⟩ : BufTy).Contents (Elt F) → (⟨S1000000x1, .i32⟩ : BufTy).Contents (Elt F) → (⟨S1000000x2, .f32⟩ : BufTy).Contents (Elt F) → (⟨S1024x2, .f32⟩ : BufTy).Contents (Elt F)),
    nullary main_cst_17 (constant S_ .f32 0x3F800000#32),
    unary main_cst_17 main_v86 (broadcastInDim S1000000 ![] bcast_S_S1000000 : (⟨S_, .f32⟩ : BufTy).Contents (Elt F) → (⟨S1000000, .f32⟩ : BufTy).Contents (Elt F)),
    nullary main_cst_18 (constant S_ .f32 0x00000000#32),
    unary main_cst_18 main_v87 (broadcastInDim S1024 ![] bcast_S_S1024 : (⟨S_, .f32⟩ : BufTy).Contents (Elt F) → (⟨S1024, .f32⟩ : BufTy).Contents (Elt F)),
    unary main_arg2 main_v88 (broadcastInDim S1000000x1 ![0] bcast_S1000000_S1000000x1_0 : (⟨S1000000, .i32⟩ : BufTy).Contents (Elt F) → (⟨S1000000x1, .i32⟩ : BufTy).Contents (Elt F)),
    ternary main_v87 main_v88 main_v86 main_v89 ((fun x i u => Host.scatterAdd scatter_S1024_S1000000x1_S1000000_n_0_0_1 x i u) : (⟨S1024, .f32⟩ : BufTy).Contents (Elt F) → (⟨S1000000x1, .i32⟩ : BufTy).Contents (Elt F) → (⟨S1000000, .f32⟩ : BufTy).Contents (Elt F) → (⟨S1024, .f32⟩ : BufTy).Contents (Elt F)),
    nullary main_cst_19 (constant S_ .f32 0x3F800000#32),
    unary main_cst_19 main_v90 (broadcastInDim S1024 ![] bcast_S_S1024 : (⟨S_, .f32⟩ : BufTy).Contents (Elt F) → (⟨S1024, .f32⟩ : BufTy).Contents (Elt F)),
    binary main_v89 main_v90 main_v91 (maximumf : (⟨S1024, .f32⟩ : BufTy).Contents (Elt F) → (⟨S1024, .f32⟩ : BufTy).Contents (Elt F) → (⟨S1024, .f32⟩ : BufTy).Contents (Elt F)),
    unary main_v91 main_v92 (broadcastInDim S1024x1 ![0] bcast_S1024_S1024x1_0 : (⟨S1024, .f32⟩ : BufTy).Contents (Elt F) → (⟨S1024x1, .f32⟩ : BufTy).Contents (Elt F)),
    unary main_v92 main_v93 (broadcastInDim S1024x2 ![0, 1] bcast_S1024x1_S1024x2_0_1 : (⟨S1024x1, .f32⟩ : BufTy).Contents (Elt F) → (⟨S1024x2, .f32⟩ : BufTy).Contents (Elt F)),
    binary main_v85 main_v93 main_v94 (Host.divf : (⟨S1024x2, .f32⟩ : BufTy).Contents (Elt F) → (⟨S1024x2, .f32⟩ : BufTy).Contents (Elt F) → (⟨S1024x2, .f32⟩ : BufTy).Contents (Elt F)),
    binary main_v94 main_arg9 main_v95 ((fun l r => Host.dotGeneral dot_S1024x2_S2x1_S1024x1_1_0_0_1_n_n none l r) : (⟨S1024x2, .f32⟩ : BufTy).Contents (Elt F) → (⟨S2x1, .f32⟩ : BufTy).Contents (Elt F) → (⟨S1024x1, .f32⟩ : BufTy).Contents (Elt F)),
    unary main_arg10 main_v96 (broadcastInDim S1x1 ![1] bcast_S1_S1x1_1 : (⟨S1, .f32⟩ : BufTy).Contents (Elt F) → (⟨S1x1, .f32⟩ : BufTy).Contents (Elt F)),
    unary main_v96 main_v97 (broadcastInDim S1024x1 ![0, 1] bcast_S1x1_S1024x1_0_1 : (⟨S1x1, .f32⟩ : BufTy).Contents (Elt F) → (⟨S1024x1, .f32⟩ : BufTy).Contents (Elt F)),
    binary main_v95 main_v97 main_v98 (addf : (⟨S1024x1, .f32⟩ : BufTy).Contents (Elt F) → (⟨S1024x1, .f32⟩ : BufTy).Contents (Elt F) → (⟨S1024x1, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., unary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub ..⟩

/-! ## The stretches -/

/-- Operations 1 to 7 of @main: the source and the target index vectors (each a row of the edge list followed by the self-loops). -/
def preA : List (HloOp τ sig (Elt F)) :=
  [ nullary main_v0 (iotaInDim S1000000 32 0),
    unary main_arg1 main_v1 ((extractStridedSlice S1x16000000 ![0, 0] · slices_S2x16000000_S1x16000000_0_0) : (⟨S2x16000000, .i32⟩ : BufTy).Contents (Elt F) → (⟨S1x16000000, .i32⟩ : BufTy).Contents (Elt F)),
    reshape main_v1 main_v2 rfl shapeCasts_S1x16000000_S16000000,
    binary main_v2 main_v0 main_v3 ((fun a b => concatenate S17000000 0 [⟨S16000000, a⟩, ⟨S1000000, b⟩] concatenates_S16000000_S1000000_S17000000_d0) : (⟨S16000000, .i32⟩ : BufTy).Contents (Elt F) → (⟨S1000000, .i32⟩ : BufTy).Contents (Elt F) → (⟨S17000000, .i32⟩ : BufTy).Contents (Elt F)),
    unary main_arg1 main_v4 ((extractStridedSlice S1x16000000 ![1, 0] · slices_S2x16000000_S1x16000000_1_0) : (⟨S2x16000000, .i32⟩ : BufTy).Contents (Elt F) → (⟨S1x16000000, .i32⟩ : BufTy).Contents (Elt F)),
    reshape main_v4 main_v5 rfl shapeCasts_S1x16000000_S16000000,
    binary main_v5 main_v0 main_v6 ((fun a b => concatenate S17000000 0 [⟨S16000000, a⟩, ⟨S1000000, b⟩] concatenates_S16000000_S1000000_S17000000_d0) : (⟨S16000000, .i32⟩ : BufTy).Contents (Elt F) → (⟨S1000000, .i32⟩ : BufTy).Contents (Elt F) → (⟨S17000000, .i32⟩ : BufTy).Contents (Elt F)) ]

/-- Operations 8 to 43 of @main: the degrees, their inverse square roots, the edge norms. -/
def preB : List (HloOp τ sig (Elt F)) :=
  [ nullary main_cst (constant S_ .f32 0x3F800000#32),
    unary main_cst main_v7 (broadcastInDim S17000000 ![] bcast_S_S17000000 : (⟨S_, .f32⟩ : BufTy).Contents (Elt F) → (⟨S17000000, .f32⟩ : BufTy).Contents (Elt F)),
    nullary main_cst_0 (constant S_ .f32 0x00000000#32),
    unary main_cst_0 main_v8 (broadcastInDim S1000000 ![] bcast_S_S1000000 : (⟨S_, .f32⟩ : BufTy).Contents (Elt F) → (⟨S1000000, .f32⟩ : BufTy).Contents (Elt F)),
    unary main_v6 main_v9 (broadcastInDim S17000000x1 ![0] bcast_S17000000_S17000000x1_0 : (⟨S17000000, .i32⟩ : BufTy).Contents (Elt F) → (⟨S17000000x1, .i32⟩ : BufTy).Contents (Elt F)),
    ternary main_v8 main_v9 main_v7 main_v10 ((fun x i u => Host.scatterAdd scatter_S1000000_S17000000x1_S17000000_n_0_0_1 x i u) : (⟨S1000000, .f32⟩ : BufTy).Contents (Elt F) → (⟨S17000000x1, .i32⟩ : BufTy).Contents (Elt F) → (⟨S17000000, .f32⟩ : BufTy).Contents (Elt F) → (⟨S1000000, .f32⟩ : BufTy).Contents (Elt F)),
    nullary main_cst_1 (constant S_ .f32 0x00000000#32),
    unary main_cst_1 main_v11 (broadcastInDim S1000000 ![] bcast_S_S1000000 : (⟨S_, .f32⟩ : BufTy).Contents (Elt F) → (⟨S1000000, .f32⟩ : BufTy).Contents (Elt F)),
    binary main_v10 main_v11 main_v12 (cmpf .ogt : (⟨S1000000, .f32⟩ : BufTy).Contents (Elt F) → (⟨S1000000, .f32⟩ : BufTy).Contents (Elt F) → (⟨S1000000, .i1⟩ : BufTy).Contents (Elt F)),
    nullary main_cst_2 (constant S_ .f32 0xBF000000#32),
    unary main_cst_2 main_v13 (broadcastInDim S1000000 ![] bcast_S_S1000000 : (⟨S_, .f32⟩ : BufTy).Contents (Elt F) → (⟨S1000000, .f32⟩ : BufTy).Contents (Elt F)),
    binary main_v10 main_v13 main_v14 (Host.powf : (⟨S1000000, .f32⟩ : BufTy).Contents (Elt F) → (⟨S1000000, .f32⟩ : BufTy).Contents (Elt F) → (⟨S1000000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S1000000, .f32⟩) main_call0_v1) (broadcastInDim S1000000 ![] bcast_S_S1000000),
    TRef.ternary (TRef.of (T := ⟨S1000000, .i1⟩) main_v12) (TRef.of (T := ⟨S1000000, .f32⟩) main_v14) (TRef.of (T := ⟨S1000000, .f32⟩) main_call0_v1) (TRef.of (T := ⟨S1000000, .f32⟩) main_v15) select,
    nullary main_c (constantI S_ 32 0#32),
    unary main_c main_v16 (broadcastInDim S17000000 ![] bcast_S_S17000000 : (⟨S_, .i32⟩ : BufTy).Contents (Elt F) → (⟨S17000000, .i32⟩ : BufTy).Contents (Elt F)),
    binary main_v3 main_v16 main_v17 (cmpi .slt : (⟨S17000000, .i32⟩ : BufTy).Contents (Elt F) → (⟨S17000000, .i32⟩ : BufTy).Contents (Elt F) → (⟨S17000000, .i1⟩ : BufTy).Contents (Elt F)),
    nullary main_c_4 (constantI S_ 32 1000000#32),
    unary main_c_4 main_v18 (broadcastInDim S17000000 ![] bcast_S_S17000000 : (⟨S_, .i32⟩ : BufTy).Contents (Elt F) → (⟨S17000000, .i32⟩ : BufTy).Contents (Elt F)),
    binary main_v3 main_v18 main_v19 (addi : (⟨S17000000, .i32⟩ : BufTy).Contents (Elt F) → (⟨S17000000, .i32⟩ : BufTy).Contents (Elt F) → (⟨S17000000, .i32⟩ : BufTy).Contents (Elt F)),
    ternary main_v17 main_v19 main_v3 main_v20 (select : (⟨S17000000, .i1⟩ : BufTy).Contents (Elt F) → (⟨S17000000, .i32⟩ : BufTy).Contents (Elt F) → (⟨S17000000, .i32⟩ : BufTy).Contents (Elt F) → (⟨S17000000, .i32⟩ : BufTy).Contents (Elt F)),
    unary main_v20 main_v21 (broadcastInDim S17000000x1 ![0] bcast_S17000000_S17000000x1_0 : (⟨S17000000, .i32⟩ : BufTy).Contents (Elt F) → (⟨S17000000x1, .i32⟩ : BufTy).Contents (Elt F)),
    binary main_v15 main_v21 main_v22 ((fun x i => Host.gather gather_S1000000_S17000000x1_S17000000_n_0_n_n_0_1_1 x i) : (⟨S1000000, .f32⟩ : BufTy).Contents (Elt F) → (⟨S17000000x1, .i32⟩ : BufTy).Contents (Elt F) → (⟨S17000000, .f32⟩ : BufTy).Contents (Elt F)),
    nullary main_c_5 (constantI S_ 32 0#32),
    unary main_c_5 main_v23 (broadcastInDim S17000000 ![] bcast_S_S17000000 : (⟨S_, .i32⟩ : BufTy).Contents (Elt F) → (⟨S17000000, .i32⟩ : BufTy).Contents (Elt F)),
    binary main_v6 main_v23 main_v24 (cmpi .slt : (⟨S17000000, .i32⟩ : BufTy).Contents (Elt F) → (⟨S17000000, .i32⟩ : BufTy).Contents (Elt F) → (⟨S17000000, .i1⟩ : BufTy).Contents (Elt F)),
    nullary main_c_6 (constantI S_ 32 1000000#32),
    unary main_c_6 main_v25 (broadcastInDim S17000000 ![] bcast_S_S17000000 : (⟨S_, .i32⟩ : BufTy).Contents (Elt F) → (⟨S17000000, .i32⟩ : BufTy).Contents (Elt F)),
    binary main_v6 main_v25 main_v26 (addi : (⟨S17000000, .i32⟩ : BufTy).Contents (Elt F) → (⟨S17000000, .i32⟩ : BufTy).Contents (Elt F) → (⟨S17000000, .i32⟩ : BufTy).Contents (Elt F)),
    ternary main_v24 main_v26 main_v6 main_v27 (select : (⟨S17000000, .i1⟩ : BufTy).Contents (Elt F) → (⟨S17000000, .i32⟩ : BufTy).Contents (Elt F) → (⟨S17000000, .i32⟩ : BufTy).Contents (Elt F) → (⟨S17000000, .i32⟩ : BufTy).Contents (Elt F)),
    unary main_v27 main_v28 (broadcastInDim S17000000x1 ![0] bcast_S17000000_S17000000x1_0 : (⟨S17000000, .i32⟩ : BufTy).Contents (Elt F) → (⟨S17000000x1, .i32⟩ : BufTy).Contents (Elt F)),
    binary main_v15 main_v28 main_v29 ((fun x i => Host.gather gather_S1000000_S17000000x1_S17000000_n_0_n_n_0_1_1 x i) : (⟨S1000000, .f32⟩ : BufTy).Contents (Elt F) → (⟨S17000000x1, .i32⟩ : BufTy).Contents (Elt F) → (⟨S17000000, .f32⟩ : BufTy).Contents (Elt F)),
    binary main_v22 main_v29 main_v30 (mulf : (⟨S17000000, .f32⟩ : BufTy).Contents (Elt F) → (⟨S17000000, .f32⟩ : BufTy).Contents (Elt F) → (⟨S17000000, .f32⟩ : BufTy).Contents (Elt F)),
    unary main_v30 main_v31 (broadcastInDim S17000000x1 ![0] bcast_S17000000_S17000000x1_0 : (⟨S17000000, .f32⟩ : BufTy).Contents (Elt F) → (⟨S17000000x1, .f32⟩ : BufTy).Contents (Elt F)) ]

/-- Operations 44 to 44 of @main. -/
def dot1 : List (HloOp τ sig (Elt F)) :=
  [ binary main_arg0 main_arg3 main_v32 ((fun l r => Host.dotGeneral dot_S1000000x16_S16x4_S1000000x4_1_0_0_1_n_n none l r) : (⟨S1000000x16, .f32⟩ : BufTy).Contents (Elt F) → (⟨S16x4, .f32⟩ : BufTy).Contents (Elt F) → (⟨S1000000x4, .f32⟩ : BufTy).Contents (Elt F)) ]

/-- Operations 45 to 59 of @main. -/
def mid1 : List (HloOp τ sig (Elt F)) :=
  [ nullary main_c_7 (constantI S_ 32 0#32),
    unary main_c_7 main_v33 (broadcastInDim S17000000 ![] bcast_S_S17000000 : (⟨S_, .i32⟩ : BufTy).Contents (Elt F) → (⟨S17000000, .i32⟩ : BufTy).Contents (Elt F)),
    binary main_v3 main_v33 main_v34 (cmpi .slt : (⟨S17000000, .i32⟩ : BufTy).Contents (Elt F) → (⟨S17000000, .i32⟩ : BufTy).Contents (Elt F) → (⟨S17000000, .i1⟩ : BufTy).Contents (Elt F)),
    nullary main_c_8 (constantI S_ 32 1000000#32),
    unary main_c_8 main_v35 (broadcastInDim S17000000 ![] bcast_S_S17000000 : (⟨S_, .i32⟩ : BufTy).Contents (Elt F) → (⟨S17000000, .i32⟩ : BufTy).Contents (Elt F)),
    binary main_v3 main_v35 main_v36 (addi : (⟨S17000000, .i32⟩ : BufTy).Contents (Elt F) → (⟨S17000000, .i32⟩ : BufTy).Contents (Elt F) → (⟨S17000000, .i32⟩ : BufTy).Contents (Elt F)),
    ternary main_v34 main_v36 main_v3 main_v37 (select : (⟨S17000000, .i1⟩ : BufTy).Contents (Elt F) → (⟨S17000000, .i32⟩ : BufTy).Contents (Elt F) → (⟨S17000000, .i32⟩ : BufTy).Contents (Elt F) → (⟨S17000000, .i32⟩ : BufTy).Contents (Elt F)),
    unary main_v37 main_v38 (broadcastInDim S17000000x1 ![0] bcast_S17000000_S17000000x1_0 : (⟨S17000000, .i32⟩ : BufTy).Contents (Elt F) → (⟨S17000000x1, .i32⟩ : BufTy).Contents (Elt F)),
    binary main_v32 main_v38 main_v39 ((fun x i => Host.gather gather_S1000000x4_S17000000x1_S17000000x4_1_0_n_n_0_1_14 x i) : (⟨S1000000x4, .f32⟩ : BufTy).Contents (Elt F) → (⟨S17000000x1, .i32⟩ : BufTy).Contents (Elt F) → (⟨S17000000x4, .f32⟩ : BufTy).Contents (Elt F)),
    unary main_v31 main_v40 (broadcastInDim S17000000x4 ![0, 1] bcast_S17000000x1_S17000000x4_0_1 : (⟨S17000000x1, .f32⟩ : BufTy).Contents (Elt F) → (⟨S17000000x4, .f32⟩ : BufTy).Contents (Elt F)),
    binary main_v40 main_v39 main_v41 (mulf : (⟨S17000000x4, .f32⟩ : BufTy).Contents (Elt F) → (⟨S17000000x4, .f32⟩ : BufTy).Contents (Elt F) → (⟨S17000000x4, .f32⟩ : BufTy).Contents (Elt F)),
    nullary main_cst_9 (constant S_ .f32 0x00000000#32),
    unary main_cst_9 main_v42 (broadcastInDim S1000000x4 ![] bcast_S_S1000000x4 : (⟨S_, .f32⟩ : BufTy).Contents (Elt F) → (⟨S1000000x4, .f32⟩ : BufTy).Contents (Elt F)),
    unary main_v6 main_v43 (broadcastInDim S17000000x1 ![0] bcast_S17000000_S17000000x1_0 : (⟨S17000000, .i32⟩ : BufTy).Contents (Elt F) → (⟨S17000000x1, .i32⟩ : BufTy).Contents (Elt F)),
    ternary main_v42 main_v43 main_v41 main_v44 ((fun x i u => Host.scatterAdd scatter_S1000000x4_S17000000x1_S17000000x4_1_0_0_1 x i u) : (⟨S1000000x4, .f32⟩ : BufTy).Contents (Elt F) → (⟨S17000000x1, .i32⟩ : BufTy).Contents (Elt F) → (⟨S17000000x4, .f32⟩ : BufTy).Contents (Elt F) → (⟨S1000000x4, .f32⟩ : BufTy).Contents (Elt F)) ]

/-- Operations 60 to 64 of @main. -/
def lin1 : List (HloOp τ sig (Elt F)) :=
  [ unary main_arg4 main_v45 (broadcastInDim S1x4 ![1] bcast_S4_S1x4_1 : (⟨S4, .f32⟩ : BufTy).Contents (Elt F) → (⟨S1x4, .f32⟩ : BufTy).Contents (Elt F)),
    unary main_v45 main_v46 (broadcastInDim S1000000x4 ![0, 1] bcast_S1x4_S1000000x4_0_1 : (⟨S1x4, .f32⟩ : BufTy).Contents (Elt F) → (⟨S1000000x4, .f32⟩ : BufTy).Contents (Elt F)),
    binary main_v44 main_v46 main_v47 (addf : (⟨S1000000x4, .f32⟩ : BufTy).Contents (Elt F) → (⟨S1000000x4, .f32⟩ : BufTy).Contents (Elt F) → (⟨S1000000x4, .f32⟩ : BufTy).Contents (Elt F)),
    unary main_v47 main_v48 (Host.tanh : (⟨S1000000x4, .f32⟩ : BufTy).Contents (Elt F) → (⟨S1000000x4, .f32⟩ : BufTy).Contents (Elt F)),
    binary main_v48 main_arg5 main_v49 ((fun l r => Host.dotGeneral dot_S1000000x4_S4x4_S1000000x4_1_0_0_1_n_n none l r) : (⟨S1000000x4, .f32⟩ : BufTy).Contents (Elt F) → (⟨S4x4, .f32⟩ : BufTy).Contents (Elt F) → (⟨S1000000x4, .f32⟩ : BufTy).Contents (Elt F)) ]

/-- Operations 65 to 79 of @main. -/
def mid2 : List (HloOp τ sig (Elt F)) :=
  [ nullary main_c_10 (constantI S_ 32 0#32),
    unary main_c_10 main_v50 (broadcastInDim S17000000 ![] bcast_S_S17000000 : (⟨S_, .i32⟩ : BufTy).Contents (Elt F) → (⟨S17000000, .i32⟩ : BufTy).Contents (Elt F)),
    binary main_v3 main_v50 main_v51 (cmpi .slt : (⟨S17000000, .i32⟩ : BufTy).Contents (Elt F) → (⟨S17000000, .i32⟩ : BufTy).Contents (Elt F) → (⟨S17000000, .i1⟩ : BufTy).Contents (Elt F)),
    nullary main_c_11 (constantI S_ 32 1000000#32),
    unary main_c_11 main_v52 (broadcastInDim S17000000 ![] bcast_S_S17000000 : (⟨S_, .i32⟩ : BufTy).Contents (Elt F) → (⟨S17000000, .i32⟩ : BufTy).Contents (Elt F)),
    binary main_v3 main_v52 main_v53 (addi : (⟨S17000000, .i32⟩ : BufTy).Contents (Elt F) → (⟨S17000000, .i32⟩ : BufTy).Contents (Elt F) → (⟨S17000000, .i32⟩ : BufTy).Contents (Elt F)),
    ternary main_v51 main_v53 main_v3 main_v54 (select : (⟨S17000000, .i1⟩ : BufTy).Contents (Elt F) → (⟨S17000000, .i32⟩ : BufTy).Contents (Elt F) → (⟨S17000000, .i32⟩ : BufTy).Contents (Elt F) → (⟨S17000000, .i32⟩ : BufTy).Contents (Elt F)),
    unary main_v54 main_v55 (broadcastInDim S17000000x1 ![0] bcast_S17000000_S17000000x1_0 : (⟨S17000000, .i32⟩ : BufTy).Contents (Elt F) → (⟨S17000000x1, .i32⟩ : BufTy).Contents (Elt F)),
    binary main_v49 main_v55 main_v56 ((fun x i => Host.gather gather_S1000000x4_S17000000x1_S17000000x4_1_0_n_n_0_1_14 x i) : (⟨S1000000x4, .f32⟩ : BufTy).Contents (Elt F) → (⟨S17000000x1, .i32⟩ : BufTy).Contents (Elt F) → (⟨S17000000x4, .f32⟩ : BufTy).Contents (Elt F)),
    unary main_v31 main_v57 (broadcastInDim S17000000x4 ![0, 1] bcast_S17000000x1_S17000000x4_0_1 : (⟨S17000000x1, .f32⟩ : BufTy).Contents (Elt F) → (⟨S17000000x4, .f32⟩ : BufTy).Contents (Elt F)),
    binary main_v57 main_v56 main_v58 (mulf : (⟨S17000000x4, .f32⟩ : BufTy).Contents (Elt F) → (⟨S17000000x4, .f32⟩ : BufTy).Contents (Elt F) → (⟨S17000000x4, .f32⟩ : BufTy).Contents (Elt F)),
    nullary main_cst_12 (constant S_ .f32 0x00000000#32),
    unary main_cst_12 main_v59 (broadcastInDim S1000000x4 ![] bcast_S_S1000000x4 : (⟨S_, .f32⟩ : BufTy).Contents (Elt F) → (⟨S1000000x4, .f32⟩ : BufTy).Contents (Elt F)),
    unary main_v6 main_v60 (broadcastInDim S17000000x1 ![0] bcast_S17000000_S17000000x1_0 : (⟨S17000000, .i32⟩ : BufTy).Contents (Elt F) → (⟨S17000000x1, .i32⟩ : BufTy).Contents (Elt F)),
    ternary main_v59 main_v60 main_v58 main_v61 ((fun x i u => Host.scatterAdd scatter_S1000000x4_S17000000x1_S17000000x4_1_0_0_1 x i u) : (⟨S1000000x4, .f32⟩ : BufTy).Contents (Elt F) → (⟨S17000000x1, .i32⟩ : BufTy).Contents (Elt F) → (⟨S17000000x4, .f32⟩ : BufTy).Contents (Elt F) → (⟨S1000000x4, .f32⟩ : BufTy).Contents (Elt F)) ]

/-- Operations 80 to 84 of @main. -/
def lin2 : List (HloOp τ sig (Elt F)) :=
  [ unary main_arg6 main_v62 (broadcastInDim S1x4 ![1] bcast_S4_S1x4_1 : (⟨S4, .f32⟩ : BufTy).Contents (Elt F) → (⟨S1x4, .f32⟩ : BufTy).Contents (Elt F)),
    unary main_v62 main_v63 (broadcastInDim S1000000x4 ![0, 1] bcast_S1x4_S1000000x4_0_1 : (⟨S1x4, .f32⟩ : BufTy).Contents (Elt F) → (⟨S1000000x4, .f32⟩ : BufTy).Contents (Elt F)),
    binary main_v61 main_v63 main_v64 (addf : (⟨S1000000x4, .f32⟩ : BufTy).Contents (Elt F) → (⟨S1000000x4, .f32⟩ : BufTy).Contents (Elt F) → (⟨S1000000x4, .f32⟩ : BufTy).Contents (Elt F)),
    unary main_v64 main_v65 (Host.tanh : (⟨S1000000x4, .f32⟩ : BufTy).Contents (Elt F) → (⟨S1000000x4, .f32⟩ : BufTy).Contents (Elt F)),
    binary main_v65 main_arg7 main_v66 ((fun l r => Host.dotGeneral dot_S1000000x4_S4x2_S1000000x2_1_0_0_1_n_n none l r) : (⟨S1000000x4, .f32⟩ : BufTy).Contents (Elt F) → (⟨S4x2, .f32⟩ : BufTy).Contents (Elt F) → (⟨S1000000x2, .f32⟩ : BufTy).Contents (Elt F)) ]

/-- Operations 85 to 99 of @main. -/
def mid3 : List (HloOp τ sig (Elt F)) :=
  [ nullary main_c_13 (constantI S_ 32 0#32),
    unary main_c_13 main_v67 (broadcastInDim S17000000 ![] bcast_S_S17000000 : (⟨S_, .i32⟩ : BufTy).Contents (Elt F) → (⟨S17000000, .i32⟩ : BufTy).Contents (Elt F)),
    binary main_v3 main_v67 main_v68 (cmpi .slt : (⟨S17000000, .i32⟩ : BufTy).Contents (Elt F) → (⟨S17000000, .i32⟩ : BufTy).Contents (Elt F) → (⟨S17000000, .i1⟩ : BufTy).Contents (Elt F)),
    nullary main_c_14 (constantI S_ 32 1000000#32),
    unary main_c_14 main_v69 (broadcastInDim S17000000 ![] bcast_S_S17000000 : (⟨S_, .i32⟩ : BufTy).Contents (Elt F) → (⟨S17000000, .i32⟩ : BufTy).Contents (Elt F)),
    binary main_v3 main_v69 main_v70 (addi : (⟨S17000000, .i32⟩ : BufTy).Contents (Elt F) → (⟨S17000000, .i32⟩ : BufTy).Contents (Elt F) → (⟨S17000000, .i32⟩ : BufTy).Contents (Elt F)),
    ternary main_v68 main_v70 main_v3 main_v71 (select : (⟨S17000000, .i1⟩ : BufTy).Contents (Elt F) → (⟨S17000000, .i32⟩ : BufTy).Contents (Elt F) → (⟨S17000000, .i32⟩ : BufTy).Contents (Elt F) → (⟨S17000000, .i32⟩ : BufTy).Contents (Elt F)),
    unary main_v71 main_v72 (broadcastInDim S17000000x1 ![0] bcast_S17000000_S17000000x1_0 : (⟨S17000000, .i32⟩ : BufTy).Contents (Elt F) → (⟨S17000000x1, .i32⟩ : BufTy).Contents (Elt F)),
    binary main_v66 main_v72 main_v73 ((fun x i => Host.gather gather_S1000000x2_S17000000x1_S17000000x2_1_0_n_n_0_1_12 x i) : (⟨S1000000x2, .f32⟩ : BufTy).Contents (Elt F) → (⟨S17000000x1, .i32⟩ : BufTy).Contents (Elt F) → (⟨S17000000x2, .f32⟩ : BufTy).Contents (Elt F)),
    unary main_v31 main_v74 (broadcastInDim S17000000x2 ![0, 1] bcast_S17000000x1_S17000000x2_0_1 : (⟨S17000000x1, .f32⟩ : BufTy).Contents (Elt F) → (⟨S17000000x2, .f32⟩ : BufTy).Contents (Elt F)),
    binary main_v74 main_v73 main_v75 (mulf : (⟨S17000000x2, .f32⟩ : BufTy).Contents (Elt F) → (⟨S17000000x2, .f32⟩ : BufTy).Contents (Elt F) → (⟨S17000000x2, .f32⟩ : BufTy).Contents (Elt F)),
    nullary main_cst_15 (constant S_ .f32 0x00000000#32),
    unary main_cst_15 main_v76 (broadcastInDim S1000000x2 ![] bcast_S_S1000000x2 : (⟨S_, .f32⟩ : BufTy).Contents (Elt F) → (⟨S1000000x2, .f32⟩ : BufTy).Contents (Elt F)),
    unary main_v6 main_v77 (broadcastInDim S17000000x1 ![0] bcast_S17000000_S17000000x1_0 : (⟨S17000000, .i32⟩ : BufTy).Contents (Elt F) → (⟨S17000000x1, .i32⟩ : BufTy).Contents (Elt F)),
    ternary main_v76 main_v77 main_v75 main_v78 ((fun x i u => Host.scatterAdd scatter_S1000000x2_S17000000x1_S17000000x2_1_0_0_1 x i u) : (⟨S1000000x2, .f32⟩ : BufTy).Contents (Elt F) → (⟨S17000000x1, .i32⟩ : BufTy).Contents (Elt F) → (⟨S17000000x2, .f32⟩ : BufTy).Contents (Elt F) → (⟨S1000000x2, .f32⟩ : BufTy).Contents (Elt F)) ]

/-- Operations 100 to 103 of @main. -/
def lin3 : List (HloOp τ sig (Elt F)) :=
  [ unary main_arg8 main_v79 (broadcastInDim S1x2 ![1] bcast_S2_S1x2_1 : (⟨S2, .f32⟩ : BufTy).Contents (Elt F) → (⟨S1x2, .f32⟩ : BufTy).Contents (Elt F)),
    unary main_v79 main_v80 (broadcastInDim S1000000x2 ![0, 1] bcast_S1x2_S1000000x2_0_1 : (⟨S1x2, .f32⟩ : BufTy).Contents (Elt F) → (⟨S1000000x2, .f32⟩ : BufTy).Contents (Elt F)),
    binary main_v78 main_v80 main_v81 (addf : (⟨S1000000x2, .f32⟩ : BufTy).Contents (Elt F) → (⟨S1000000x2, .f32⟩ : BufTy).Contents (Elt F) → (⟨S1000000x2, .f32⟩ : BufTy).Contents (Elt F)),
    unary main_v81 main_v82 (Host.tanh : (⟨S1000000x2, .f32⟩ : BufTy).Contents (Elt F) → (⟨S1000000x2, .f32⟩ : BufTy).Contents (Elt F)) ]

/-- Operations 104 to 123 of @main. -/
def tail : List (HloOp τ sig (Elt F)) :=
  [ nullary main_cst_16 (constant S_ .f32 0x00000000#32),
    unary main_cst_16 main_v83 (broadcastInDim S1024x2 ![] bcast_S_S1024x2 : (⟨S_, .f32⟩ : BufTy).Contents (Elt F) → (⟨S1024x2, .f32⟩ : BufTy).Contents (Elt F)),
    unary main_arg2 main_v84 (broadcastInDim S1000000x1 ![0] bcast_S1000000_S1000000x1_0 : (⟨S1000000, .i32⟩ : BufTy).Contents (Elt F) → (⟨S1000000x1, .i32⟩ : BufTy).Contents (Elt F)),
    ternary main_v83 main_v84 main_v82 main_v85 ((fun x i u => Host.scatterAdd scatter_S1024x2_S1000000x1_S1000000x2_1_0_0_1 x i u) : (⟨S1024x2, .f32⟩ : BufTy).Contents (Elt F) → (⟨S1000000x1, .i32⟩ : BufTy).Contents (Elt F) → (⟨S1000000x2, .f32⟩ : BufTy).Contents (Elt F) → (⟨S1024x2, .f32⟩ : BufTy).Contents (Elt F)),
    nullary main_cst_17 (constant S_ .f32 0x3F800000#32),
    unary main_cst_17 main_v86 (broadcastInDim S1000000 ![] bcast_S_S1000000 : (⟨S_, .f32⟩ : BufTy).Contents (Elt F) → (⟨S1000000, .f32⟩ : BufTy).Contents (Elt F)),
    nullary main_cst_18 (constant S_ .f32 0x00000000#32),
    unary main_cst_18 main_v87 (broadcastInDim S1024 ![] bcast_S_S1024 : (⟨S_, .f32⟩ : BufTy).Contents (Elt F) → (⟨S1024, .f32⟩ : BufTy).Contents (Elt F)),
    unary main_arg2 main_v88 (broadcastInDim S1000000x1 ![0] bcast_S1000000_S1000000x1_0 : (⟨S1000000, .i32⟩ : BufTy).Contents (Elt F) → (⟨S1000000x1, .i32⟩ : BufTy).Contents (Elt F)),
    ternary main_v87 main_v88 main_v86 main_v89 ((fun x i u => Host.scatterAdd scatter_S1024_S1000000x1_S1000000_n_0_0_1 x i u) : (⟨S1024, .f32⟩ : BufTy).Contents (Elt F) → (⟨S1000000x1, .i32⟩ : BufTy).Contents (Elt F) → (⟨S1000000, .f32⟩ : BufTy).Contents (Elt F) → (⟨S1024, .f32⟩ : BufTy).Contents (Elt F)),
    nullary main_cst_19 (constant S_ .f32 0x3F800000#32),
    unary main_cst_19 main_v90 (broadcastInDim S1024 ![] bcast_S_S1024 : (⟨S_, .f32⟩ : BufTy).Contents (Elt F) → (⟨S1024, .f32⟩ : BufTy).Contents (Elt F)),
    binary main_v89 main_v90 main_v91 (maximumf : (⟨S1024, .f32⟩ : BufTy).Contents (Elt F) → (⟨S1024, .f32⟩ : BufTy).Contents (Elt F) → (⟨S1024, .f32⟩ : BufTy).Contents (Elt F)),
    unary main_v91 main_v92 (broadcastInDim S1024x1 ![0] bcast_S1024_S1024x1_0 : (⟨S1024, .f32⟩ : BufTy).Contents (Elt F) → (⟨S1024x1, .f32⟩ : BufTy).Contents (Elt F)),
    unary main_v92 main_v93 (broadcastInDim S1024x2 ![0, 1] bcast_S1024x1_S1024x2_0_1 : (⟨S1024x1, .f32⟩ : BufTy).Contents (Elt F) → (⟨S1024x2, .f32⟩ : BufTy).Contents (Elt F)),
    binary main_v85 main_v93 main_v94 (Host.divf : (⟨S1024x2, .f32⟩ : BufTy).Contents (Elt F) → (⟨S1024x2, .f32⟩ : BufTy).Contents (Elt F) → (⟨S1024x2, .f32⟩ : BufTy).Contents (Elt F)),
    binary main_v94 main_arg9 main_v95 ((fun l r => Host.dotGeneral dot_S1024x2_S2x1_S1024x1_1_0_0_1_n_n none l r) : (⟨S1024x2, .f32⟩ : BufTy).Contents (Elt F) → (⟨S2x1, .f32⟩ : BufTy).Contents (Elt F) → (⟨S1024x1, .f32⟩ : BufTy).Contents (Elt F)),
    unary main_arg10 main_v96 (broadcastInDim S1x1 ![1] bcast_S1_S1x1_1 : (⟨S1, .f32⟩ : BufTy).Contents (Elt F) → (⟨S1x1, .f32⟩ : BufTy).Contents (Elt F)),
    unary main_v96 main_v97 (broadcastInDim S1024x1 ![0, 1] bcast_S1x1_S1024x1_0_1 : (⟨S1x1, .f32⟩ : BufTy).Contents (Elt F) → (⟨S1024x1, .f32⟩ : BufTy).Contents (Elt F)),
    binary main_v95 main_v97 main_v98 (addf : (⟨S1024x1, .f32⟩ : BufTy).Contents (Elt F) → (⟨S1024x1, .f32⟩ : BufTy).Contents (Elt F) → (⟨S1024x1, .f32⟩ : BufTy).Contents (Elt F)) ]

set_option maxRecDepth 8192 in
/-- The line is its stretches, one after the other. -/
theorem ops_split : (ops : List (HloOp τ sig (Elt F))) = preA ++ preB ++ dot1 ++ mid1 ++ lin1 ++ mid2 ++ lin2 ++ mid3 ++ lin3 ++ tail := rfl

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## The contents at each cut -/

variable (m : (ℓ : Loc nD τ sig) → Buf (Elt F) ℓ)

abbrev U0 (c : Dev nD) : Valuation τ sig (Elt F) := launchContents m c
abbrev U1a (c : Dev nD) : Valuation τ sig (Elt F) := after preA (U0 m c)
abbrev U1 (c : Dev nD) : Valuation τ sig (Elt F) := after preB (U1a m c)
abbrev U2 (c : Dev nD) : Valuation τ sig (Elt F) := after dot1 (U1 m c)
abbrev U3 (c : Dev nD) : Valuation τ sig (Elt F) := after mid1 (U2 m c)
abbrev U4 (c : Dev nD) : Valuation τ sig (Elt F) := after lin1 (U3 m c)
abbrev U5 (c : Dev nD) : Valuation τ sig (Elt F) := after mid2 (U4 m c)
abbrev U6 (c : Dev nD) : Valuation τ sig (Elt F) := after lin2 (U5 m c)
abbrev U7 (c : Dev nD) : Valuation τ sig (Elt F) := after mid3 (U6 m c)
abbrev U8 (c : Dev nD) : Valuation τ sig (Elt F) := after lin3 (U7 m c)
abbrev U9 (c : Dev nD) : Valuation τ sig (Elt F) := after tail (U8 m c)

theorem after_ops (c : Dev nD) : after ops (launchContents m c) = U9 m c := by
  rw [ops_split]
  simp only [after_append]

/-- Every weakly fair execution of the reference terminates, each buffer at the fold's contents. -/
theorem run (ρ : Dev nD → PrngReg) :
    θ_run defs (onTc (τ := τ) (main (F := F))) ⟨m, fun _ => 0, ρ⟩ fun r =>
      ∀ (c : Dev nD) (b : Ref sig .tc), r.2.mem ((c.tc : Thread nD τ).loc b) = U9 m c (Proc.devRef .tc b) :=
  (θ_run defs _ _).mono (fun _ h c b => (h c b).trans (congrFun (after_ops m c) _))
    (run_seq scopedRefs_eq scopedSems_eq defs main (fun _ => ops) main_eq (fun _ => ops_sub) m ρ)

/-! ## What the replaced stretches write -/

/-- The first projection: the node features times the first weight. -/
theorem dot1_val (U : Valuation τ sig (Elt F)) :
    after dot1 U (Proc.devRef .tc main_v32)
      = Host.dotGeneral dot_S1000000x16_S16x4_S1000000x4_1_0_0_1_n_n none (U (Proc.devRef .tc main_arg0)) (U (Proc.devRef .tc main_arg3)) := by
  unfold dot1; after_results

/-- Bias, tanh, second projection. -/
theorem lin1_val (U : Valuation τ sig (Elt F)) :
    after lin1 U (Proc.devRef .tc main_v49)
      = Host.dotGeneral dot_S1000000x4_S4x4_S1000000x4_1_0_0_1_n_n none
          (Host.tanh (addf (U (Proc.devRef .tc main_v44))
            (broadcastInDim S1000000x4 ![0, 1] bcast_S1x4_S1000000x4_0_1 (broadcastInDim S1x4 ![1] bcast_S4_S1x4_1 (U (Proc.devRef .tc main_arg4))))))
          (U (Proc.devRef .tc main_arg5)) := by
  unfold lin1; after_results

/-- Bias, tanh, third projection. -/
theorem lin2_val (U : Valuation τ sig (Elt F)) :
    after lin2 U (Proc.devRef .tc main_v66)
      = Host.dotGeneral dot_S1000000x4_S4x2_S1000000x2_1_0_0_1_n_n none
          (Host.tanh (addf (U (Proc.devRef .tc main_v61))
            (broadcastInDim S1000000x4 ![0, 1] bcast_S1x4_S1000000x4_0_1 (broadcastInDim S1x4 ![1] bcast_S4_S1x4_1 (U (Proc.devRef .tc main_arg6))))))
          (U (Proc.devRef .tc main_arg7)) := by
  unfold lin2; after_results

/-- The last bias and tanh. -/
theorem lin3_val (U : Valuation τ sig (Elt F)) :
    after lin3 U (Proc.devRef .tc main_v82)
      = Host.tanh (addf (U (Proc.devRef .tc main_v78))
          (broadcastInDim S1000000x2 ![0, 1] bcast_S1x2_S1000000x2_0_1 (broadcastInDim S1x2 ![1] bcast_S2_S1x2_1 (U (Proc.devRef .tc main_arg8))))) := by
  unfold lin3; after_results

/-! ## What each stretch leaves alone -/

/-- The buffers `preA` writes. -/
abbrev preA_W : List (Ref sig .tc) := [main_v0, main_v1, main_v2, main_v3, main_v4, main_v5, main_v6]
/-- The buffers `preB` writes. -/
abbrev preB_W : List (Ref sig .tc) := [main_cst, main_v7, main_cst_0, main_v8, main_v9, main_v10, main_cst_1, main_v11, main_v12, main_cst_2, main_v13, main_v14, main_cst_3, main_call0_v0, main_call0_v1, main_v15, main_c, main_v16, main_v17, main_c_4, main_v18, main_v19, main_v20, main_v21, main_v22, main_c_5, main_v23, main_v24, main_c_6, main_v25, main_v26, main_v27, main_v28, main_v29, main_v30, main_v31]
/-- The buffers `dot1` writes. -/
abbrev dot1_W : List (Ref sig .tc) := [main_v32]
/-- The buffers `mid1` writes. -/
abbrev mid1_W : List (Ref sig .tc) := [main_c_7, main_v33, main_v34, main_c_8, main_v35, main_v36, main_v37, main_v38, main_v39, main_v40, main_v41, main_cst_9, main_v42, main_v43, main_v44]
/-- The buffers `lin1` writes. -/
abbrev lin1_W : List (Ref sig .tc) := [main_v45, main_v46, main_v47, main_v48, main_v49]
/-- The buffers `mid2` writes. -/
abbrev mid2_W : List (Ref sig .tc) := [main_c_10, main_v50, main_v51, main_c_11, main_v52, main_v53, main_v54, main_v55, main_v56, main_v57, main_v58, main_cst_12, main_v59, main_v60, main_v61]
/-- The buffers `lin2` writes. -/
abbrev lin2_W : List (Ref sig .tc) := [main_v62, main_v63, main_v64, main_v65, main_v66]
/-- The buffers `mid3` writes. -/
abbrev mid3_W : List (Ref sig .tc) := [main_c_13, main_v67, main_v68, main_c_14, main_v69, main_v70, main_v71, main_v72, main_v73, main_v74, main_v75, main_cst_15, main_v76, main_v77, main_v78]
/-- The buffers `lin3` writes. -/
abbrev lin3_W : List (Ref sig .tc) := [main_v79, main_v80, main_v81, main_v82]
/-- The buffers `tail` writes. -/
abbrev tail_W : List (Ref sig .tc) := [main_cst_16, main_v83, main_v84, main_v85, main_cst_17, main_v86, main_cst_18, main_v87, main_v88, main_v89, main_cst_19, main_v90, main_v91, main_v92, main_v93, main_v94, main_v95, main_v96, main_v97, main_v98]

/-- Each operation of a literal line writes a buffer of the list beside it. -/
macro "refine_writes" : tactic =>
  `(tactic| (repeat' apply And.intro
             all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))))

theorem preA_writes : (preA : List (HloOp τ sig (Elt F))).Forall fun op => op.writes ⊆ (preA_W.map (Proc.devRef (τ := τ) .tc)).toFinset := by
  unfold preA
  simp only [List.Forall]
  refine_writes
/-- A buffer `preA` does not write keeps its contents. -/
theorem keep_preA (U : Valuation τ sig (Elt F)) (b : Ref sig .tc) (h : b ∉ preA_W) :
    after preA U (no_index (Proc.devRef .tc b)) = U (Proc.devRef .tc b) :=
  after_of_writes_sub preA U preA_writes h
theorem preB_writes : (preB : List (HloOp τ sig (Elt F))).Forall fun op => op.writes ⊆ (preB_W.map (Proc.devRef (τ := τ) .tc)).toFinset := by
  unfold preB
  simp only [List.Forall]
  refine_writes
/-- A buffer `preB` does not write keeps its contents. -/
theorem keep_preB (U : Valuation τ sig (Elt F)) (b : Ref sig .tc) (h : b ∉ preB_W) :
    after preB U (no_index (Proc.devRef .tc b)) = U (Proc.devRef .tc b) :=
  after_of_writes_sub preB U preB_writes h
theorem dot1_writes : (dot1 : List (HloOp τ sig (Elt F))).Forall fun op => op.writes ⊆ (dot1_W.map (Proc.devRef (τ := τ) .tc)).toFinset := by
  unfold dot1
  simp only [List.Forall]
  refine_writes
/-- A buffer `dot1` does not write keeps its contents. -/
theorem keep_dot1 (U : Valuation τ sig (Elt F)) (b : Ref sig .tc) (h : b ∉ dot1_W) :
    after dot1 U (no_index (Proc.devRef .tc b)) = U (Proc.devRef .tc b) :=
  after_of_writes_sub dot1 U dot1_writes h
theorem mid1_writes : (mid1 : List (HloOp τ sig (Elt F))).Forall fun op => op.writes ⊆ (mid1_W.map (Proc.devRef (τ := τ) .tc)).toFinset := by
  unfold mid1
  simp only [List.Forall]
  refine_writes
/-- A buffer `mid1` does not write keeps its contents. -/
theorem keep_mid1 (U : Valuation τ sig (Elt F)) (b : Ref sig .tc) (h : b ∉ mid1_W) :
    after mid1 U (no_index (Proc.devRef .tc b)) = U (Proc.devRef .tc b) :=
  after_of_writes_sub mid1 U mid1_writes h
theorem lin1_writes : (lin1 : List (HloOp τ sig (Elt F))).Forall fun op => op.writes ⊆ (lin1_W.map (Proc.devRef (τ := τ) .tc)).toFinset := by
  unfold lin1
  simp only [List.Forall]
  refine_writes
/-- A buffer `lin1` does not write keeps its contents. -/
theorem keep_lin1 (U : Valuation τ sig (Elt F)) (b : Ref sig .tc) (h : b ∉ lin1_W) :
    after lin1 U (no_index (Proc.devRef .tc b)) = U (Proc.devRef .tc b) :=
  after_of_writes_sub lin1 U lin1_writes h
theorem mid2_writes : (mid2 : List (HloOp τ sig (Elt F))).Forall fun op => op.writes ⊆ (mid2_W.map (Proc.devRef (τ := τ) .tc)).toFinset := by
  unfold mid2
  simp only [List.Forall]
  refine_writes
/-- A buffer `mid2` does not write keeps its contents. -/
theorem keep_mid2 (U : Valuation τ sig (Elt F)) (b : Ref sig .tc) (h : b ∉ mid2_W) :
    after mid2 U (no_index (Proc.devRef .tc b)) = U (Proc.devRef .tc b) :=
  after_of_writes_sub mid2 U mid2_writes h
theorem lin2_writes : (lin2 : List (HloOp τ sig (Elt F))).Forall fun op => op.writes ⊆ (lin2_W.map (Proc.devRef (τ := τ) .tc)).toFinset := by
  unfold lin2
  simp only [List.Forall]
  refine_writes
/-- A buffer `lin2` does not write keeps its contents. -/
theorem keep_lin2 (U : Valuation τ sig (Elt F)) (b : Ref sig .tc) (h : b ∉ lin2_W) :
    after lin2 U (no_index (Proc.devRef .tc b)) = U (Proc.devRef .tc b) :=
  after_of_writes_sub lin2 U lin2_writes h
theorem mid3_writes : (mid3 : List (HloOp τ sig (Elt F))).Forall fun op => op.writes ⊆ (mid3_W.map (Proc.devRef (τ := τ) .tc)).toFinset := by
  unfold mid3
  simp only [List.Forall]
  refine_writes
/-- A buffer `mid3` does not write keeps its contents. -/
theorem keep_mid3 (U : Valuation τ sig (Elt F)) (b : Ref sig .tc) (h : b ∉ mid3_W) :
    after mid3 U (no_index (Proc.devRef .tc b)) = U (Proc.devRef .tc b) :=
  after_of_writes_sub mid3 U mid3_writes h
theorem lin3_writes : (lin3 : List (HloOp τ sig (Elt F))).Forall fun op => op.writes ⊆ (lin3_W.map (Proc.devRef (τ := τ) .tc)).toFinset := by
  unfold lin3
  simp only [List.Forall]
  refine_writes
/-- A buffer `lin3` does not write keeps its contents. -/
theorem keep_lin3 (U : Valuation τ sig (Elt F)) (b : Ref sig .tc) (h : b ∉ lin3_W) :
    after lin3 U (no_index (Proc.devRef .tc b)) = U (Proc.devRef .tc b) :=
  after_of_writes_sub lin3 U lin3_writes h
theorem tail_writes : (tail : List (HloOp τ sig (Elt F))).Forall fun op => op.writes ⊆ (tail_W.map (Proc.devRef (τ := τ) .tc)).toFinset := by
  unfold tail
  simp only [List.Forall]
  refine_writes
/-- A buffer `tail` does not write keeps its contents. -/
theorem keep_tail (U : Valuation τ sig (Elt F)) (b : Ref sig .tc) (h : b ∉ tail_W) :
    after tail U (no_index (Proc.devRef .tc b)) = U (Proc.devRef .tc b) :=
  after_of_writes_sub tail U tail_writes h

end Cert.ReferenceIdeal.RefRun

end
-- ==== Proof.LibHostRows.lean ====
/-
  Host-side row operations read at one entry, at the exact values.

  * A `dot_general` of an `M × K` by a `K × N` matrix along the one shared axis: entry `(p, j)` is
    `∑ k, l[p,k] · r[k,j]` — at the exact values the host's product has no accumulator, no rounding and no order.
  * A vector of length `C` viewed as one row and that row spread over `R` rows: entry `(p, k)` is the vector's `k`.
  * A vector of length `C` re-laid as a `1 × C` block: entry `(0, k)` is the vector's `k`.
-/
import Idealize.ShloMosaic.PureOps.Ideal.Laws
import Idealize.ShloMosaic.Lib.ValueIdx
import Idealize.ShloMosaic.Lib.Pipeline.Value

noncomputable section

open scoped BigOperators

namespace Cert.LibHostRows

open Idealize.ShloMosaic Idealize.ShloMosaic.ValueIdx

/-- `(l · r)[p, j] = ∑ k, l[p,k] · r[k,j]` for the host's product whose left operand index at output `i` and
    contraction position `q` is `(i 0, q)` and whose right operand index is `(q, i 1)`. -/
theorem hostDot_apply {M K N : ℕ} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision) (l : FVec Ideal ⟨2, ![M, K]⟩ φ₁) (r : FVec Ideal ⟨2, ![K, N]⟩ φ₂)
    (p : Fin M) (j : Fin N) :
    Host.dotGeneral (F := Ideal) D prec l r (ix2 p j) = ∑ k : Fin K, l (ix2 p k) * r (ix2 k j) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

/-- A vector viewed as one row, the row spread over `R` rows: entry `(p, k)` is the vector's entry `k`. -/
theorem rowOfVec_spread_apply {α : Type} {R C : ℕ} (hC : C ≠ 1) (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![R, C]⟩ ![0, 1]) (p : Fin R) (k : Fin C) :
    broadcastInDim ⟨2, ![R, C]⟩ ![0, 1] h2 (broadcastInDim ⟨2, ![1, C]⟩ ![1] h1 b) (ix2 p k) = b (ix1 k) := by
  rw [broadcastInDim_apply ![0, 1] h2 _ (ix2 p k) (ix2 (0 : Fin 1) k) (fun a => match a with
    | ⟨0, _⟩ => by show 0 = if (1 : Nat) = 1 then 0 else _; rw [if_pos rfl]
    | ⟨1, _⟩ => by show k.val = if C = 1 then 0 else k.val; rw [if_neg hC])]
  exact broadcastInDim_apply ![1] h1 b (ix2 (0 : Fin 1) k) (ix1 k) (fun a => match a with
    | ⟨0, _⟩ => by show k.val = if C = 1 then 0 else k.val; rw [if_neg hC])

/-- A vector re-laid as a one-row block: entry `(0, k)` is the vector's entry `k` (the same row-major position). -/
theorem rowOfVec_cast_apply {α : Type} {C : ℕ} (b : (⟨1, ![C]⟩ : Shape).Idx → α)
    (h : (⟨1, ![C]⟩ : Shape).ShapeCasts ⟨2, ![1, C]⟩) (k : Fin C) :
    shapeCast ⟨2, ![1, C]⟩ b h (ix2 (0 : Fin 1) k) = b (ix1 k) :=
  shapeCast_apply b h (ix2 (0 : Fin 1) k) (ix1 k) (by
    rw [Shape.rowMajor_val_one, Shape.rowMajor_val_two]
    show k.val = 0 * C + k.val
    omega)

end Cert.LibHostRows

end
-- ==== Proof.RefStages.lean ====
/-
  The reference's replaced stretches read at one entry, at the exact values.

  * the first projection:                 `∑ k, X[r,k] · W₁[k,q]`
  * bias, tanh, second / third projection: `∑ k, tanh (A[r,k] + b[k]) · W[k,q]`
  * the last bias and tanh:                `tanh (A[r,q] + b[q])`
  where the bias vector `b` enters as one row spread over the million rows.  The host's product at the exact values
  is the plain sum over the shared axis; `tanh` on the host is the same function of an extended real as in a kernel
  body.
-/
import proofs.«131106_j29454885716255_2_alg».proof.Proof.RefRun
import proofs.«131106_j29454885716255_2_alg».proof.Proof.LibHostRows

noncomputable section

open scoped BigOperators

namespace Cert.ReferenceIdeal.RefStages

open Cert.ReferenceIdeal Cert.ReferenceIdeal.Gen Cert.ReferenceIdeal.RefRun
open Idealize.ShloMosaic Idealize.ShloMosaic.TcCoe Idealize.ShloMosaic.ValueIdx Idealize.SL.Sem Idealize.ShloMosaic.StableHlo

/-! ## Which operand entry each product reads -/

theorem dotA_l0 (i : S1000000x4.Idx) (q : dot_S1000000x16_S16x4_S1000000x4_1_0_0_1_n_n.contr.Idx) :
    (dot_S1000000x16_S16x4_S1000000x4_1_0_0_1_n_n.lhsIdx i q 0).val = (i 0).val := by
  unfold DotDims.lhsIdx
  rw [dif_neg (show ¬(0 : Fin S1000000x16.rank) ∈ dot_S1000000x16_S16x4_S1000000x4_1_0_0_1_n_n.lhsBatch by decide),
    dif_pos (show (0 : Fin S1000000x16.rank) ∈ dot_S1000000x16_S16x4_S1000000x4_1_0_0_1_n_n.lhsNonContracting by decide)]
  rfl
theorem dotA_l1 (i : S1000000x4.Idx) (q : dot_S1000000x16_S16x4_S1000000x4_1_0_0_1_n_n.contr.Idx) :
    (dot_S1000000x16_S16x4_S1000000x4_1_0_0_1_n_n.lhsIdx i q 1).val = (q ⟨0, by decide⟩).val :=
  dot_S1000000x16_S16x4_S1000000x4_1_0_0_1_n_n.lhsIdx_val_of_single rfl i q
theorem dotA_r0 (i : S1000000x4.Idx) (q : dot_S1000000x16_S16x4_S1000000x4_1_0_0_1_n_n.contr.Idx) :
    (dot_S1000000x16_S16x4_S1000000x4_1_0_0_1_n_n.rhsIdx i q 0).val = (q ⟨0, by decide⟩).val :=
  dot_S1000000x16_S16x4_S1000000x4_1_0_0_1_n_n.rhsIdx_val_of_single rfl i q
theorem dotA_r1 (i : S1000000x4.Idx) (q : dot_S1000000x16_S16x4_S1000000x4_1_0_0_1_n_n.contr.Idx) :
    (dot_S1000000x16_S16x4_S1000000x4_1_0_0_1_n_n.rhsIdx i q 1).val = (i 1).val := by
  unfold DotDims.rhsIdx
  rw [dif_neg (show ¬(1 : Fin S16x4.rank) ∈ dot_S1000000x16_S16x4_S1000000x4_1_0_0_1_n_n.rhsBatch by decide),
    dif_pos (show (1 : Fin S16x4.rank) ∈ dot_S1000000x16_S16x4_S1000000x4_1_0_0_1_n_n.rhsNonContracting by decide)]
  rfl

theorem dotB_l0 (i : S1000000x4.Idx) (q : dot_S1000000x4_S4x4_S1000000x4_1_0_0_1_n_n.contr.Idx) :
    (dot_S1000000x4_S4x4_S1000000x4_1_0_0_1_n_n.lhsIdx i q 0).val = (i 0).val := by
  unfold DotDims.lhsIdx
  rw [dif_neg (show ¬(0 : Fin S1000000x4.rank) ∈ dot_S1000000x4_S4x4_S1000000x4_1_0_0_1_n_n.lhsBatch by decide),
    dif_pos (show (0 : Fin S1000000x4.rank) ∈ dot_S1000000x4_S4x4_S1000000x4_1_0_0_1_n_n.lhsNonContracting by decide)]
  rfl
theorem dotB_l1 (i : S1000000x4.Idx) (q : dot_S1000000x4_S4x4_S1000000x4_1_0_0_1_n_n.contr.Idx) :
    (dot_S1000000x4_S4x4_S1000000x4_1_0_0_1_n_n.lhsIdx i q 1).val = (q ⟨0, by decide⟩).val :=
  dot_S1000000x4_S4x4_S1000000x4_1_0_0_1_n_n.lhsIdx_val_of_single rfl i q
theorem dotB_r0 (i : S1000000x4.Idx) (q : dot_S1000000x4_S4x4_S1000000x4_1_0_0_1_n_n.contr.Idx) :
    (dot_S1000000x4_S4x4_S1000000x4_1_0_0_1_n_n.rhsIdx i q 0).val = (q ⟨0, by decide⟩).val :=
  dot_S1000000x4_S4x4_S1000000x4_1_0_0_1_n_n.rhsIdx_val_of_single rfl i q
theorem dotB_r1 (i : S1000000x4.Idx) (q : dot_S1000000x4_S4x4_S1000000x4_1_0_0_1_n_n.contr.Idx) :
    (dot_S1000000x4_S4x4_S1000000x4_1_0_0_1_n_n.rhsIdx i q 1).val = (i 1).val := by
  unfold DotDims.rhsIdx
  rw [dif_neg (show ¬(1 : Fin S4x4.rank) ∈ dot_S1000000x4_S4x4_S1000000x4_1_0_0_1_n_n.rhsBatch by decide),
    dif_pos (show (1 : Fin S4x4.rank) ∈ dot_S1000000x4_S4x4_S1000000x4_1_0_0_1_n_n.rhsNonContracting by decide)]
  rfl

theorem dotC_l0 (i : S1000000x2.Idx) (q : dot_S1000000x4_S4x2_S1000000x2_1_0_0_1_n_n.contr.Idx) :
    (dot_S1000000x4_S4x2_S1000000x2_1_0_0_1_n_n.lhsIdx i q 0).val = (i 0).val := by
  unfold DotDims.lhsIdx
  rw [dif_neg (show ¬(0 : Fin S1000000x4.rank) ∈ dot_S1000000x4_S4x2_S1000000x2_1_0_0_1_n_n.lhsBatch by decide),
    dif_pos (show (0 : Fin S1000000x4.rank) ∈ dot_S1000000x4_S4x2_S1000000x2_1_0_0_1_n_n.lhsNonContracting by decide)]
  rfl
theorem dotC_l1 (i : S1000000x2.Idx) (q : dot_S1000000x4_S4x2_S1000000x2_1_0_0_1_n_n.contr.Idx) :
    (dot_S1000000x4_S4x2_S1000000x2_1_0_0_1_n_n.lhsIdx i q 1).val = (q ⟨0, by decide⟩).val :=
  dot_S1000000x4_S4x2_S1000000x2_1_0_0_1_n_n.lhsIdx_val_of_single rfl i q
theorem dotC_r0 (i : S1000000x2.Idx) (q : dot_S1000000x4_S4x2_S1000000x2_1_0_0_1_n_n.contr.Idx) :
    (dot_S1000000x4_S4x2_S1000000x2_1_0_0_1_n_n.rhsIdx i q 0).val = (q ⟨0, by decide⟩).val :=
  dot_S1000000x4_S4x2_S1000000x2_1_0_0_1_n_n.rhsIdx_val_of_single rfl i q
theorem dotC_r1 (i : S1000000x2.Idx) (q : dot_S1000000x4_S4x2_S1000000x2_1_0_0_1_n_n.contr.Idx) :
    (dot_S1000000x4_S4x2_S1000000x2_1_0_0_1_n_n.rhsIdx i q 1).val = (i 1).val := by
  unfold DotDims.rhsIdx
  rw [dif_neg (show ¬(1 : Fin S4x2.rank) ∈ dot_S1000000x4_S4x2_S1000000x2_1_0_0_1_n_n.rhsBatch by decide),
    dif_pos (show (1 : Fin S4x2.rank) ∈ dot_S1000000x4_S4x2_S1000000x2_1_0_0_1_n_n.rhsNonContracting by decide)]
  rfl

/-! ## The four replaced stretches at an entry -/

variable (U : Valuation τ sig (Elt Ideal))

/-- The buffers the replaced stretches read, as arrays of extended reals. -/
abbrev feat : S1000000x16.Idx → EReal := U (Proc.devRef .tc main_arg0)
abbrev w1 : S16x4.Idx → EReal := U (Proc.devRef .tc main_arg3)
abbrev agg1 : S1000000x4.Idx → EReal := U (Proc.devRef .tc main_v44)
abbrev b1 : S4.Idx → EReal := U (Proc.devRef .tc main_arg4)
abbrev w2 : S4x4.Idx → EReal := U (Proc.devRef .tc main_arg5)
abbrev agg2 : S1000000x4.Idx → EReal := U (Proc.devRef .tc main_v61)
abbrev b2 : S4.Idx → EReal := U (Proc.devRef .tc main_arg6)
abbrev w3 : S4x2.Idx → EReal := U (Proc.devRef .tc main_arg7)
abbrev agg3 : S1000000x2.Idx → EReal := U (Proc.devRef .tc main_v78)
abbrev b3 : S2.Idx → EReal := U (Proc.devRef .tc main_arg8)

theorem dot1_entry (r : Fin 1000000) (q : Fin 4) :
    (after dot1 U (Proc.devRef .tc main_v32) : S1000000x4.Idx → EReal) (ix2 r q)
      = ∑ k : Fin 16, feat U (ix2 r k) * w1 U (ix2 k q) := by
  rw [dot1_val]
  exact LibHostRows.hostDot_apply dot_S1000000x16_S16x4_S1000000x4_1_0_0_1_n_n rfl rfl dotA_l0 dotA_l1 dotA_r0 dotA_r1
    none _ _ r q

theorem lin1_entry (r : Fin 1000000) (q : Fin 4) :
    (after lin1 U (Proc.devRef .tc main_v49) : S1000000x4.Idx → EReal) (ix2 r q)
      = ∑ k : Fin 4, Ideal.tanh (agg1 U (ix2 r k) + b1 U (ix1 k)) * w2 U (ix2 k q) := by
  rw [lin1_val]
  refine (LibHostRows.hostDot_apply dot_S1000000x4_S4x4_S1000000x4_1_0_0_1_n_n rfl rfl dotB_l0 dotB_l1 dotB_r0 dotB_r1
    none _ _ r q).trans ?_
  refine Finset.sum_congr rfl fun k _ => ?_
  show Ideal.tanh (agg1 U (ix2 r k)
      + broadcastInDim S1000000x4 ![0, 1] bcast_S1x4_S1000000x4_0_1 (broadcastInDim S1x4 ![1] bcast_S4_S1x4_1 (b1 U)) (ix2 r k))
      * w2 U (ix2 k q) = _
  rw [LibHostRows.rowOfVec_spread_apply (by decide) (b1 U) bcast_S4_S1x4_1 bcast_S1x4_S1000000x4_0_1 r k]

theorem lin2_entry (r : Fin 1000000) (q : Fin 2) :
    (after lin2 U (Proc.devRef .tc main_v66) : S1000000x2.Idx → EReal) (ix2 r q)
      = ∑ k : Fin 4, Ideal.tanh (agg2 U (ix2 r k) + b2 U (ix1 k)) * w3 U (ix2 k q) := by
  rw [lin2_val]
  refine (LibHostRows.hostDot_apply dot_S1000000x4_S4x2_S1000000x2_1_0_0_1_n_n rfl rfl dotC_l0 dotC_l1 dotC_r0 dotC_r1
    none _ _ r q).trans ?_
  refine Finset.sum_congr rfl fun k _ => ?_
  show Ideal.tanh (agg2 U (ix2 r k)
      + broadcastInDim S1000000x4 ![0, 1] bcast_S1x4_S1000000x4_0_1 (broadcastInDim S1x4 ![1] bcast_S4_S1x4_1 (b2 U)) (ix2 r k))
      * w3 U (ix2 k q) = _
  rw [LibHostRows.rowOfVec_spread_apply (by decide) (b2 U) bcast_S4_S1x4_1 bcast_S1x4_S1000000x4_0_1 r k]

theorem lin3_entry (r : Fin 1000000) (q : Fin 2) :
    (after lin3 U (Proc.devRef .tc main_v82) : S1000000x2.Idx → EReal) (ix2 r q)
      = Ideal.tanh (agg3 U (ix2 r q) + b3 U (ix1 q)) := by
  rw [lin3_val]
  show Ideal.tanh (agg3 U (ix2 r q)
      + broadcastInDim S1000000x2 ![0, 1] bcast_S1x2_S1000000x2_0_1 (broadcastInDim S1x2 ![1] bcast_S2_S1x2_1 (b3 U)) (ix2 r q)) = _
  rw [LibHostRows.rowOfVec_spread_apply (by decide) (b3 U) bcast_S2_S1x2_1 bcast_S1x2_S1000000x2_0_1 r q]

end Cert.ReferenceIdeal.RefStages

end
-- ==== Proof.Sim.lean ====
/-
  The shared host stretches, side by side.

  Outside its four blocked regions the kernel program runs, operation for operation, the reference's own host
  operations: the edge normalisation before the first region; after each projection the gather along the edges,
  the scaling by the edge norm and the scatter-add back to the nodes; and the pooling tail.  So from contents that
  agree on the buffers a stretch reads, the two programs' stretches leave equal contents in the buffer the stretch
  is read for.  Each statement below is that, for any pair of contents: both folds are opened operation by
  operation and the two terms are then the same term of equal leaves.  The two index vectors at the head of the
  edge normalisation (a row of the edge list joined with the self-loops) are named as plain functions of the edge
  list, and each program's first seven operations evaluate to them.
  The one host operation of the kernel program without a counterpart is the re-laying of a bias vector as a
  one-row block, read here at an entry.
-/
import proofs.«131106_j29454885716255_2_alg».proof.Proof.Gen.KernelIdeal.Launch
import proofs.«131106_j29454885716255_2_alg».proof.Proof.RefRun
import proofs.«131106_j29454885716255_2_alg».proof.Proof.LibHostRows

set_option maxRecDepth 8192

noncomputable section

namespace Cert.Sim

open Idealize.ShloMosaic Idealize.ShloMosaic.TcCoe Idealize.ShloMosaic.ValueIdx Idealize.SL.Sem Idealize.ShloMosaic.StableHlo
open Cert.ReferenceIdeal.RefRun (preA preB mid1 mid2 mid3 tail)

variable (W : Valuation Cert.KernelIdeal.τ Cert.KernelIdeal.sig (Elt Ideal))
variable (U : Valuation Cert.ReferenceIdeal.τ Cert.ReferenceIdeal.sig (Elt Ideal))

/-- Running two lines one after the other is running their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

/-! ## The edge normalisation -/

section KernelHead
open Cert.KernelIdeal Cert.KernelIdeal.Gen
variable {F : FTy → Type} [FloatOps F]

/-- The first seven operations of the kernel program's first host stretch: the two index vectors. -/
def headOps : List (HloOp τ sig (Elt F)) :=
  [ StableHlo.nullary main_v0 (iotaInDim S1000000 32 0),
    StableHlo.unary main_arg1 main_v1 ((extractStridedSlice S1x16000000 ![0, 0] · slices_S2x16000000_S1x16000000_0_0) : (⟨S2x16000000, .i32⟩ : BufTy).Contents (Elt F) → (⟨S1x16000000, .i32⟩ : BufTy).Contents (Elt F)),
    StableHlo.reshape main_v1 main_v2 rfl shapeCasts_S1x16000000_S16000000,
    StableHlo.binary main_v2 main_v0 main_v3 ((fun a b => concatenate S17000000 0 [⟨S16000000, a⟩, ⟨S1000000, b⟩] concatenates_S16000000_S1000000_S17000000_d0) : (⟨S16000000, .i32⟩ : BufTy).Contents (Elt F) → (⟨S1000000, .i32⟩ : BufTy).Contents (Elt F) → (⟨S17000000, .i32⟩ : BufTy).Contents (Elt F)),
    StableHlo.unary main_arg1 main_v4 ((extractStridedSlice S1x16000000 ![1, 0] · slices_S2x16000000_S1x16000000_1_0) : (⟨S2x16000000, .i32⟩ : BufTy).Contents (Elt F) → (⟨S1x16000000, .i32⟩ : BufTy).Contents (Elt F)),
    StableHlo.reshape main_v4 main_v5 rfl shapeCasts_S1x16000000_S16000000,
    StableHlo.binary main_v5 main_v0 main_v6 ((fun a b => concatenate S17000000 0 [⟨S16000000, a⟩, ⟨S1000000, b⟩] concatenates_S16000000_S1000000_S17000000_d0) : (⟨S16000000, .i32⟩ : BufTy).Contents (Elt F) → (⟨S1000000, .i32⟩ : BufTy).Contents (Elt F) → (⟨S17000000, .i32⟩ : BufTy).Contents (Elt F)) ]
/-- Its other thirteen operations: the degrees, and the operands of their inverse square roots. -/
def restOps : List (HloOp τ sig (Elt F)) :=
  [ StableHlo.nullary main_cst (constant S_ .f32 0x3F800000#32),
    StableHlo.unary main_cst main_v7 (broadcastInDim S17000000 ![] bcast_S_S17000000 : (⟨S_, .f32⟩ : BufTy).Contents (Elt F) → (⟨S17000000, .f32⟩ : BufTy).Contents (Elt F)),
    StableHlo.nullary main_cst_0 (constant S_ .f32 0x00000000#32),
    StableHlo.unary main_cst_0 main_v8 (broadcastInDim S1000000 ![] bcast_S_S1000000 : (⟨S_, .f32⟩ : BufTy).Contents (Elt F) → (⟨S1000000, .f32⟩ : BufTy).Contents (Elt F)),
    StableHlo.unary main_v6 main_v9 (broadcastInDim S17000000x1 ![0] bcast_S17000000_S17000000x1_0 : (⟨S17000000, .i32⟩ : BufTy).Contents (Elt F) → (⟨S17000000x1, .i32⟩ : BufTy).Contents (Elt F)),
    StableHlo.ternary main_v8 main_v9 main_v7 main_v10 ((fun x i u => Host.scatterAdd scatter_S1000000_S17000000x1_S17000000_n_0_0_1 x i u) : (⟨S1000000, .f32⟩ : BufTy).Contents (Elt F) → (⟨S17000000x1, .i32⟩ : BufTy).Contents (Elt F) → (⟨S17000000, .f32⟩ : BufTy).Contents (Elt F) → (⟨S1000000, .f32⟩ : BufTy).Contents (Elt F)),
    StableHlo.nullary main_cst_1 (constant S_ .f32 0x00000000#32),
    StableHlo.unary main_cst_1 main_v11 (broadcastInDim S1000000 ![] bcast_S_S1000000 : (⟨S_, .f32⟩ : BufTy).Contents (Elt F) → (⟨S1000000, .f32⟩ : BufTy).Contents (Elt F)),
    StableHlo.binary main_v10 main_v11 main_v12 (cmpf .ogt : (⟨S1000000, .f32⟩ : BufTy).Contents (Elt F) → (⟨S1000000, .f32⟩ : BufTy).Contents (Elt F) → (⟨S1000000, .i1⟩ : BufTy).Contents (Elt F)),
    StableHlo.nullary main_cst_2 (constant S_ .f32 0xBF000000#32),
    StableHlo.unary main_cst_2 main_v13 (broadcastInDim S1000000 ![] bcast_S_S1000000 : (⟨S_, .f32⟩ : BufTy).Contents (Elt F) → (⟨S1000000, .f32⟩ : BufTy).Contents (Elt F)),
    StableHlo.binary main_v10 main_v13 main_v14 (Host.powf : (⟨S1000000, .f32⟩ : BufTy).Contents (Elt F) → (⟨S1000000, .f32⟩ : BufTy).Contents (Elt F) → (⟨S1000000, .f32⟩ : BufTy).Contents (Elt F)),
    StableHlo.nullary main_cst_3 (constant S_ .f32 0x00000000#32) ]
theorem hostOps0_split : (hostOps0 : List (HloOp τ sig (Elt F))) = headOps ++ restOps := rfl

/-- Row 0 of the edge list (the edges' sources) followed by the self-loops `0, 1, 2, …`. -/
def srcOf (e : (⟨S2x16000000, .i32⟩ : BufTy).Contents (Elt Ideal)) : (⟨S17000000, .i32⟩ : BufTy).Contents (Elt Ideal) :=
  concatenate S17000000 0 [⟨S16000000, shapeCast S16000000 (extractStridedSlice S1x16000000 ![0, 0] e slices_S2x16000000_S1x16000000_0_0) shapeCasts_S1x16000000_S16000000⟩,
    ⟨S1000000, iotaInDim S1000000 32 0⟩] concatenates_S16000000_S1000000_S17000000_d0
/-- Row 1 of the edge list (the edges' targets) followed by the self-loops. -/
def dstOf (e : (⟨S2x16000000, .i32⟩ : BufTy).Contents (Elt Ideal)) : (⟨S17000000, .i32⟩ : BufTy).Contents (Elt Ideal) :=
  concatenate S17000000 0 [⟨S16000000, shapeCast S16000000 (extractStridedSlice S1x16000000 ![1, 0] e slices_S2x16000000_S1x16000000_1_0) shapeCasts_S1x16000000_S16000000⟩,
    ⟨S1000000, iotaInDim S1000000 32 0⟩] concatenates_S16000000_S1000000_S17000000_d0

theorem head_src (W : Valuation τ sig (Elt Ideal)) :
    after headOps W (Proc.devRef .tc main_v3) = srcOf (W (Proc.devRef .tc main_arg1)) := rfl
theorem head_dst (W : Valuation τ sig (Elt Ideal)) :
    after headOps W (Proc.devRef .tc main_v6) = dstOf (W (Proc.devRef .tc main_arg1)) := rfl

end KernelHead

/-- The reference's first seven operations leave the same two vectors. -/
theorem preA_src (U : Valuation Cert.ReferenceIdeal.τ Cert.ReferenceIdeal.sig (Elt Ideal)) :
    after preA U (Proc.devRef .tc Cert.ReferenceIdeal.main_v3) = srcOf (U (Proc.devRef .tc Cert.ReferenceIdeal.main_arg1)) := rfl
theorem preA_dst (U : Valuation Cert.ReferenceIdeal.τ Cert.ReferenceIdeal.sig (Elt Ideal)) :
    after preA U (Proc.devRef .tc Cert.ReferenceIdeal.main_v6) = dstOf (U (Proc.devRef .tc Cert.ReferenceIdeal.main_arg1)) := rfl

/-- The degrees, their inverse square roots and the edge norms: from equal index vectors, equal edge norms. -/
theorem preB_eq (W : Valuation Cert.KernelIdeal.τ Cert.KernelIdeal.sig (Elt Ideal))
    (U : Valuation Cert.ReferenceIdeal.τ Cert.ReferenceIdeal.sig (Elt Ideal))
    (hs : U (Proc.devRef .tc Cert.ReferenceIdeal.main_v3) = W (Proc.devRef .tc Cert.KernelIdeal.main_v3))
    (hd : U (Proc.devRef .tc Cert.ReferenceIdeal.main_v6) = W (Proc.devRef .tc Cert.KernelIdeal.main_v6)) :
    after preB U (Proc.devRef .tc Cert.ReferenceIdeal.main_v31)
      = after Cert.KernelIdeal.Gen.hostOps0_2 (after Cert.KernelIdeal.Gen.hostOps0_1 (after restOps W)) (Proc.devRef .tc Cert.KernelIdeal.main_v31) := by
  unfold preB restOps
  dsimp only [Cert.KernelIdeal.Gen.hostOps0_1, Cert.KernelIdeal.Gen.hostOps0_2]
  after_results_simp
  rw [hs, hd]
  rfl

/-- The buffers the thirteen remaining operations write. -/
abbrev restOps_W : List (Ref Cert.KernelIdeal.sig .tc) :=
  [Cert.KernelIdeal.main_cst, Cert.KernelIdeal.main_v7, Cert.KernelIdeal.main_cst_0, Cert.KernelIdeal.main_v8, Cert.KernelIdeal.main_v9,
   Cert.KernelIdeal.main_v10, Cert.KernelIdeal.main_cst_1, Cert.KernelIdeal.main_v11, Cert.KernelIdeal.main_v12, Cert.KernelIdeal.main_cst_2,
   Cert.KernelIdeal.main_v13, Cert.KernelIdeal.main_v14, Cert.KernelIdeal.main_cst_3]
theorem restOps_writes : (restOps : List (HloOp Cert.KernelIdeal.τ Cert.KernelIdeal.sig (Elt Ideal))).Forall fun op =>
    op.writes ⊆ (restOps_W.map (Proc.devRef (τ := Cert.KernelIdeal.τ) .tc)).toFinset := by
  unfold restOps
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Gather along the edges, scale, scatter-add back: the first aggregation (four columns). -/
theorem mid1_eq
    (hM : U (Proc.devRef .tc Cert.ReferenceIdeal.main_v32) = W (Proc.devRef .tc Cert.KernelIdeal.main_v32))
    (hs : U (Proc.devRef .tc Cert.ReferenceIdeal.main_v3) = W (Proc.devRef .tc Cert.KernelIdeal.main_v3))
    (hd : U (Proc.devRef .tc Cert.ReferenceIdeal.main_v6) = W (Proc.devRef .tc Cert.KernelIdeal.main_v6))
    (hn : U (Proc.devRef .tc Cert.ReferenceIdeal.main_v31) = W (Proc.devRef .tc Cert.KernelIdeal.main_v31)) :
    after mid1 U (Proc.devRef .tc Cert.ReferenceIdeal.main_v44)
      = after Cert.KernelIdeal.Gen.hostOps1 W (Proc.devRef .tc Cert.KernelIdeal.main_v44) := by
  unfold mid1
  dsimp only [Cert.KernelIdeal.Gen.hostOps1]
  after_results_simp
  rw [hM, hs, hd, hn]
  rfl

/-- The second aggregation (four columns). -/
theorem mid2_eq
    (hM : U (Proc.devRef .tc Cert.ReferenceIdeal.main_v49) = W (Proc.devRef .tc Cert.KernelIdeal.main_v46))
    (hs : U (Proc.devRef .tc Cert.ReferenceIdeal.main_v3) = W (Proc.devRef .tc Cert.KernelIdeal.main_v3))
    (hd : U (Proc.devRef .tc Cert.ReferenceIdeal.main_v6) = W (Proc.devRef .tc Cert.KernelIdeal.main_v6))
    (hn : U (Proc.devRef .tc Cert.ReferenceIdeal.main_v31) = W (Proc.devRef .tc Cert.KernelIdeal.main_v31)) :
    after mid2 U (Proc.devRef .tc Cert.ReferenceIdeal.main_v61)
      = after Cert.KernelIdeal.Gen.hostOps2 W (Proc.devRef .tc Cert.KernelIdeal.main_v58) := by
  unfold mid2
  dsimp only [Cert.KernelIdeal.Gen.hostOps2]
  after_results_simp
  rw [hM, hs, hd, hn]
  rfl

/-- The third aggregation (two columns). -/
theorem mid3_eq
    (hM : U (Proc.devRef .tc Cert.ReferenceIdeal.main_v66) = W (Proc.devRef .tc Cert.KernelIdeal.main_v60))
    (hs : U (Proc.devRef .tc Cert.ReferenceIdeal.main_v3) = W (Proc.devRef .tc Cert.KernelIdeal.main_v3))
    (hd : U (Proc.devRef .tc Cert.ReferenceIdeal.main_v6) = W (Proc.devRef .tc Cert.KernelIdeal.main_v6))
    (hn : U (Proc.devRef .tc Cert.ReferenceIdeal.main_v31) = W (Proc.devRef .tc Cert.KernelIdeal.main_v31)) :
    after mid3 U (Proc.devRef .tc Cert.ReferenceIdeal.main_v78)
      = after Cert.KernelIdeal.Gen.hostOps3 W (Proc.devRef .tc Cert.KernelIdeal.main_v72) := by
  unfold mid3
  dsimp only [Cert.KernelIdeal.Gen.hostOps3]
  after_results_simp
  rw [hM, hs, hd, hn]
  rfl

/-- The pooling tail: per-graph sums over the node features, divided by the clamped node counts, and the
    classifier; both results. -/
theorem tail_eq
    (hH : U (Proc.devRef .tc Cert.ReferenceIdeal.main_v82) = W (Proc.devRef .tc Cert.KernelIdeal.main_v74))
    (h2 : U (Proc.devRef .tc Cert.ReferenceIdeal.main_arg2) = W (Proc.devRef .tc Cert.KernelIdeal.main_arg2))
    (h9 : U (Proc.devRef .tc Cert.ReferenceIdeal.main_arg9) = W (Proc.devRef .tc Cert.KernelIdeal.main_arg9))
    (h10 : U (Proc.devRef .tc Cert.ReferenceIdeal.main_arg10) = W (Proc.devRef .tc Cert.KernelIdeal.main_arg10)) :
    after tail U (Proc.devRef .tc Cert.ReferenceIdeal.main_v98)
        = after Cert.KernelIdeal.Gen.hostOps4 W (Proc.devRef .tc Cert.KernelIdeal.main_v90)
    ∧ after tail U (Proc.devRef .tc Cert.ReferenceIdeal.main_v94)
        = after Cert.KernelIdeal.Gen.hostOps4 W (Proc.devRef .tc Cert.KernelIdeal.main_v86) := by
  refine ⟨?_, ?_⟩
  · unfold tail
    dsimp only [Cert.KernelIdeal.Gen.hostOps4]
    after_results_simp
    rw [hH, h2, h9, h10]
    rfl
  · unfold tail
    dsimp only [Cert.KernelIdeal.Gen.hostOps4]
    after_results_simp
    rw [hH, h2]
    rfl

/-! ## The bias vector re-laid as a one-row block -/

/-- After the stretch between regions 0 and 1 the first bias block's entry `(0, k)` is the bias vector's `k`. -/
theorem bias1_entry (k : Fin 4) :
    (after Cert.KernelIdeal.Gen.hostOps1 W (Proc.devRef .tc Cert.KernelIdeal.main_v45) : Cert.KernelIdeal.S1x4.Idx → EReal) (ix2 (0 : Fin 1) k)
      = (W (Proc.devRef .tc Cert.KernelIdeal.main_arg4) : Cert.KernelIdeal.S4.Idx → EReal) (ix1 k) := by
  dsimp only [Cert.KernelIdeal.Gen.hostOps1]
  after_results_simp
  exact LibHostRows.rowOfVec_cast_apply _ Cert.KernelIdeal.Gen.shapeCasts_S4_S1x4 k

/-- The second bias block. -/
theorem bias2_entry (k : Fin 4) :
    (after Cert.KernelIdeal.Gen.hostOps2 W (Proc.devRef .tc Cert.KernelIdeal.main_v59) : Cert.KernelIdeal.S1x4.Idx → EReal) (ix2 (0 : Fin 1) k)
      = (W (Proc.devRef .tc Cert.KernelIdeal.main_arg6) : Cert.KernelIdeal.S4.Idx → EReal) (ix1 k) := by
  dsimp only [Cert.KernelIdeal.Gen.hostOps2]
  after_results_simp
  exact LibHostRows.rowOfVec_cast_apply _ Cert.KernelIdeal.Gen.shapeCasts_S4_S1x4 k

/-- The third bias block. -/
theorem bias3_entry (k : Fin 2) :
    (after Cert.KernelIdeal.Gen.hostOps3 W (Proc.devRef .tc Cert.KernelIdeal.main_v73) : Cert.KernelIdeal.S1x2.Idx → EReal) (ix2 (0 : Fin 1) k)
      = (W (Proc.devRef .tc Cert.KernelIdeal.main_arg8) : Cert.KernelIdeal.S2.Idx → EReal) (ix1 k) := by
  dsimp only [Cert.KernelIdeal.Gen.hostOps3]
  after_results_simp
  exact LibHostRows.rowOfVec_cast_apply _ Cert.KernelIdeal.Gen.shapeCasts_S2_S1x2 k

end Cert.Sim

end
-- ==== Proof.Bridge.lean ====
/-
  The two programs' boundary contents, in step.

  From memories that agree on the eleven arguments, the kernel program's buffers at its segment boundaries and the
  reference's buffers at the matching cuts of its line agree wherever both are read later:
    * after the edge normalisation: the source indices, the target indices and the edge norms;
    * after region 0 / the first projection: the projected features — the region's output array is the function
      with entries `∑ k, X[r,k] · W₁[k,q]`, and so is the host's product;
    * after each aggregation stretch: the aggregated features (the same operations on equal inputs);
    * after regions 1, 2 / "bias, tanh, projection": entries `∑ k, tanh (A[r,k] + b[k]) · W[k,q]` on both sides (the
      kernel reads the bias as a one-row block, the reference spreads the vector over the rows: the same number);
    * after region 3 / the last bias and tanh: entries `tanh (A[r,q] + b[q])`;
    * after the pooling tail: both results.
  Arguments are never written, and the three edge arrays are written once, before the first region; the keep
  lemmas carry them to where they are read.
-/
import proofs.«131106_j29454885716255_2_alg».proof.Proof.Keep
import proofs.«131106_j29454885716255_2_alg».proof.Proof.Region0
import proofs.«131106_j29454885716255_2_alg».proof.Proof.Region1
import proofs.«131106_j29454885716255_2_alg».proof.Proof.Region2
import proofs.«131106_j29454885716255_2_alg».proof.Proof.Region3
import proofs.«131106_j29454885716255_2_alg».proof.Proof.RefStages
import proofs.«131106_j29454885716255_2_alg».proof.Proof.Sim

set_option maxRecDepth 8192

noncomputable section

open scoped BigOperators

namespace Cert.Bridge

open Idealize.ShloMosaic Idealize.ShloMosaic.TcCoe Idealize.ShloMosaic.ValueIdx Idealize.SL.Sem Idealize.ShloMosaic.StableHlo
open Cert.KernelIdeal.Gen (W0 W3 W4 W5 W6 W7 W8 W9 W10 W11 V3 V5 V7 V9)
open Cert.ReferenceIdeal.RefRun (U0 U1a U1 U2 U3 U4 U5 U6 U7 U8 U9)

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-! ## An unwritten buffer of the kernel program, carried to each boundary -/

section KernelKeeps
open Cert.KernelIdeal Cert.KernelIdeal.Keep
variable (b : Ref Cert.KernelIdeal.sig .tc)

theorem kW3 (h0 : b ∉ hostOps0_W := by decide) (h1 : b ∉ hostOps0_1_W := by decide) (h2 : b ∉ hostOps0_2_W := by decide) :
    W3 m ρ c (Proc.devRef .tc b) = m ((c.tc : Thread nD τ).loc b) := W3_keep m ρ c b h0 h1 h2
theorem kW4 (h0 : b ∉ hostOps0_W := by decide) (h1 : b ∉ hostOps0_1_W := by decide) (h2 : b ∉ hostOps0_2_W := by decide)
    (h3 : ∀ w, Pipeline.arrRef spec0 w ≠ b := by decide) :
    W4 m ρ c (Proc.devRef .tc b) = m ((c.tc : Thread nD τ).loc b) := (W4_keep m ρ c b h3).trans (kW3 m ρ c b h0 h1 h2)
theorem kW5 (h0 : b ∉ hostOps0_W := by decide) (h1 : b ∉ hostOps0_1_W := by decide) (h2 : b ∉ hostOps0_2_W := by decide)
    (h3 : ∀ w, Pipeline.arrRef spec0 w ≠ b := by decide) (h4 : b ∉ hostOps1_W := by decide) :
    W5 m ρ c (Proc.devRef .tc b) = m ((c.tc : Thread nD τ).loc b) := (W5_keep m ρ c b h4).trans (kW4 m ρ c b h0 h1 h2 h3)
theorem kW6 (h0 : b ∉ hostOps0_W := by decide) (h1 : b ∉ hostOps0_1_W := by decide) (h2 : b ∉ hostOps0_2_W := by decide)
    (h3 : ∀ w, Pipeline.arrRef spec0 w ≠ b := by decide) (h4 : b ∉ hostOps1_W := by decide)
    (h5 : ∀ w, Pipeline.arrRef spec1 w ≠ b := by decide) :
    W6 m ρ c (Proc.devRef .tc b) = m ((c.tc : Thread nD τ).loc b) := (W6_keep m ρ c b h5).trans (kW5 m ρ c b h0 h1 h2 h3 h4)
theorem kW7 (h0 : b ∉ hostOps0_W := by decide) (h1 : b ∉ hostOps0_1_W := by decide) (h2 : b ∉ hostOps0_2_W := by decide)
    (h3 : ∀ w, Pipeline.arrRef spec0 w ≠ b := by decide) (h4 : b ∉ hostOps1_W := by decide)
    (h5 : ∀ w, Pipeline.arrRef spec1 w ≠ b := by decide) (h6 : b ∉ hostOps2_W := by decide) :
    W7 m ρ c (Proc.devRef .tc b) = m ((c.tc : Thread nD τ).loc b) := (W7_keep m ρ c b h6).trans (kW6 m ρ c b h0 h1 h2 h3 h4 h5)
theorem kW8 (h0 : b ∉ hostOps0_W := by decide) (h1 : b ∉ hostOps0_1_W := by decide) (h2 : b ∉ hostOps0_2_W := by decide)
    (h3 : ∀ w, Pipeline.arrRef spec0 w ≠ b := by decide) (h4 : b ∉ hostOps1_W := by decide)
    (h5 : ∀ w, Pipeline.arrRef spec1 w ≠ b := by decide) (h6 : b ∉ hostOps2_W := by decide)
    (h7 : ∀ w, Pipeline.arrRef spec2 w ≠ b := by decide) :
    W8 m ρ c (Proc.devRef .tc b) = m ((c.tc : Thread nD τ).loc b) := (W8_keep m ρ c b h7).trans (kW7 m ρ c b h0 h1 h2 h3 h4 h5 h6)
theorem kW9 (h0 : b ∉ hostOps0_W := by decide) (h1 : b ∉ hostOps0_1_W := by decide) (h2 : b ∉ hostOps0_2_W := by decide)
    (h3 : ∀ w, Pipeline.arrRef spec0 w ≠ b := by decide) (h4 : b ∉ hostOps1_W := by decide)
    (h5 : ∀ w, Pipeline.arrRef spec1 w ≠ b := by decide) (h6 : b ∉ hostOps2_W := by decide)
    (h7 : ∀ w, Pipeline.arrRef spec2 w ≠ b := by decide) (h8 : b ∉ hostOps3_W := by decide) :
    W9 m ρ c (Proc.devRef .tc b) = m ((c.tc : Thread nD τ).loc b) := (W9_keep m ρ c b h8).trans (kW8 m ρ c b h0 h1 h2 h3 h4 h5 h6 h7)
theorem kW10 (h0 : b ∉ hostOps0_W := by decide) (h1 : b ∉ hostOps0_1_W := by decide) (h2 : b ∉ hostOps0_2_W := by decide)
    (h3 : ∀ w, Pipeline.arrRef spec0 w ≠ b := by decide) (h4 : b ∉ hostOps1_W := by decide)
    (h5 : ∀ w, Pipeline.arrRef spec1 w ≠ b := by decide) (h6 : b ∉ hostOps2_W := by decide)
    (h7 : ∀ w, Pipeline.arrRef spec2 w ≠ b := by decide) (h8 : b ∉ hostOps3_W := by decide)
    (h9 : ∀ w, Pipeline.arrRef spec3 w ≠ b := by decide) :
    W10 m ρ c (Proc.devRef .tc b) = m ((c.tc : Thread nD τ).loc b) := (W10_keep m ρ c b h9).trans (kW9 m ρ c b h0 h1 h2 h3 h4 h5 h6 h7 h8)

/-- A buffer written before region 0, carried across it … -/
theorem kC4 (h3 : ∀ w, Pipeline.arrRef spec0 w ≠ b := by decide) :
    W4 m ρ c (Proc.devRef .tc b) = W3 m ρ c (Proc.devRef .tc b) := W4_keep m ρ c b h3
/-- … across region 1 too … -/
theorem kC6 (h3 : ∀ w, Pipeline.arrRef spec0 w ≠ b := by decide) (h4 : b ∉ hostOps1_W := by decide)
    (h5 : ∀ w, Pipeline.arrRef spec1 w ≠ b := by decide) :
    W6 m ρ c (Proc.devRef .tc b) = W3 m ρ c (Proc.devRef .tc b) :=
  (W6_keep m ρ c b h5).trans ((W5_keep m ρ c b h4).trans (kC4 m ρ c b h3))
/-- … and across region 2. -/
theorem kC8 (h3 : ∀ w, Pipeline.arrRef spec0 w ≠ b := by decide) (h4 : b ∉ hostOps1_W := by decide)
    (h5 : ∀ w, Pipeline.arrRef spec1 w ≠ b := by decide) (h6 : b ∉ hostOps2_W := by decide)
    (h7 : ∀ w, Pipeline.arrRef spec2 w ≠ b := by decide) :
    W8 m ρ c (Proc.devRef .tc b) = W3 m ρ c (Proc.devRef .tc b) :=
  (W8_keep m ρ c b h7).trans ((W7_keep m ρ c b h6).trans (kC6 m ρ c b h3 h4 h5))

end KernelKeeps

/-! ## An unwritten buffer of the reference, carried to each cut -/

section ReferenceKeeps
open Cert.ReferenceIdeal Cert.ReferenceIdeal.RefRun
variable (b : Ref Cert.ReferenceIdeal.sig .tc)

theorem rU1 (h0 : b ∉ preA_W := by decide) (h0' : b ∉ preB_W := by decide) :
    U1 m' c (Proc.devRef .tc b) = m' ((c.tc : Thread nD τ).loc b) := (keep_preB _ b h0').trans (keep_preA _ b h0)
theorem rU2 (h0 : b ∉ preA_W := by decide) (h0' : b ∉ preB_W := by decide) (h1 : b ∉ dot1_W := by decide) :
    U2 m' c (Proc.devRef .tc b) = m' ((c.tc : Thread nD τ).loc b) := (keep_dot1 _ b h1).trans (rU1 m' c b h0 h0')
theorem rU3 (h0 : b ∉ preA_W := by decide) (h0' : b ∉ preB_W := by decide) (h1 : b ∉ dot1_W := by decide) (h2 : b ∉ mid1_W := by decide) :
    U3 m' c (Proc.devRef .tc b) = m' ((c.tc : Thread nD τ).loc b) := (keep_mid1 _ b h2).trans (rU2 m' c b h0 h0' h1)
theorem rU4 (h0 : b ∉ preA_W := by decide) (h0' : b ∉ preB_W := by decide) (h1 : b ∉ dot1_W := by decide) (h2 : b ∉ mid1_W := by decide)
    (h3 : b ∉ lin1_W := by decide) :
    U4 m' c (Proc.devRef .tc b) = m' ((c.tc : Thread nD τ).loc b) := (keep_lin1 _ b h3).trans (rU3 m' c b h0 h0' h1 h2)
theorem rU5 (h0 : b ∉ preA_W := by decide) (h0' : b ∉ preB_W := by decide) (h1 : b ∉ dot1_W := by decide) (h2 : b ∉ mid1_W := by decide)
    (h3 : b ∉ lin1_W := by decide) (h4 : b ∉ mid2_W := by decide) :
    U5 m' c (Proc.devRef .tc b) = m' ((c.tc : Thread nD τ).loc b) := (keep_mid2 _ b h4).trans (rU4 m' c b h0 h0' h1 h2 h3)
theorem rU6 (h0 : b ∉ preA_W := by decide) (h0' : b ∉ preB_W := by decide) (h1 : b ∉ dot1_W := by decide) (h2 : b ∉ mid1_W := by decide)
    (h3 : b ∉ lin1_W := by decide) (h4 : b ∉ mid2_W := by decide) (h5 : b ∉ lin2_W := by decide) :
    U6 m' c (Proc.devRef .tc b) = m' ((c.tc : Thread nD τ).loc b) := (keep_lin2 _ b h5).trans (rU5 m' c b h0 h0' h1 h2 h3 h4)
theorem rU7 (h0 : b ∉ preA_W := by decide) (h0' : b ∉ preB_W := by decide) (h1 : b ∉ dot1_W := by decide) (h2 : b ∉ mid1_W := by decide)
    (h3 : b ∉ lin1_W := by decide) (h4 : b ∉ mid2_W := by decide) (h5 : b ∉ lin2_W := by decide)
    (h6 : b ∉ mid3_W := by decide) :
    U7 m' c (Proc.devRef .tc b) = m' ((c.tc : Thread nD τ).loc b) := (keep_mid3 _ b h6).trans (rU6 m' c b h0 h0' h1 h2 h3 h4 h5)
theorem rU8 (h0 : b ∉ preA_W := by decide) (h0' : b ∉ preB_W := by decide) (h1 : b ∉ dot1_W := by decide) (h2 : b ∉ mid1_W := by decide)
    (h3 : b ∉ lin1_W := by decide) (h4 : b ∉ mid2_W := by decide) (h5 : b ∉ lin2_W := by decide)
    (h6 : b ∉ mid3_W := by decide) (h7 : b ∉ lin3_W := by decide) :
    U8 m' c (Proc.devRef .tc b) = m' ((c.tc : Thread nD τ).loc b) := (keep_lin3 _ b h7).trans (rU7 m' c b h0 h0' h1 h2 h3 h4 h5 h6)
theorem rU9 (h0 : b ∉ preA_W := by decide) (h0' : b ∉ preB_W := by decide) (h1 : b ∉ dot1_W := by decide) (h2 : b ∉ mid1_W := by decide)
    (h3 : b ∉ lin1_W := by decide) (h4 : b ∉ mid2_W := by decide) (h5 : b ∉ lin2_W := by decide)
    (h6 : b ∉ mid3_W := by decide) (h7 : b ∉ lin3_W := by decide) (h8 : b ∉ tail_W := by decide) :
    U9 m' c (Proc.devRef .tc b) = m' ((c.tc : Thread nD τ).loc b) := (keep_tail _ b h8).trans (rU8 m' c b h0 h0' h1 h2 h3 h4 h5 h6 h7)

/-- A buffer written by the edge normalisation, carried past the first projection … -/
theorem rC2 (h1 : b ∉ dot1_W := by decide) :
    U2 m' c (Proc.devRef .tc b) = U1 m' c (Proc.devRef .tc b) := keep_dot1 _ b h1
/-- … past the second … -/
theorem rC4 (h1 : b ∉ dot1_W := by decide) (h2 : b ∉ mid1_W := by decide) (h3 : b ∉ lin1_W := by decide) :
    U4 m' c (Proc.devRef .tc b) = U1 m' c (Proc.devRef .tc b) :=
  (keep_lin1 _ b h3).trans ((keep_mid1 _ b h2).trans (rC2 m' c b h1))
/-- … and past the third. -/
theorem rC6 (h1 : b ∉ dot1_W := by decide) (h2 : b ∉ mid1_W := by decide) (h3 : b ∉ lin1_W := by decide)
    (h4 : b ∉ mid2_W := by decide) (h5 : b ∉ lin2_W := by decide) :
    U6 m' c (Proc.devRef .tc b) = U1 m' c (Proc.devRef .tc b) :=
  (keep_lin2 _ b h5).trans ((keep_mid2 _ b h4).trans (rC4 m' c b h1 h2 h3))

end ReferenceKeeps

/-! ## The kernel program's first stretch, cut after the two index vectors -/

/-- The kernel program's contents before region 0, with its first stretch cut after the two index vectors. -/
theorem W3_split : W3 m ρ c = after Cert.KernelIdeal.Gen.hostOps0_2 (after Cert.KernelIdeal.Gen.hostOps0_1 (after Sim.restOps (after Sim.headOps (W0 m ρ c)))) := by
  show after Cert.KernelIdeal.Gen.hostOps0_2 (after Cert.KernelIdeal.Gen.hostOps0_1 (after Cert.KernelIdeal.Gen.hostOps0 (W0 m ρ c))) = _
  rw [Sim.hostOps0_split, Sim.after_append]

/-- A buffer the kernel program's first seven operations write and nothing before region 0 rewrites. -/
theorem W3_head (b : Ref Cert.KernelIdeal.sig .tc) (h0 : b ∉ Sim.restOps_W := by decide)
    (h1 : b ∉ Cert.KernelIdeal.Keep.hostOps0_1_W := by decide) (h2 : b ∉ Cert.KernelIdeal.Keep.hostOps0_2_W := by decide) :
    W3 m ρ c (Proc.devRef .tc b) = after Sim.headOps (W0 m ρ c) (Proc.devRef .tc b) := by
  rw [W3_split]
  exact (after_of_writes_sub Cert.KernelIdeal.Gen.hostOps0_2 _ Cert.KernelIdeal.Keep.hostOps0_2_writes h2).trans
    ((after_of_writes_sub Cert.KernelIdeal.Gen.hostOps0_1 _ Cert.KernelIdeal.Keep.hostOps0_1_writes h1).trans
      (after_of_writes_sub Sim.restOps _ Sim.restOps_writes h0))

/-! ## The agreement on the arguments -/

/-- The two launch memories hold the same eleven argument arrays on core `c`. -/
structure Agree : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)

variable (hag : Agree m m' c)
include hag

/-! ## The chain -/

/-- After the edge normalisation: source indices, target indices, edge norms.  Both programs join a row of the
    same edge list with the self-loops; the norms are then the same operations on equal index vectors. -/
theorem edges :
    U1 m' c (Proc.devRef .tc Cert.ReferenceIdeal.main_v3) = W3 m ρ c (Proc.devRef .tc Cert.KernelIdeal.main_v3)
    ∧ U1 m' c (Proc.devRef .tc Cert.ReferenceIdeal.main_v6) = W3 m ρ c (Proc.devRef .tc Cert.KernelIdeal.main_v6)
    ∧ U1 m' c (Proc.devRef .tc Cert.ReferenceIdeal.main_v31) = W3 m ρ c (Proc.devRef .tc Cert.KernelIdeal.main_v31) := by
  have hs : U1a m' c (Proc.devRef .tc Cert.ReferenceIdeal.main_v3) = after Sim.headOps (W0 m ρ c) (Proc.devRef .tc Cert.KernelIdeal.main_v3) :=
    (Sim.preA_src (U0 m' c)).trans ((congrArg Sim.srcOf hag.a1).trans (Sim.head_src (W0 m ρ c)).symm)
  have hd : U1a m' c (Proc.devRef .tc Cert.ReferenceIdeal.main_v6) = after Sim.headOps (W0 m ρ c) (Proc.devRef .tc Cert.KernelIdeal.main_v6) :=
    (Sim.preA_dst (U0 m' c)).trans ((congrArg Sim.dstOf hag.a1).trans (Sim.head_dst (W0 m ρ c)).symm)
  refine ⟨?_, ?_, ?_⟩
  · exact (Cert.ReferenceIdeal.RefRun.keep_preB _ Cert.ReferenceIdeal.main_v3 (by decide)).trans (hs.trans (W3_head m ρ c Cert.KernelIdeal.main_v3).symm)
  · exact (Cert.ReferenceIdeal.RefRun.keep_preB _ Cert.ReferenceIdeal.main_v6 (by decide)).trans (hd.trans (W3_head m ρ c Cert.KernelIdeal.main_v6).symm)
  · rw [W3_split]
    exact Sim.preB_eq (after Sim.headOps (W0 m ρ c)) (U1a m' c) hs hd

/-- The projected features after region 0 and after the reference's first projection. -/
theorem proj1 : W4 m ρ c (Proc.devRef .tc Cert.KernelIdeal.main_v32) = U2 m' c (Proc.devRef .tc Cert.ReferenceIdeal.main_v32) := by
  refine (Cert.KernelIdeal.Gen.W4_arr m ρ c 2).trans
    (Cert.KernelIdeal.Region0.value (V3 m ρ) c (U2 m' c (Proc.devRef .tc Cert.ReferenceIdeal.main_v32)) fun r q => ?_)
  have hX : Cert.ReferenceIdeal.RefStages.feat (U1 m' c) = Cert.KernelIdeal.Region0.feat (V3 m ρ) c :=
    (rU1 m' c Cert.ReferenceIdeal.main_arg0).trans (hag.a0.trans (kW3 m ρ c Cert.KernelIdeal.main_arg0).symm)
  have hW : Cert.ReferenceIdeal.RefStages.w1 (U1 m' c) = Cert.KernelIdeal.Region0.wgt (V3 m ρ) c :=
    (rU1 m' c Cert.ReferenceIdeal.main_arg3).trans (hag.a3.trans (kW3 m ρ c Cert.KernelIdeal.main_arg3).symm)
  refine (Cert.ReferenceIdeal.RefStages.dot1_entry (U1 m' c) r q).trans ?_
  rw [hX, hW]

/-- The first aggregation. -/
theorem aggr1 : U3 m' c (Proc.devRef .tc Cert.ReferenceIdeal.main_v44) = W5 m ρ c (Proc.devRef .tc Cert.KernelIdeal.main_v44) :=
  Sim.mid1_eq (W4 m ρ c) (U2 m' c) (proj1 m ρ m' c hag).symm
    ((rC2 m' c Cert.ReferenceIdeal.main_v3).trans ((edges m ρ m' c hag).1.trans (kC4 m ρ c Cert.KernelIdeal.main_v3).symm))
    ((rC2 m' c Cert.ReferenceIdeal.main_v6).trans ((edges m ρ m' c hag).2.1.trans (kC4 m ρ c Cert.KernelIdeal.main_v6).symm))
    ((rC2 m' c Cert.ReferenceIdeal.main_v31).trans ((edges m ρ m' c hag).2.2.trans (kC4 m ρ c Cert.KernelIdeal.main_v31).symm))

/-- After region 1 and after the reference's "bias, tanh, second projection". -/
theorem proj2 : W6 m ρ c (Proc.devRef .tc Cert.KernelIdeal.main_v46) = U4 m' c (Proc.devRef .tc Cert.ReferenceIdeal.main_v49) := by
  refine (Cert.KernelIdeal.Gen.W6_arr m ρ c 3).trans
    (Cert.KernelIdeal.Region1.value (V5 m ρ) c (U4 m' c (Proc.devRef .tc Cert.ReferenceIdeal.main_v49)) fun r q => ?_)
  have hA : Cert.ReferenceIdeal.RefStages.agg1 (U3 m' c) = Cert.KernelIdeal.Region1.agg (V5 m ρ) c := aggr1 m ρ m' c hag
  have hB : ∀ k : Fin 4, Cert.ReferenceIdeal.RefStages.b1 (U3 m' c) (ix1 k) = Cert.KernelIdeal.Region1.bias (V5 m ρ) c (ix2 (0 : Fin 1) k) := fun k =>
    (congrFun ((rU3 m' c Cert.ReferenceIdeal.main_arg4).trans (hag.a4.trans (kW4 m ρ c Cert.KernelIdeal.main_arg4).symm)) (ix1 k)).trans
      (Sim.bias1_entry (W4 m ρ c) k).symm
  have hW : Cert.ReferenceIdeal.RefStages.w2 (U3 m' c) = Cert.KernelIdeal.Region1.wgt (V5 m ρ) c :=
    (rU3 m' c Cert.ReferenceIdeal.main_arg5).trans (hag.a5.trans (kW5 m ρ c Cert.KernelIdeal.main_arg5).symm)
  refine (Cert.ReferenceIdeal.RefStages.lin1_entry (U3 m' c) r q).trans ?_
  rw [hA, hW]
  simp only [hB]

/-- The second aggregation. -/
theorem aggr2 : U5 m' c (Proc.devRef .tc Cert.ReferenceIdeal.main_v61) = W7 m ρ c (Proc.devRef .tc Cert.KernelIdeal.main_v58) :=
  Sim.mid2_eq (W6 m ρ c) (U4 m' c) (proj2 m ρ m' c hag).symm
    ((rC4 m' c Cert.ReferenceIdeal.main_v3).trans ((edges m ρ m' c hag).1.trans (kC6 m ρ c Cert.KernelIdeal.main_v3).symm))
    ((rC4 m' c Cert.ReferenceIdeal.main_v6).trans ((edges m ρ m' c hag).2.1.trans (kC6 m ρ c Cert.KernelIdeal.main_v6).symm))
    ((rC4 m' c Cert.ReferenceIdeal.main_v31).trans ((edges m ρ m' c hag).2.2.trans (kC6 m ρ c Cert.KernelIdeal.main_v31).symm))

/-- After region 2 and after the reference's "bias, tanh, third projection". -/
theorem proj3 : W8 m ρ c (Proc.devRef .tc Cert.KernelIdeal.main_v60) = U6 m' c (Proc.devRef .tc Cert.ReferenceIdeal.main_v66) := by
  refine (Cert.KernelIdeal.Gen.W8_arr m ρ c 3).trans
    (Cert.KernelIdeal.Region2.value (V7 m ρ) c (U6 m' c (Proc.devRef .tc Cert.ReferenceIdeal.main_v66)) fun r q => ?_)
  have hA : Cert.ReferenceIdeal.RefStages.agg2 (U5 m' c) = Cert.KernelIdeal.Region2.agg (V7 m ρ) c := aggr2 m ρ m' c hag
  have hB : ∀ k : Fin 4, Cert.ReferenceIdeal.RefStages.b2 (U5 m' c) (ix1 k) = Cert.KernelIdeal.Region2.bias (V7 m ρ) c (ix2 (0 : Fin 1) k) := fun k =>
    (congrFun ((rU5 m' c Cert.ReferenceIdeal.main_arg6).trans (hag.a6.trans (kW6 m ρ c Cert.KernelIdeal.main_arg6).symm)) (ix1 k)).trans
      (Sim.bias2_entry (W6 m ρ c) k).symm
  have hW : Cert.ReferenceIdeal.RefStages.w3 (U5 m' c) = Cert.KernelIdeal.Region2.wgt (V7 m ρ) c :=
    (rU5 m' c Cert.ReferenceIdeal.main_arg7).trans (hag.a7.trans (kW7 m ρ c Cert.KernelIdeal.main_arg7).symm)
  refine (Cert.ReferenceIdeal.RefStages.lin2_entry (U5 m' c) r q).trans ?_
  rw [hA, hW]
  simp only [hB]

/-- The third aggregation. -/
theorem aggr3 : U7 m' c (Proc.devRef .tc Cert.ReferenceIdeal.main_v78) = W9 m ρ c (Proc.devRef .tc Cert.KernelIdeal.main_v72) :=
  Sim.mid3_eq (W8 m ρ c) (U6 m' c) (proj3 m ρ m' c hag).symm
    ((rC6 m' c Cert.ReferenceIdeal.main_v3).trans ((edges m ρ m' c hag).1.trans (kC8 m ρ c Cert.KernelIdeal.main_v3).symm))
    ((rC6 m' c Cert.ReferenceIdeal.main_v6).trans ((edges m ρ m' c hag).2.1.trans (kC8 m ρ c Cert.KernelIdeal.main_v6).symm))
    ((rC6 m' c Cert.ReferenceIdeal.main_v31).trans ((edges m ρ m' c hag).2.2.trans (kC8 m ρ c Cert.KernelIdeal.main_v31).symm))

/-- After region 3 and after the reference's last bias and tanh. -/
theorem feats : W10 m ρ c (Proc.devRef .tc Cert.KernelIdeal.main_v74) = U8 m' c (Proc.devRef .tc Cert.ReferenceIdeal.main_v82) := by
  refine (Cert.KernelIdeal.Gen.W10_arr m ρ c 2).trans
    (Cert.KernelIdeal.Region3.value (V9 m ρ) c (U8 m' c (Proc.devRef .tc Cert.ReferenceIdeal.main_v82)) fun r q => ?_)
  have hA : Cert.ReferenceIdeal.RefStages.agg3 (U7 m' c) = Cert.KernelIdeal.Region3.agg (V9 m ρ) c := aggr3 m ρ m' c hag
  have hB : Cert.ReferenceIdeal.RefStages.b3 (U7 m' c) (ix1 q) = Cert.KernelIdeal.Region3.bias (V9 m ρ) c (ix2 (0 : Fin 1) q) :=
    (congrFun ((rU7 m' c Cert.ReferenceIdeal.main_arg8).trans (hag.a8.trans (kW8 m ρ c Cert.KernelIdeal.main_arg8).symm)) (ix1 q)).trans
      (Sim.bias3_entry (W8 m ρ c) q).symm
  refine (Cert.ReferenceIdeal.RefStages.lin3_entry (U7 m' c) r q).trans ?_
  rw [hA, hB]

/-- Both results. -/
theorem results :
    U9 m' c (Proc.devRef .tc Cert.ReferenceIdeal.main_v98) = W11 m ρ c (Proc.devRef .tc Cert.KernelIdeal.main_v90)
    ∧ U9 m' c (Proc.devRef .tc Cert.ReferenceIdeal.main_v94) = W11 m ρ c (Proc.devRef .tc Cert.KernelIdeal.main_v86) :=
  Sim.tail_eq (W10 m ρ c) (U8 m' c) (feats m ρ m' c hag).symm
    ((rU8 m' c Cert.ReferenceIdeal.main_arg2).trans (hag.a2.trans (kW10 m ρ c Cert.KernelIdeal.main_arg2).symm))
    ((rU8 m' c Cert.ReferenceIdeal.main_arg9).trans (hag.a9.trans (kW10 m ρ c Cert.KernelIdeal.main_arg9).symm))
    ((rU8 m' c Cert.ReferenceIdeal.main_arg10).trans (hag.a10.trans (kW10 m ρ c Cert.KernelIdeal.main_arg10).symm))

end Cert.Bridge

end
-- ==== Proof.lean ====
/-
  A three-layer graph convolution network with mean pooling: the blocked kernel program against its plain reference,
  equal at the exact values.

  Both programs normalise the edges (`D^(-1/2) (A + I) D^(-1/2)`: degrees by a scatter-add of ones over the edge
  targets, inverse square roots, a product of two gathers), then three times project the node features, gather the
  projected rows along the edges, scale by the edge norm, scatter-add back to the nodes, add a bias and apply tanh;
  then pool per graph (a scatter-add of the features and of ones, a clamp of the counts at one, a division) and
  apply the one-column classifier.  The kernel program does the three projections and the three "bias, tanh" steps
  in four blocked regions over 100 row blocks of 10000 nodes (the bias-and-tanh of one layer fused with the
  projection of the next); everything else is the reference's own host operations.

  At the exact values a region's output array is ONE function of its input arrays — the blocks tile the output and
  each written-back block is that function's restriction (Region0 … Region3 over BodyValues) — and that function is
  the reference's stretch: a product into the zero accumulator and the host's product are the same finite sum, a
  change of float format is the identity, `tanh` is one function on both sides, and a bias row re-laid as a block or
  spread over the rows contributes the same entry (RefStages, LibMatmulRows, LibHostRows).  The shared host
  stretches applied to equal inputs give equal outputs (Sim), and unwritten buffers are carried along (Keep, RefRun).
  Bridge walks the two programs' boundary contents in step; here the two runs are put side by side.  Every sum on
  the kernel's side is matched with the reference's term by term, over the same index in the same order, so no
  rearrangement law of the extended reals is used and the precondition (finite inputs) is never opened: `algebraic`
  below discards it.
-/
import proofs.«131106_j29454885716255_2_alg».proof.Defs
import proofs.«131106_j29454885716255_2_alg».proof.Proof.Gen.Kernel
import proofs.«131106_j29454885716255_2_alg».proof.Proof.Gen.Kernel.Frame
import proofs.«131106_j29454885716255_2_alg».proof.Proof.Gen.KernelIdeal
import proofs.«131106_j29454885716255_2_alg».proof.Proof.Gen.KernelIdeal.Frame
import proofs.«131106_j29454885716255_2_alg».proof.Proof.Gen.ReferenceIdeal
import proofs.«131106_j29454885716255_2_alg».proof.Proof.Gen.Pre_finite_inputs
import proofs.«131106_j29454885716255_2_alg».proof.Proof.FrameAll
import proofs.«131106_j29454885716255_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ

/-- The reference runs and none of its operations writes an argument. -/
theorem frame_ri : Cert.frame_ReferenceIdeal := fun m ρ _ =>
  (θ_run Cert.ReferenceIdeal.defs _ _).mono (fun _ h c =>
      ⟨(h c _).trans (Cert.Bridge.rU9 m c Cert.ReferenceIdeal.main_arg0),
       (h c _).trans (Cert.Bridge.rU9 m c Cert.ReferenceIdeal.main_arg1),
       (h c _).trans (Cert.Bridge.rU9 m c Cert.ReferenceIdeal.main_arg2),
       (h c _).trans (Cert.Bridge.rU9 m c Cert.ReferenceIdeal.main_arg3),
       (h c _).trans (Cert.Bridge.rU9 m c Cert.ReferenceIdeal.main_arg4),
       (h c _).trans (Cert.Bridge.rU9 m c Cert.ReferenceIdeal.main_arg5),
       (h c _).trans (Cert.Bridge.rU9 m c Cert.ReferenceIdeal.main_arg6),
       (h c _).trans (Cert.Bridge.rU9 m c Cert.ReferenceIdeal.main_arg7),
       (h c _).trans (Cert.Bridge.rU9 m c Cert.ReferenceIdeal.main_arg8),
       (h c _).trans (Cert.Bridge.rU9 m c Cert.ReferenceIdeal.main_arg9),
       (h c _).trans (Cert.Bridge.rU9 m c Cert.ReferenceIdeal.main_arg10)⟩)
    (Cert.ReferenceIdeal.RefRun.run (F := Ideal) m ρ)

/-- Defs.lean states this conjunct as `True`: the ledger of rewrites it restates is empty. -/
theorem preserves : Cert.preserves_Kernel_KernelIdeal := trivial

/-- From memories agreeing on the arguments both programs run, and end with equal results: the kernel program's two
    result buffers at its last boundary are, by the bridge, the reference's at the end of its line. -/
theorem algebraic : Cert.algebraic_KernelIdeal_ReferenceIdeal := by
  intro m ρ m' ρ' _ hagree
  have hag : ∀ c, Cert.Bridge.Agree m m' c := fun c =>
    ⟨(hagree c).1, (hagree c).2.1, (hagree c).2.2.1, (hagree c).2.2.2.1, (hagree c).2.2.2.2.1, (hagree c).2.2.2.2.2.1,
     (hagree c).2.2.2.2.2.2.1, (hagree c).2.2.2.2.2.2.2.1, (hagree c).2.2.2.2.2.2.2.2.1, (hagree c).2.2.2.2.2.2.2.2.2.1,
     (hagree c).2.2.2.2.2.2.2.2.2.2⟩
  refine ⟨fun c => Cert.KernelIdeal.Gen.W11 m ρ c (Proc.devRef .tc Cert.KernelIdeal.main_v90),
    fun c => Cert.KernelIdeal.Gen.W11 m ρ c (Proc.devRef .tc Cert.KernelIdeal.main_v86), ?_, ?_⟩
  · exact (θ_run Cert.KernelIdeal.defs _ _).mono (fun r h c =>
        ⟨h c _ (Cert.KernelIdeal.Gen.mem_uc Cert.KernelIdeal.main_v90 (by decide)),
         h c _ (Cert.KernelIdeal.Gen.mem_uc Cert.KernelIdeal.main_v86 (by decide)),
         (h c _ (Cert.KernelIdeal.Gen.mem_uc Cert.KernelIdeal.main_arg0 (by decide))).trans (Cert.KernelIdeal.Gen.W11_main_arg0 m ρ c),
         (h c _ (Cert.KernelIdeal.Gen.mem_uc Cert.KernelIdeal.main_arg1 (by decide))).trans (Cert.KernelIdeal.Gen.W11_main_arg1 m ρ c),
         (h c _ (Cert.KernelIdeal.Gen.mem_uc Cert.KernelIdeal.main_arg2 (by decide))).trans (Cert.KernelIdeal.Gen.W11_main_arg2 m ρ c),
         (h c _ (Cert.KernelIdeal.Gen.mem_uc Cert.KernelIdeal.main_arg3 (by decide))).trans (Cert.KernelIdeal.Gen.W11_main_arg3 m ρ c),
         (h c _ (Cert.KernelIdeal.Gen.mem_uc Cert.KernelIdeal.main_arg4 (by decide))).trans (Cert.KernelIdeal.Gen.W11_main_arg4 m ρ c),
         (h c _ (Cert.KernelIdeal.Gen.mem_uc Cert.KernelIdeal.main_arg5 (by decide))).trans (Cert.KernelIdeal.Gen.W11_main_arg5 m ρ c),
         (h c _ (Cert.KernelIdeal.Gen.mem_uc Cert.KernelIdeal.main_arg6 (by decide))).trans (Cert.KernelIdeal.Gen.W11_main_arg6 m ρ c),
         (h c _ (Cert.KernelIdeal.Gen.mem_uc Cert.KernelIdeal.main_arg7 (by decide))).trans (Cert.KernelIdeal.Gen.W11_main_arg7 m ρ c),
         (h c _ (Cert.KernelIdeal.Gen.mem_uc Cert.KernelIdeal.main_arg8 (by decide))).trans (Cert.KernelIdeal.Gen.W11_main_arg8 m ρ c),
         (h c _ (Cert.KernelIdeal.Gen.mem_uc Cert.KernelIdeal.main_arg9 (by decide))).trans (Cert.KernelIdeal.Gen.W11_main_arg9 m ρ c),
         (h c _ (Cert.KernelIdeal.Gen.mem_uc Cert.KernelIdeal.main_arg10 (by decide))).trans (Cert.KernelIdeal.Gen.W11_main_arg10 m ρ c)⟩)
      (Cert.KernelIdeal.GenP.frame_all (F := Ideal) m ρ)
  · exact (θ_run Cert.ReferenceIdeal.defs _ _).mono (fun r h c =>
        ⟨(h c _).trans (Cert.Bridge.results m ρ m' c (hag c)).1,
         (h c _).trans (Cert.Bridge.results m ρ m' c (hag c)).2,
         (h c _).trans (Cert.Bridge.rU9 m' c Cert.ReferenceIdeal.main_arg0),
         (h c _).trans (Cert.Bridge.rU9 m' c Cert.ReferenceIdeal.main_arg1),
         (h c _).trans (Cert.Bridge.rU9 m' c Cert.ReferenceIdeal.main_arg2),
         (h c _).trans (Cert.Bridge.rU9 m' c Cert.ReferenceIdeal.main_arg3),
         (h c _).trans (Cert.Bridge.rU9 m' c Cert.ReferenceIdeal.main_arg4),
         (h c _).trans (Cert.Bridge.rU9 m' c Cert.ReferenceIdeal.main_arg5),
         (h c _).trans (Cert.Bridge.rU9 m' c Cert.ReferenceIdeal.main_arg6),
         (h c _).trans (Cert.Bridge.rU9 m' c Cert.ReferenceIdeal.main_arg7),
         (h c _).trans (Cert.Bridge.rU9 m' c Cert.ReferenceIdeal.main_arg8),
         (h c _).trans (Cert.Bridge.rU9 m' c Cert.ReferenceIdeal.main_arg9),
         (h c _).trans (Cert.Bridge.rU9 m' c Cert.ReferenceIdeal.main_arg10)⟩)
      (Cert.ReferenceIdeal.RefRun.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
